-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_arg0)) (v1 : (c : Dev Cert.KernelIdeal.nD) → Buf (Elt Ideal) ((c.tc : Thread Cert.KernelIdeal.nD Cert.KernelIdeal.τ).loc Cert.KernelIdeal.main_v0_0)) (v2 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_arg0) = v0 c
          ∧ r.2.mem ((c.tc : Thread Cert.KernelIdeal.nD Cert.KernelIdeal.τ).loc Cert.KernelIdeal.main_v0_0) = v1 c
          ∧ r.2.mem ((c.tc : Thread Cert.KernelIdeal.nD Cert.KernelIdeal.τ).loc Cert.KernelIdeal.main_v5) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_arg0) = v0 c
          ∧ r.2.mem ((c.tc : Thread Cert.ReferenceIdeal.nD Cert.ReferenceIdeal.τ).loc Cert.ReferenceIdeal.main_v10) = v1 c
          ∧ r.2.mem ((c.tc : Thread Cert.ReferenceIdeal.nD Cert.ReferenceIdeal.τ).loc Cert.ReferenceIdeal.main_v41) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1024x256 : Shape := ⟨3, ![32, 1024, 256]⟩
abbrev S32x1024x1024 : Shape := ⟨3, ![32, 1024, 1024]⟩
abbrev S32x1024x128 : Shape := ⟨3, ![32, 1024, 128]⟩
abbrev S256x128 : Shape := ⟨2, ![256, 128]⟩
abbrev S128 : Shape := ⟨1, ![128]⟩
abbrev S_ : Shape := ⟨0, ![]⟩

class Facts : Prop where
  bcast_S_S32x1024x256 : S_.BroadcastsInDim S32x1024x256 (![] : Fin 0 → Fin S32x1024x256.rank)
  reducesTo_S32x1024x256_S_d0_1_2 : S32x1024x256.ReducesTo [0, 1, 2] S_
  h_S_ : 0 < S_.numel
  bcast_S_S32x1024x1024 : S_.BroadcastsInDim S32x1024x1024 (![] : Fin 0 → Fin S32x1024x1024.rank)
  reducesTo_S32x1024x1024_S_d0_1_2 : S32x1024x1024.ReducesTo [0, 1, 2] S_
  bcast_S_S32x1024x128 : S_.BroadcastsInDim S32x1024x128 (![] : Fin 0 → Fin S32x1024x128.rank)
  reducesTo_S32x1024x128_S_d0_1_2 : S32x1024x128.ReducesTo [0, 1, 2] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128 .f32) (main_arg5 : FVec F S256x128 .f32) (main_arg6 : FVec F S128 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S256x128 .f32 := Host.absf main_arg5
  let main_cst_8 : FVec F S_ .f32 := constant S_ .f32 0x7F800000#32
  let main_v25 : FVec F S256x128 .f32 := broadcastInDim S256x128 ![] bcast_S_S256x128 main_cst_8
  let main_v26 : IVec S256x128 1 := cmpf .olt main_v24 main_v25
  let main_c_9 : IVec S_ 1 := constantI S_ 1 1#1
  let main_v27 : IVec S_ 1 := (fun x v => Host.reduce IntOp.andi x v reducesTo_S256x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S32x1024x256 .f32) (main_arg1 : FVec F S32x1024x1024 .f32) (main_arg2 : FVec F S32x1024x128 .f32) (main_arg3 : FVec F S256x128 .f32) (main_arg4 : FVec F S128 .f32) (main_arg5 : FVec F S256x128 .f32) (main_arg6 : FVec F S128 .f32) : IVec S_ 1 :=
  let main_v0 : FVec F S32x1024x256 .f32 := Host.absf main_arg0
  let main_cst : FVec F S_ .f32 := constant S_ .f32 0x7F800000#32
  let main_v1 : FVec F S32x1024x256 .f32 := broadcastInDim S32x1024x256 ![] bcast_S_S32x1024x256 main_cst
  let main_v2 : IVec S32x1024x256 1 := cmpf .olt main_v0 main_v1
  let main_c : IVec S_ 1 := constantI S_ 1 1#1
  let main_v3 : IVec S_ 1 := (fun x v => Host.reduce IntOp.andi x v reducesTo_S32x1024x256_S_d0_1_2 h_S_) main_v2 main_c
  let main_v4 : FVec F S32x1024x1024 .f32 := Host.absf main_arg1
  let main_cst_0 : FVec F S_ .f32 := constant S_ .f32 0x7F800000#32
  let main_v5 : FVec F S32x1024x1024 .f32 := broadcastInDim S32x1024x1024 ![] bcast_S_S32x1024x1024 main_cst_0
  let main_v6 : IVec S32x1024x1024 1 := cmpf .olt main_v4 main_v5
  let main_c_1 : IVec S_ 1 := constantI S_ 1 1#1
  let main_v7 : IVec S_ 1 := (fun x v => Host.reduce IntOp.andi x v reducesTo_S32x1024x1024_S_d0_1_2 h_S_) main_v6 main_c_1
  let main_v8 : IVec S_ 1 := andi main_v3 main_v7
  let main_v9 : FVec F S32x1024x128 .f32 := Host.absf main_arg2
  let main_cst_2 : FVec F S_ .f32 := constant S_ .f32 0x7F800000#32
  let main_v10 : FVec F S32x1024x128 .f32 := broadcastInDim S32x1024x128 ![] bcast_S_S32x1024x128 main_cst_2
  let main_v11 : IVec S32x1024x128 1 := cmpf .olt main_v9 main_v10
  let main_c_3 : IVec S_ 1 := constantI S_ 1 1#1
  let main_v12 : IVec S_ 1 := (fun x v => Host.reduce IntOp.andi x v reducesTo_S32x1024x128_S_d0_1_2 h_S_) main_v11 main_c_3
  let main_v13 : IVec S_ 1 := andi main_v8 main_v12
  let main_v14 : FVec F S256x128 .f32 := Host.absf main_arg3
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg4 main_arg5 main_arg6 main_v13 main_v16
-- ==== Kernel.lean ====
abbrev S32x1024x256 : Shape := ⟨3, ![32, 1024, 256]⟩
abbrev S32x1024x1024 : Shape := ⟨3, ![32, 1024, 1024]⟩
abbrev S32x1024x128 : Shape := ⟨3, ![32, 1024, 128]⟩
abbrev S256x128 : Shape := ⟨2, ![256, 128]⟩
abbrev S128 : Shape := ⟨1, ![128]⟩
abbrev S32x1x1 : Shape := ⟨3, ![32, 1, 1]⟩
abbrev S1x1024x256 : Shape := ⟨3, ![1, 1024, 256]⟩
abbrev S1x1024x128 : Shape := ⟨3, ![1, 1024, 128]⟩
abbrev S1x1024x1024 : Shape := ⟨3, ![1, 1024, 1024]⟩
abbrev S1x1x1 : Shape := ⟨3, ![1, 1, 1]⟩
abbrev S1024x256 : Shape := ⟨2, ![1024, 256]⟩
abbrev S1024x128 : Shape := ⟨2, ![1024, 128]⟩
abbrev S1x128 : Shape := ⟨2, ![1, 128]⟩
abbrev S1024 : Shape := ⟨1, ![1024]⟩
abbrev S1024x1 : Shape := ⟨2, ![1024, 1]⟩
abbrev S1 : Shape := ⟨1, ![1]⟩
abbrev S1x1 : Shape := ⟨2, ![1, 1]⟩
abbrev S1024x1024 : Shape := ⟨2, ![1024, 1024]⟩
abbrev S32 : Shape := ⟨1, ![32]⟩
abbrev S_ : Shape := ⟨0, ![]⟩

abbrev nBuf : Space → Nat
  | .hbm => 17
  | .vmem => 16
  | .smem => 0
  | _ => 0

abbrev bufTy : (tb : Table) → Fin (tcTables nBuf tb) → BufTy
  | .hbm, ⟨0, _⟩ => ⟨S32x1024x256, .f32⟩
  | .hbm, ⟨1, _⟩ => ⟨S32x1024x1024, .f32⟩
  | .hbm, ⟨2, _⟩ => ⟨S32x1024x128, .f32⟩
  | .hbm, ⟨3, _⟩ => ⟨S256x128, .f32⟩
  | .hbm, ⟨4, _⟩ => ⟨S128, .f32⟩
  | .hbm, ⟨5, _⟩ => ⟨S256x128, .f32⟩
  | .hbm, ⟨6, _⟩ => ⟨S128, .f32⟩
  | .hbm, ⟨7, _⟩ => ⟨S32x1024x128, .f32⟩
  | .hbm, ⟨8, _⟩ => ⟨S32x1x1, .f32⟩
  | .hbm, ⟨9, _⟩ => ⟨S32x1x1, .f32⟩
  | .hbm, ⟨10, _⟩ => ⟨S32, .f32⟩
  | .hbm, ⟨11, _⟩ => ⟨S32, .f32⟩
  | .hbm, ⟨12, _⟩ => ⟨S32, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .local _ .vmem, ⟨0, _⟩ => ⟨S1x1024x256, .f32⟩
  | .local _ .vmem, ⟨1, _⟩ => ⟨S1x1024x256, .f32⟩
  | .local _ .vmem, ⟨2, _⟩ => ⟨S1x1024x128, .f32⟩
  | .local _ .vmem, ⟨3, _⟩ => ⟨S1x1024x128, .f32⟩
  | .local _ .vmem, ⟨4, _⟩ => ⟨S1x1024x1024, .f32⟩
  | .local _ .vmem, ⟨5, _⟩ => ⟨S1x1024x1024, .f32⟩
  | .local _ .vmem, ⟨6, _⟩ => ⟨S256x128, .f32⟩
  | .local _ .vmem, ⟨7, _⟩ => ⟨S128, .f32⟩
  | .local _ .vmem, ⟨8, _⟩ => ⟨S256x128, .f32⟩
  | .local _ .vmem, ⟨9, _⟩ => ⟨S128, .f32⟩
  | .local _ .vmem, ⟨10, _⟩ => ⟨S1x1024x128, .f32⟩
  | .local _ .vmem, ⟨11, _⟩ => ⟨S1x1024x128, .f32⟩
  | .local _ .vmem, ⟨12, _⟩ => ⟨S1x1x1, .f32⟩
  | .local _ .vmem, ⟨13, _⟩ => ⟨S1x1x1, .f32⟩
  | .local _ .vmem, ⟨14, _⟩ => ⟨S1x1x1, .f32⟩
  | .local _ .vmem, ⟨15, _⟩ => ⟨S1x1x1, .f32⟩
  | _, _ => ⟨S32x1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  inb_S1x1024x256_S1x1024x256_0_0_0 : ∀ a, (![0, 0, 0] : Fin 3 → Nat) a + S1x1024x256.size a ≤ S1x1024x256.size a
  h_S1x1024x256 : 0 < S1x1024x256.numel
  shapeCasts_S1x1024x256_S1024x256 : S1x1024x256.ShapeCasts S1024x256
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S128_S128_0 : ∀ a, (![0] : Fin 1 → Nat) a + S128.size a ≤ S128.size a
  h_S128 : 0 < S128.numel
  shapeCasts_S128_S1x128 : S128.ShapeCasts S1x128
  broadcasts_S1x128_S1024x128 : S1x128.Broadcasts S1024x128
  inb_S1x1024x128_S1x1024x128_0_0_0 : ∀ a, (![0, 0, 0] : Fin 3 → Nat) a + S1x1024x128.size a ≤ S1x1024x128.size a
  h_S1x1024x128 : 0 < S1x1024x128.numel
  shapeCasts_S1x1024x128_S1024x128 : S1x1024x128.ShapeCasts S1024x128
  shapeCasts_S1024x128_S1x1024x128 : S1024x128.ShapeCasts S1x1024x128
  reduces_S1024x128_S1024 : S1024x128.Reduces [1] S1024
  shapeCasts_S1024_S1024x1 : S1024.ShapeCasts S1024x1
  reduces_S1024x1_S1 : S1024x1.Reduces [0] S1
  shapeCasts_S1_S1x1 : S1.ShapeCasts S1x1
  inb_S1x1x1_S1x1x1_0_0_0 : ∀ a, (![0, 0, 0] : Fin 3 → Nat) a + S1x1x1.size a ≤ S1x1x1.size a
  h_S1x1x1 : 0 < S1x1x1.numel
  shapeCasts_S1x1x1_S1x1 : S1x1x1.ShapeCasts S1x1
  shapeCasts_S1x1_S1x1x1 : S1x1.ShapeCasts S1x1x1
  reduces_S1024x1024_S1024 : S1024x1024.Reduces [1] S1024
  reduces_S1024x128_S128 : S1024x128.Reduces [0] S128
  reduces_S1x128_S1 : S1x128.Reduces [1] S1
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  shapeCasts_S32x1x1_S32 : S32x1x1.ShapeCasts S32
  reducesTo_S32_S_d0 : S32.ReducesTo [0] S_
  h_S_ : 0 < S_.numel
  dot_S1024x256_S256x128_S1024x128_1_0_0_1_n_n_wf : DotDims.WF S1024x256 S256x128 S1024x128 [1] [0] [0] [1] [] []
  dot_S1024x128_S1024x128_S1024x1024_1_1_0_0_n_n_wf : DotDims.WF S1024x128 S1024x128 S1024x1024 [1] [1] [0] [0] [] []
  dot_S1024x1024_S1024x128_S1024x128_1_0_0_1_n_n_wf : DotDims.WF S1024x1024 S1024x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x256.size a ≤ S32x1024x256.size a
  hwx0_0 : ∀ i : grid0.Coords, EltTy.bits .f32 = 32 ∨ (Rect.block (s := S32x1024x256) S1x1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x128.size a ≤ S32x1024x128.size a
  hwx0_1 : ∀ i : grid0.Coords, EltTy.bits .f32 = 32 ∨ (Rect.block (s := S32x1024x128) S1x1024x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x1024.size a ≤ S32x1024x1024.size a
  hwx0_2 : ∀ i : grid0.Coords, EltTy.bits .f32 = 32 ∨ (Rect.block (s := S32x1024x1024) S1x1024x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x128.size a ≤ S256x128.size a
  hwx0_3 : ∀ i : grid0.Coords, EltTy.bits .f32 = 32 ∨ (Rect.block (s := S256x128) S256x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x128.size a ≤ S256x128.size a
  hwx0_5 : ∀ i : grid0.Coords, EltTy.bits .f32 = 32 ∨ (Rect.block (s := S256x128) S256x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x1024x128.size a ≤ S32x1024x128.size a
  hwx0_7 : ∀ i : grid0.Coords, EltTy.bits .f32 = 32 ∨ (Rect.block (s := S32x1024x128) S1x1024x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x1x1.size a ≤ S32x1x1.size a
  hwx0_8 : ∀ i : grid0.Coords, EltTy.bits .f32 = 32 ∨ (Rect.block (s := S32x1x1) S1x1x1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x1x1.size a ≤ S32x1x1.size a
  hwx0_9 : ∀ i : grid0.Coords, EltTy.bits .f32 = 32 ∨ (Rect.block (s := S32x1x1) S1x1x1.size (cc0_transform_9 i) (hinb0_9 i)).WholeWords (EltTy.packing .f32)

variable [Facts₀]

def dot_S1024x256_S256x128_S1024x128_1_0_0_1_n_n : DotDims S1024x256 S256x128 S1024x128 where
  lhsContracting := [1]
  rhsContracting := [0]
  lhsNonContracting := [0]
  rhsNonContracting := [1]
  lhsBatch := []
  rhsBatch := []
  wf := dot_S1024x256_S256x128_S1024x128_1_0_0_1_n_n_wf
def dot_S1024x128_S1024x128_S1024x1024_1_1_0_0_n_n : DotDims S1024x128 S1024x128 S1024x1024 where
  lhsContracting := [1]
  rhsContracting := [1]
  lhsNonContracting := [0]
  rhsNonContracting := [0]
  lhsBatch := []
  rhsBatch := []
  wf := dot_S1024x128_S1024x128_S1024x1024_1_1_0_0_n_n_wf
def dot_S1024x1024_S1024x128_S1024x128_1_0_0_1_n_n : DotDims S1024x1024 S1024x128 S1024x128 where
  lhsContracting := [1]
  rhsContracting := [0]
  lhsNonContracting := [0]
  rhsNonContracting := [1]
  lhsBatch := []
  rhsBatch := []
  wf := dot_S1024x1024_S1024x128_S1024x128_1_0_0_1_n_n_wf

abbrev win0_0 : Pipeline.Window sig grid0 :=
  Pipeline.Window.ofSpec (Memref.whole main_arg0) S1x1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1x1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1x1024x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S256x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v0_0) S1x1024x128.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v0_1) S1x1x1.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v0_2) S1x1x1.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S32x1024x256 : Shape := ⟨3, ![32, 1024, 256]⟩
abbrev S32x1024x1024 : Shape := ⟨3, ![32, 1024, 1024]⟩
abbrev S32x1024x128 : Shape := ⟨3, ![32, 1024, 128]⟩
abbrev S256x128 : Shape := ⟨2, ![256, 128]⟩
abbrev S128 : Shape := ⟨1, ![128]⟩
abbrev S1x1x128 : Shape := ⟨3, ![1, 1, 128]⟩
abbrev S_ : Shape := ⟨0, ![]⟩
abbrev S32 : Shape := ⟨1, ![32]⟩

abbrev nBuf : Space → Nat
  | .hbm => 90
  | .vmem => 0
  | .smem => 0
  | _ => 0

abbrev bufTy : (tb : Table) → Fin (tcTables nBuf tb) → BufTy
  | .hbm, ⟨0, _⟩ => ⟨S32x1024x256, .f32⟩
  | .hbm, ⟨1, _⟩ => ⟨S32x1024x1024, .f32⟩
  | .hbm, ⟨2, _⟩ => ⟨S32x1024x128, .f32⟩
  | .hbm, ⟨3, _⟩ => ⟨S256x128, .f32⟩
  | .hbm, ⟨4, _⟩ => ⟨S128, .f32⟩
  | .hbm, ⟨5, _⟩ => ⟨S256x128, .f32⟩
  | .hbm, ⟨6, _⟩ => ⟨S128, .f32⟩
  | .hbm, ⟨7, _⟩ => ⟨S32x1024x128, .f32⟩
  | .hbm, ⟨8, _⟩ => ⟨S1x1x128, .f32⟩
  | .hbm, ⟨9, _⟩ => ⟨S32x1024x128, .f32⟩
  | .hbm, ⟨10, _⟩ => ⟨S32x1024x128, .f32⟩
  | .hbm, ⟨11, _⟩ => ⟨S32x1024x128, .f32⟩
  | .hbm, ⟨12, _⟩ => ⟨S1x1x128, .f32⟩
  | .hbm, ⟨13, _⟩ => ⟨S32x1024x128, .f32⟩
  | .hbm, ⟨14, _⟩ => ⟨S32x1024x128, .f32⟩
  | .hbm, ⟨15, _⟩ => ⟨S32x1024x128, .f32⟩
  | .hbm, ⟨16, _⟩ => ⟨S32x1024x128, .f32⟩
  | .hbm, ⟨17, _⟩ => ⟨S32x1024x128, .f32⟩
  | .hbm, ⟨18, _⟩ => ⟨S32x1024x1024, .f32⟩
  | .hbm, ⟨19, _⟩ => ⟨S32x1024x1024, .f32⟩
  | .hbm, ⟨20, _⟩ => ⟨S_, .f32⟩
  | .hbm, ⟨21, _⟩ => ⟨S32x1024x1024, .f32⟩
  | .hbm, ⟨22, _⟩ => ⟨S32x1024x1024, .f32⟩
  | .hbm, ⟨23, _⟩ => ⟨S32x1024x1024, .f32⟩
  | .hbm, ⟨24, _⟩ => ⟨S32x1024x1024, .f32⟩
  | .hbm, ⟨25, _⟩ => ⟨S32x1024x1024, .i1⟩
  | .hbm, ⟨26, _⟩ => ⟨S32x1024x1024, .f32⟩
  | .hbm, ⟨27, _⟩ => ⟨S32x1024x1024, .f32⟩
  | .hbm, ⟨28, _⟩ => ⟨S32x1024x1024, .f32⟩
  | .hbm, ⟨29, _⟩ => ⟨S32x1024x1024, .f32⟩
  | .hbm, ⟨30, _⟩ => ⟨S32x1024x1024, .f32⟩
  | .hbm, ⟨31, _⟩ => ⟨S32x1024x1024, .f32⟩
  | .hbm, ⟨32, _⟩ => ⟨S32x1024x1024, .f32⟩
  | .hbm, ⟨33, _⟩ => ⟨S32x1024x1024, .f32⟩
  | .hbm, ⟨34, _⟩ => ⟨S32x1024x1024, .f32⟩
  | .hbm, ⟨35, _⟩ => ⟨S32x1024x1024, .f32⟩
  | .hbm, ⟨36, _⟩ => ⟨S32x1024x1024, .f32⟩
  | .hbm, ⟨37, _⟩ => ⟨S_, .f32⟩
  | .hbm, ⟨38, _⟩ => ⟨S32x1024x1024, .f32⟩
  | .hbm, ⟨39, _⟩ => ⟨S32x1024x1024, .f32⟩
  | .hbm, ⟨40, _⟩ => ⟨S32x1024x1024, .f32⟩
  | .hbm, ⟨41, _⟩ => ⟨S32x1024x1024, .f32⟩
  | .hbm, ⟨42, _⟩ => ⟨S32x1024x1024, .i1⟩
  | .hbm, ⟨43, _⟩ => ⟨S32x1024x1024, .f32⟩
  | .hbm, ⟨44, _⟩ => ⟨S32x1024x1024, .f32⟩
  | .hbm, ⟨45, _⟩ => ⟨S32x1024x1024, .f32⟩
  | .hbm, ⟨46, _⟩ => ⟨S32x1024x1024, .f32⟩
  | .hbm, ⟨47, _⟩ => ⟨S32x1024x1024, .f32⟩
  | .hbm, ⟨48, _⟩ => ⟨S32x1024x1024, .f32⟩
  | .hbm, ⟨49, _⟩ => ⟨S32x1024x1024, .f32⟩
  | .hbm, ⟨50, _⟩ => ⟨S32x1024x1024, .f32⟩
  | .hbm, ⟨51, _⟩ => ⟨S32x1024x1024, .f32⟩
  | .hbm, ⟨52, _⟩ => ⟨S32x1024x1024, .f32⟩
  | .hbm, ⟨53, _⟩ => ⟨S_, .f32⟩
  | .hbm, ⟨54, _⟩ => ⟨S32x1024x1024, .f32⟩
  | .hbm, ⟨55, _⟩ => ⟨S32x1024x1024, .f32⟩
  | .hbm, ⟨56, _⟩ => ⟨S32x1024x1024, .f32⟩
  | .hbm, ⟨57, _⟩ => ⟨S32x1024x1024, .f32⟩
  | .hbm, ⟨58, _⟩ => ⟨S_, .f32⟩
  | .hbm, ⟨59, _⟩ => ⟨S32, .f32⟩
  | .hbm, ⟨60, _⟩ => ⟨S_, .f32⟩
  | .hbm, ⟨61, _⟩ => ⟨S32, .f32⟩
  | .hbm, ⟨62, _⟩ => ⟨S32, .f32⟩
  | .hbm, ⟨63, _⟩ => ⟨S32, .f32⟩
  | .hbm, ⟨64, _⟩ => ⟨S_, .f32⟩
  | .hbm, ⟨65, _⟩ => ⟨S32x1024x128, .f32⟩
  | .hbm, ⟨66, _⟩ => ⟨S32x1024x128, .f32⟩
  | .hbm, ⟨67, _⟩ => ⟨S_, .f32⟩
  | .hbm, ⟨68, _⟩ => ⟨S32x1024x128, .f32⟩
  | .hbm, ⟨69, _⟩ => ⟨S32x1024x128, .f32⟩
  | .hbm, ⟨70, _⟩ => ⟨S32x1024x128, .f32⟩
  | .hbm, ⟨71, _⟩ => ⟨S32x1024x128, .f32⟩
  | .hbm, ⟨72, _⟩ => ⟨S_, .f32⟩
  | .hbm, ⟨73, _⟩ => ⟨S32x1024x128, .f32⟩
  | .hbm, ⟨74, _⟩ => ⟨S32x1024x128, .f32⟩
  | .hbm, ⟨75, _⟩ => ⟨S32x1024x128, .f32⟩
  | .hbm, ⟨76, _⟩ => ⟨S32x1024x128, .f32⟩
  | .hbm, ⟨77, _⟩ => ⟨S_, .f32⟩
  | .hbm, ⟨78, _⟩ => ⟨S32, .f32⟩
  | .hbm, ⟨79, _⟩ => ⟨S_, .f32⟩
  | .hbm, ⟨80, _⟩ => ⟨S32, .f32⟩
  | .hbm, ⟨81, _⟩ => ⟨S32, .f32⟩
  | .hbm, ⟨82, _⟩ => ⟨S_, .f32⟩
  | .hbm, ⟨83, _⟩ => ⟨S32, .f32⟩
  | .hbm, ⟨84, _⟩ => ⟨S32, .f32⟩
  | .hbm, ⟨85, _⟩ => ⟨S32, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S_, .f32⟩
  | _, _ => ⟨S32x1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_call0_v0 : Ref sig .tc := ⟨.hbm, 19, rfl⟩
abbrev main_call0_call0_cst : Ref sig .tc := ⟨.hbm, 20, rfl⟩
abbrev main_call0_call0_v0 : Ref sig .tc := ⟨.hbm, 21, rfl⟩
abbrev main_call0_call0_v1 : Ref sig .tc := ⟨.hbm, 22, rfl⟩
abbrev main_call0_call0_v2 : Ref sig .tc := ⟨.hbm, 23, rfl⟩
abbrev main_call0_call0_v3 : Ref sig .tc := ⟨.hbm, 24, rfl⟩
abbrev main_call0_call0_v4 : Ref sig .tc := ⟨.hbm, 25, rfl⟩
abbrev main_call0_call0_v5 : Ref sig .tc := ⟨.hbm, 26, rfl⟩
abbrev main_call0_call0_v6 : Ref sig .tc := ⟨.hbm, 27, rfl⟩
abbrev main_call0_call0_v7 : Ref sig .tc := ⟨.hbm, 28, rfl⟩
abbrev main_call0_call0_v8 : Ref sig .tc := ⟨.hbm, 29, rfl⟩
abbrev main_call0_call0_v9 : Ref sig .tc := ⟨.hbm, 30, rfl⟩
abbrev main_call0_call0_v10 : Ref sig .tc := ⟨.hbm, 31, rfl⟩
abbrev main_call0_call0_v11 : Ref sig .tc := ⟨.hbm, 32, rfl⟩
abbrev main_call0_v1 : Ref sig .tc := ⟨.hbm, 33, rfl⟩
abbrev main_v12 : Ref sig .tc := ⟨.hbm, 34, rfl⟩
abbrev main_v13 : Ref sig .tc := ⟨.hbm, 35, rfl⟩
abbrev main_call1_v0 : Ref sig .tc := ⟨.hbm, 36, rfl⟩
abbrev main_call1_call0_cst : Ref sig .tc := ⟨.hbm, 37, rfl⟩
abbrev main_call1_call0_v0 : Ref sig .tc := ⟨.hbm, 38, rfl⟩
abbrev main_call1_call0_v1 : Ref sig .tc := ⟨.hbm, 39, rfl⟩
abbrev main_call1_call0_v2 : Ref sig .tc := ⟨.hbm, 40, rfl⟩
abbrev main_call1_call0_v3 : Ref sig .tc := ⟨.hbm, 41, rfl⟩
abbrev main_call1_call0_v4 : Ref sig .tc := ⟨.hbm, 42, rfl⟩
abbrev main_call1_call0_v5 : Ref sig .tc := ⟨.hbm, 43, rfl⟩
abbrev main_call1_call0_v6 : Ref sig .tc := ⟨.hbm, 44, rfl⟩
abbrev main_call1_call0_v7 : Ref sig .tc := ⟨.hbm, 45, rfl⟩
abbrev main_call1_call0_v8 : Ref sig .tc := ⟨.hbm, 46, rfl⟩
abbrev main_call1_call0_v9 : Ref sig .tc := ⟨.hbm, 47, rfl⟩
abbrev main_call1_call0_v10 : Ref sig .tc := ⟨.hbm, 48, rfl⟩
abbrev main_call1_call0_v11 : Ref sig .tc := ⟨.hbm, 49, rfl⟩
abbrev main_call1_v1 : Ref sig .tc := ⟨.hbm, 50, rfl⟩
abbrev main_v14 : Ref sig .tc := ⟨.hbm, 51, rfl⟩
abbrev main_v15 : Ref sig .tc := ⟨.hbm, 52, rfl⟩
abbrev main_cst : Ref sig .tc := ⟨.hbm, 53, rfl⟩
abbrev main_v16 : Ref sig .tc := ⟨.hbm, 54, rfl⟩
abbrev main_v17 : Ref sig .tc := ⟨.hbm, 55, rfl⟩
abbrev main_v18 : Ref sig .tc := ⟨.hbm, 56, rfl⟩
abbrev main_v19 : Ref sig .tc := ⟨.hbm, 57, rfl⟩
abbrev main_cst_0 : Ref sig .tc := ⟨.hbm, 58, rfl⟩
abbrev main_v20 : Ref sig .tc := ⟨.hbm, 59, rfl⟩
abbrev main_cst_1 : Ref sig .tc := ⟨.hbm, 60, rfl⟩
abbrev main_v21 : Ref sig .tc := ⟨.hbm, 61, rfl⟩
abbrev main_v22 : Ref sig .tc := ⟨.hbm, 62, rfl⟩
abbrev main_v23 : Ref sig .tc := ⟨.hbm, 63, rfl⟩
abbrev main_cst_2 : Ref sig .tc := ⟨.hbm, 64, rfl⟩
abbrev main_v24 : Ref sig .tc := ⟨.hbm, 65, rfl⟩
abbrev main_v25 : Ref sig .tc := ⟨.hbm, 66, rfl⟩
abbrev main_cst_3 : Ref sig .tc := ⟨.hbm, 67, rfl⟩
abbrev main_v26 : Ref sig .tc := ⟨.hbm, 68, rfl⟩
abbrev main_v27 : Ref sig .tc := ⟨.hbm, 69, rfl⟩
abbrev main_v28 : Ref sig .tc := ⟨.hbm, 70, rfl⟩
abbrev main_v29 : Ref sig .tc := ⟨.hbm, 71, rfl⟩
abbrev main_cst_4 : Ref sig .tc := ⟨.hbm, 72, rfl⟩
abbrev main_v30 : Ref sig .tc := ⟨.hbm, 73, rfl⟩
abbrev main_v31 : Ref sig .tc := ⟨.hbm, 74, rfl⟩
abbrev main_v32 : Ref sig .tc := ⟨.hbm, 75, rfl⟩
abbrev main_v33 : Ref sig .tc := ⟨.hbm, 76, rfl⟩
abbrev main_cst_5 : Ref sig .tc := ⟨.hbm, 77, rfl⟩
abbrev main_v34 : Ref sig .tc := ⟨.hbm, 78, rfl⟩
abbrev main_cst_6 : Ref sig .tc := ⟨.hbm, 79, rfl⟩
abbrev main_v35 : Ref sig .tc := ⟨.hbm, 80, rfl⟩
abbrev main_v36 : Ref sig .tc := ⟨.hbm, 81, rfl⟩
abbrev main_cst_7 : Ref sig .tc := ⟨.hbm, 82, rfl⟩
abbrev main_v37 : Ref sig .tc := ⟨.hbm, 83, rfl⟩
abbrev main_v38 : Ref sig .tc := ⟨.hbm, 84, rfl⟩
abbrev main_v39 : Ref sig .tc := ⟨.hbm, 85, rfl⟩
abbrev main_cst_8 : Ref sig .tc := ⟨.hbm, 86, rfl⟩
abbrev main_v40 : Ref sig .tc := ⟨.hbm, 87, rfl⟩
abbrev main_cst_9 : Ref sig .tc := ⟨.hbm, 88, rfl⟩
abbrev main_v41 : Ref sig .tc := ⟨.hbm, 89, rfl⟩

abbrev nD : Nat := 1
abbrev τ : Topo := Topo.v7x

variable {F : FTy → Type} [FloatOps F]

class Facts₀ : Prop where
  bcast_S128_S1x1x128_2 : S128.BroadcastsInDim S1x1x128 (![2] : Fin 1 → Fin S1x1x128.rank)
  bcast_S1x1x128_S32x1024x128_0_1_2 : S1x1x128.BroadcastsInDim S32x1024x128 (![0, 1, 2] : Fin 3 → Fin S32x1024x128.rank)
  bcast_S_S32x1024x1024 : S_.BroadcastsInDim S32x1024x1024 (![] : Fin 0 → Fin S32x1024x1024.rank)
  reducesTo_S32x1024x1024_S32_d1_2 : S32x1024x1024.ReducesTo [1, 2] S32
  h_S_ : 0 < S_.numel
  bcast_S_S32 : S_.BroadcastsInDim S32 (![] : Fin 0 → Fin S32.rank)
  bcast_S_S32x1024x128 : S_.BroadcastsInDim S32x1024x128 (![] : Fin 0 → Fin S32x1024x128.rank)
  reducesTo_S32x1024x128_S32_d1_2 : S32x1024x128.ReducesTo [1, 2] S32
  reducesTo_S32_S_d0 : S32.ReducesTo [0] S_
  dot_S32x1024x256_S256x128_S32x1024x128_2_0_01_1_n_n_wf : DotDims.WF S32x1024x256 S256x128 S32x1024x128 [2] [0] [0, 1] [1] [] []
  dot_S32x1024x128_S32x1024x128_S32x1024x1024_2_2_1_1_0_0_wf : DotDims.WF S32x1024x128 S32x1024x128 S32x1024x1024 [2] [2] [1] [1] [0] [0]

variable [Facts₀]

def dot_S32x1024x256_S256x128_S32x1024x128_2_0_01_1_n_n : DotDims S32x1024x256 S256x128 S32x1024x128 where
  lhsContracting := [2]
  rhsContracting := [0]
  lhsNonContracting := [0, 1]
  rhsNonContracting := [1]
  lhsBatch := []
  rhsBatch := []
  wf := dot_S32x1024x256_S256x128_S32x1024x128_2_0_01_1_n_n_wf
def dot_S32x1024x128_S32x1024x128_S32x1024x1024_2_2_1_1_0_0 : DotDims S32x1024x128 S32x1024x128 S32x1024x1024 where
  lhsContracting := [2]
  rhsContracting := [2]
  lhsNonContracting := [1]
  rhsNonContracting := [1]
  lhsBatch := [0]
  rhsBatch := [0]
  wf := dot_S32x1024x128_S32x1024x128_S32x1024x1024_2_2_1_1_0_0_wf

class Facts : Prop extends Facts₀ where

variable [Facts]
-- ==== Proof.Spec.lean ====
/-
  The variational graph auto-encoder loss, per graph, written two ways on the extended reals.

  One graph has nodes n, m (index type ι), input features k (κ) and latent coordinates d (δ). From the node features x,
  the weights wm, ws and the biases bm, bs:
      mean n d = (Σ_k x n k · wm k d) + bm d,     lstd n d = (Σ_k x n k · ws k d) + bs d,
      z n d    = mean n d + exp (lstd n d) · e n d          (e the noise),
      logit n m = Σ_d z n d · z m d.
  With P(t) = max(t,0) + log(1 + exp(-|t|)) (a stable softplus), the two losses of the graph are the Kullback–Leibler term
      -1/2 · mean over (n,d) of  1 + 2·lstd - mean² - exp(2·lstd)
  and the cross entropy of the logits against the adjacency a,
      - mean over (n,m) of  a·(-P(-logit)) + (1 - a)·(-P(logit)).

  The FUSED form (`klK`, `bceK`) squares exp(lstd) instead of taking exp(2·lstd), takes one softplus per pair,
  P(-logit), and gets Σ logit and Σ a·logit from column sums of z and from the product a·z:
      Σ_{n,m} logit n m = Σ_d (Σ_n z n d)²,      Σ_{n,m} a n m · logit n m = Σ_{n,d} z n d · (Σ_m a n m · z m d).
  The PLAIN form (`klR`, `bceR`) is the textbook one. Each definition keeps the order of operations and the float words
  of the program it describes; that the two forms agree on finite data is proved elsewhere.
-/
import Idealize.ShloMosaic.PureOps.Ideal

noncomputable section

open scoped BigOperators

namespace Cert.Vgae

open Idealize.ShloMosaic

variable {ι κ δ : Type} [Fintype ι] [Fintype κ] [Fintype δ]

/-- The float words of 1, 2, -1/2, the number of (n,d) pairs 131072 = 1024·128, the number of (n,m) pairs
    1048576 = 1024², and the number of graphs 32. -/
abbrev wOne : EReal := Ideal.ofBits .f32 0x3F800000#32
abbrev wTwo : EReal := Ideal.ofBits .f32 0x40000000#32
abbrev wNegHalf : EReal := Ideal.ofBits .f32 0xBF000000#32
abbrev wND : EReal := Ideal.ofBits .f32 0x48000000#32
abbrev wNN : EReal := Ideal.ofBits .f32 0x49800000#32
abbrev wB : EReal := Ideal.ofBits .f32 0x42000000#32

section graph

variable (x : ι → κ → EReal) (a : ι → ι → EReal) (e : ι → δ → EReal) (wm ws : κ → δ → EReal) (bm bs : δ → EReal)

/-- The mean head: a dense layer of the node features. -/
def mean (n : ι) (d : δ) : EReal := (∑ k, x n k * wm k d) + bm d
/-- The log-standard-deviation head. -/
def lstd (n : ι) (d : δ) : EReal := (∑ k, x n k * ws k d) + bs d
/-- The latent sample: mean + exp(lstd) · noise. -/
def z (n : ι) (d : δ) : EReal := mean x wm bm n d + Ideal.exp (lstd x ws bs n d) * e n d
/-- The reconstruction logit of the pair (n, m): the inner product of their latent rows. -/
def logit (n m : ι) : EReal := ∑ d, z x e wm ws bm bs n d * z x e wm ws bm bs m d

/-- The stable softplus max(t,0) + log1p(exp(0 - |t - 0|)), |u| = max(u, -u): the fused form's spelling. -/
def spK (t : EReal) : EReal := max t 0 + Ideal.log1p (Ideal.exp (0 - max (t - 0) (-(t - 0))))
/-- The same softplus with the exponent negated rather than subtracted from zero: the plain form's spelling. -/
def spR (t : EReal) : EReal := max t 0 + Ideal.log1p (Ideal.exp (-(max (t - 0) (-(t - 0)))))

/-! ### The fused form -/

/-- One (n,d) term of the Kullback–Leibler sum, with exp(lstd) squared. -/
def klTermK (n : ι) (d : δ) : EReal :=
  ((wOne + wTwo * lstd x ws bs n d) - mean x wm bm n d * mean x wm bm n d)
    - Ideal.exp (lstd x ws bs n d) * Ideal.exp (lstd x ws bs n d)
/-- The graph's Kullback–Leibler loss, fused: (-1/2 · Σ_n Σ_d term) / 131072. -/
def klK : EReal := Ideal.div (wNegHalf * ∑ n, ∑ d, klTermK x wm ws bm bs n d) wND
/-- The graph's cross entropy, fused: ((Σ_n Σ_m P(0 - logit) + Σ_d (Σ_n z)²) - Σ_n Σ_d z·(Σ_m a·z)) / 1048576. -/
def bceK : EReal :=
  Ideal.div
    (((∑ n, ∑ m, spK (0 - logit x e wm ws bm bs n m))
        + ∑ d, (∑ n, z x e wm ws bm bs n d) * (∑ n, z x e wm ws bm bs n d))
      - ∑ n, ∑ d, z x e wm ws bm bs n d * ∑ m, a n m * z x e wm ws bm bs m d)
    wNN

/-! ### The plain form -/

/-- One (n,d) term of the Kullback–Leibler sum, with exp(2·lstd). -/
def klTermR (n : ι) (d : δ) : EReal :=
  ((wOne + wTwo * lstd x ws bs n d) - mean x wm bm n d * mean x wm bm n d) - Ideal.exp (wTwo * lstd x ws bs n d)
/-- The graph's Kullback–Leibler loss, plain: -1/2 · ((0 + Σ_n Σ_d term) / 131072). -/
def klR : EReal := wNegHalf * Ideal.div (0 + ∑ n, ∑ d, klTermR x wm ws bm bs n d) wND
/-- One (n,m) term of the cross entropy: a · log σ(logit) + (1 - a) · log σ(-logit), log σ(u) = -P(-u). -/
def bceTermR (n m : ι) : EReal :=
  a n m * (-(spR (-(logit x e wm ws bm bs n m)))) + (wOne - a n m) * (-(spR (-(-(logit x e wm ws bm bs n m)))))
/-- The graph's cross entropy, plain: -((0 + Σ_n Σ_m term) / 1048576). -/
def bceR : EReal := -(Ideal.div (0 + ∑ n, ∑ m, bceTermR x a e wm ws bm bs n m) wNN)

end graph

end Cert.Vgae

end
-- ==== Proof.LibColsMatmul.lean ====
/-
  Rows against columns: the plain matrix product read at an index, whatever the operands' float formats.

  For x of shape [a, n] and w of shape [n, b], the product contracting axis 1 of x with axis 0 of w has shape [a, b],
  and its entry (p, e) is the sum over k < n of x(p, k) * w(k, e). On the extended reals the matrix-unit product into a
  zero accumulator is exactly that sum — also when the operands are held in shorter float formats than the
  accumulator, a change of format being the identity there.
-/
import Idealize.ShloMosaic.PureOps.Ideal.Laws
import Idealize.ShloMosaic.Lib.ValueIdx

noncomputable section

namespace Cert.ColsMatmul

open Idealize.ShloMosaic Idealize.ShloMosaic.ValueIdx

variable {a b n : ℕ}

/-- The dimension numbers "contract axis 1 of the left operand with axis 0 of the right, no batch axis". -/
abbrev colsDims (wf : DotDims.WF ⟨2, ![a, n]⟩ ⟨2, ![n, b]⟩ ⟨2, ![a, b]⟩ [1] [0] [0] [1] [] []) :
    DotDims ⟨2, ![a, n]⟩ ⟨2, ![n, b]⟩ ⟨2, ![a, b]⟩ where
  lhsContracting := [1]
  rhsContracting := [0]
  lhsNonContracting := [0]
  rhsNonContracting := [1]
  lhsBatch := []
  rhsBatch := []
  wf := wf

variable (wf : DotDims.WF ⟨2, ![a, n]⟩ ⟨2, ![n, b]⟩ ⟨2, ![a, b]⟩ [1] [0] [0] [1] [] [])

/-- The left operand's index at output (p, e) and contraction index q: row p, -/
theorem lhs_row (i : (⟨2, ![a, b]⟩ : Shape).Idx) (q : (colsDims wf).contr.Idx) :
    ((colsDims wf).lhsIdx i q 0).val = (i 0).val := by
  unfold DotDims.lhsIdx
  rw [dif_neg (show ¬(0 : Fin (⟨2, ![a, n]⟩ : Shape).rank) ∈ (colsDims wf).lhsBatch from List.not_mem_nil),
    dif_pos (show (0 : Fin (⟨2, ![a, n]⟩ : Shape).rank) ∈ (colsDims wf).lhsNonContracting from List.mem_singleton.mpr rfl)]
  rfl
/-- column q. -/
theorem lhs_col (i : (⟨2, ![a, b]⟩ : Shape).Idx) (q : (colsDims wf).contr.Idx) :
    ((colsDims wf).lhsIdx i q 1).val = (q ⟨0, Nat.one_pos⟩).val :=
  (colsDims wf).lhsIdx_val_of_single rfl i q
/-- The right operand's: row q, -/
theorem rhs_row (i : (⟨2, ![a, b]⟩ : Shape).Idx) (q : (colsDims wf).contr.Idx) :
    ((colsDims wf).rhsIdx i q 0).val = (q ⟨0, Nat.one_pos⟩).val :=
  (colsDims wf).rhsIdx_val_of_single rfl i q
/-- column e. -/
theorem rhs_col (i : (⟨2, ![a, b]⟩ : Shape).Idx) (q : (colsDims wf).contr.Idx) :
    ((colsDims wf).rhsIdx i q 1).val = (i 1).val := by
  unfold DotDims.rhsIdx
  rw [dif_neg (show ¬(1 : Fin (⟨2, ![n, b]⟩ : Shape).rank) ∈ (colsDims wf).rhsBatch from List.not_mem_nil),
    dif_pos (show (1 : Fin (⟨2, ![n, b]⟩ : Shape).rank) ∈ (colsDims wf).rhsNonContracting from List.mem_singleton.mpr rfl)]
  rfl

/-- The contraction's sum at (p, e), re-indexed by the one contracted coordinate: row p of x against column e of w. -/
theorem contraction_cols (x : (⟨2, ![a, n]⟩ : Shape).Idx → EReal) (w : (⟨2, ![n, b]⟩ : Shape).Idx → EReal) (p : Fin a) (e : Fin b) :
    ∑ q : (colsDims wf).contr.Idx, x ((colsDims wf).lhsIdx (ix2 p e) q) * w ((colsDims wf).rhsIdx (ix2 p e) q)
      = ∑ k : Fin n, x (ix2 p k) * w (ix2 k e) := by
  rw [← Equiv.sum_comp (contrEquiv1 (colsDims wf) n rfl rfl).symm]
  refine Finset.sum_congr rfl fun k _ => ?_
  have hk := contrEquiv1_symm_val (colsDims wf) n rfl rfl k
  have el : (colsDims wf).lhsIdx (ix2 p e) ((contrEquiv1 (colsDims wf) n rfl rfl).symm k) = ix2 p k := funext fun ax => Fin.ext (by
    match ax with
    | ⟨0, _⟩ => exact lhs_row wf _ _
    | ⟨1, _⟩ => exact (lhs_col wf _ _).trans hk)
  have er : (colsDims wf).rhsIdx (ix2 p e) ((contrEquiv1 (colsDims wf) n rfl rfl).symm k) = ix2 k e := funext fun ax => Fin.ext (by
    match ax with
    | ⟨0, _⟩ => exact (rhs_row wf _ _).trans hk
    | ⟨1, _⟩ => exact rhs_col wf _ _)
  rw [el, er]

/-- The matrix-unit product of an [a, n] and an [n, b] operand of any float formats into the zero accumulator is, at
    (p, e), the sum over k of x(p,k) * w(k,e); the dimension record may be any record equal to `colsDims`. -/
theorem cols_matmul {φ₁ φ₂ : FTy} (d : DotDims ⟨2, ![a, n]⟩ ⟨2, ![n, b]⟩ ⟨2, ![a, b]⟩) (hd : d = colsDims wf)
    (x : FVec Ideal ⟨2, ![a, n]⟩ φ₁) (w : FVec Ideal ⟨2, ![n, b]⟩ φ₂) (p : Fin a) (e : Fin b) :
    FloatOps.matmul d none x w (constant ⟨2, ![a, b]⟩ .f32 0x00000000#32) (ix2 p e)
      = ∑ k : Fin n, x (ix2 p k) * w (ix2 k e) := by
  subst hd
  exact (Ideal.matmul_constant_zero_apply (colsDims wf) none x w (ix2 p e)).trans (contraction_cols wf x w p e)

end Cert.ColsMatmul

end
-- ==== Proof.LibRowLayout.lean ====
/-
  A vector laid along the rows of a matrix, a scalar spread over a matrix, and a flat array read as rows — each
  read at an index.

  A length-b vector v becomes an [a, b] matrix whose every row is v: the kernel does it by a cast to [1, b] and a
  broadcast, the host by two broadcasts along named axes; either way entry (p, c) is v(c). A scalar spread over any
  shape reads the scalar everywhere. A flat array of a*b entries read as a rows of b (or the other way round) keeps
  the row-major position: entry (r, l) of the matrix is entry r*b + l of the flat array.
-/
import Idealize.ShloMosaic.Lib.Pipeline.Value
import Idealize.ShloMosaic.Lib.ValueIdx
import Idealize.ShloMosaic.Lib.ValueLayout

noncomputable section

namespace Cert.RowLayout

open Idealize.ShloMosaic Idealize.ShloMosaic.ValueIdx

variable {α : Type} {a b : ℕ}

/-- The kernel's form: v cast to one row and that row broadcast over a rows reads v(c) at (p, c). -/
theorem rowVector_apply (v : (⟨1, ![b]⟩ : Shape).Idx → α) (h1 : (⟨1, ![b]⟩ : Shape).ShapeCasts ⟨2, ![1, b]⟩)
    (h2 : (⟨2, ![1, b]⟩ : Shape).Broadcasts ⟨2, ![a, b]⟩) (p : Fin a) (c : Fin b) :
    broadcastTo ⟨2, ![a, b]⟩ (shapeCast ⟨2, ![1, b]⟩ v h1) h2 (ix2 p c) = v (ix1 c) :=
  (broadcastTo_1b_ab_apply _ h2 p c).trans (shapeCast_a_1a_apply v h1 0 c)

/-- The host's form: v broadcast along axis 1 into one row, the row broadcast along both axes over a rows, reads
    v(c) at (p, c). -/
theorem hostRowVector_apply (v : (⟨1, ![b]⟩ : Shape).Idx → α)
    (h1 : (⟨1, ![b]⟩ : Shape).BroadcastsInDim ⟨2, ![1, b]⟩ (![1] : Fin 1 → Fin 2))
    (h2 : (⟨2, ![1, b]⟩ : Shape).BroadcastsInDim ⟨2, ![a, b]⟩ (![0, 1] : Fin 2 → Fin 2)) (p : Fin a) (c : Fin b) :
    broadcastInDim ⟨2, ![a, b]⟩ ![0, 1] h2 (broadcastInDim ⟨2, ![1, b]⟩ ![1] h1 v) (ix2 p c) = v (ix1 c) := by
  refine (broadcastInDim_apply ![0, 1] h2 _ (ix2 p c) (ix2 (0 : Fin 1) c) fun ax => ?_).trans ?_
  · match ax with
    | ⟨0, _⟩ => rfl
    | ⟨1, _⟩ =>
      show c.val = if b = 1 then 0 else c.val
      split
      · have := c.isLt; omega
      · rfl
  · refine broadcastInDim_apply ![1] h1 v (ix2 (0 : Fin 1) c) (ix1 c) fun ax => ?_
    match ax with
    | ⟨0, _⟩ =>
      show c.val = if b = 1 then 0 else c.val
      split
      · have := c.isLt; omega
      · rfl

/-- A scalar broadcast over a matrix reads the scalar at every index. -/
theorem hostScalar_apply (v : (⟨0, ![]⟩ : Shape).Idx → α)
    (h : (⟨0, ![]⟩ : Shape).BroadcastsInDim ⟨2, ![a, b]⟩ (![] : Fin 0 → Fin 2)) (j : (⟨2, ![a, b]⟩ : Shape).Idx) :
    broadcastInDim ⟨2, ![a, b]⟩ ![] h v j = v ix0 :=
  broadcastInDim_apply ![] h v j ix0 fun ax => ax.elim0

variable {N : ℕ}

/-- A flat array cast to a rows of b reads, at (r, l), the flat entry at position r*b + l. -/
theorem rows_of_flat_apply (v : (⟨1, ![N]⟩ : Shape).Idx → α) (h : (⟨1, ![N]⟩ : Shape).ShapeCasts ⟨2, ![a, b]⟩)
    (r : Fin a) (l : Fin b) (q : Fin N) (hq : q.val = r.val * b + l.val) :
    shapeCast ⟨2, ![a, b]⟩ v h (ix2 r l) = v (ix1 q) :=
  shapeCast_apply v h _ _ (by
    rw [Shape.rowMajor_val_two, Shape.rowMajor_val_one]
    exact hq)

/-- A matrix of a rows of b cast to a flat array reads, at position r*b + l, the entry (r, l). -/
theorem flat_of_rows_apply (v : (⟨2, ![a, b]⟩ : Shape).Idx → α) (h : (⟨2, ![a, b]⟩ : Shape).ShapeCasts ⟨1, ![N]⟩)
    (r : Fin a) (l : Fin b) (q : Fin N) (hq : q.val = r.val * b + l.val) :
    shapeCast ⟨1, ![N]⟩ v h (ix1 q) = v (ix2 r l) :=
  shapeCast_apply v h _ _ (by
    rw [Shape.rowMajor_val_two, Shape.rowMajor_val_one]
    exact hq.symm)

end Cert.RowLayout

end
-- ==== Proof.LibRowOps.lean ====
/-
  Rows against rows: reading a matrix product that contracts the LAST axis of both operands, and a sum over the
  last axis of a matrix, at an index — on the extended reals, where a product is the exact sum of products.

  For x of shape [a, n] and w of shape [b, n], the product contracting axis 1 of both has shape [a, b], and its entry
  (p, e) is the sum over k < n of x(p, k) * w(e, k): the inner product of row p of x with row e of w. The kernel's
  matrix-unit product into a zero accumulator and the host's general dot product are both that sum. A sum over
  the last axis of an [a, b] array at row p is the sum over k < b of the entries (p, k), preceded on the host by
  the initial value.
-/
import Idealize.ShloMosaic.PureOps.Ideal.Laws
import Idealize.ShloMosaic.Lib.ValueIdx

noncomputable section

namespace Cert.RowOps

open Idealize.ShloMosaic Idealize.ShloMosaic.ValueIdx

variable {a b n : ℕ}

/-- The dimension numbers "contract axis 1 of both operands, keep axis 0 of each, no batch axis". -/
abbrev rowsDims (wf : DotDims.WF ⟨2, ![a, n]⟩ ⟨2, ![b, n]⟩ ⟨2, ![a, b]⟩ [1] [1] [0] [0] [] []) :
    DotDims ⟨2, ![a, n]⟩ ⟨2, ![b, n]⟩ ⟨2, ![a, b]⟩ where
  lhsContracting := [1]
  rhsContracting := [1]
  lhsNonContracting := [0]
  rhsNonContracting := [0]
  lhsBatch := []
  rhsBatch := []
  wf := wf

variable (wf : DotDims.WF ⟨2, ![a, n]⟩ ⟨2, ![b, n]⟩ ⟨2, ![a, b]⟩ [1] [1] [0] [0] [] [])

theorem contr_rank : (rowsDims wf).contr.rank = 1 := rfl
theorem contr_size : (rowsDims wf).contr.size ⟨0, Nat.one_pos⟩ = n := rfl

/-- The left operand's index at output (p, e) and contraction index q: row p. -/
theorem lhs_row (i : (⟨2, ![a, b]⟩ : Shape).Idx) (q : (rowsDims wf).contr.Idx) :
    ((rowsDims wf).lhsIdx i q 0).val = (i 0).val := by
  unfold DotDims.lhsIdx
  rw [dif_neg (show ¬(0 : Fin (⟨2, ![a, n]⟩ : Shape).rank) ∈ (rowsDims wf).lhsBatch from List.not_mem_nil),
    dif_pos (show (0 : Fin (⟨2, ![a, n]⟩ : Shape).rank) ∈ (rowsDims wf).lhsNonContracting from List.mem_singleton.mpr rfl)]
  rfl
/-- … column q. -/
theorem lhs_col (i : (⟨2, ![a, b]⟩ : Shape).Idx) (q : (rowsDims wf).contr.Idx) :
    ((rowsDims wf).lhsIdx i q 1).val = (q ⟨0, Nat.one_pos⟩).val :=
  (rowsDims wf).lhsIdx_val_of_single rfl i q
/-- The right operand's: row e, -/
theorem rhs_row (i : (⟨2, ![a, b]⟩ : Shape).Idx) (q : (rowsDims wf).contr.Idx) :
    ((rowsDims wf).rhsIdx i q 0).val = (i 1).val := by
  unfold DotDims.rhsIdx
  rw [dif_neg (show ¬(0 : Fin (⟨2, ![b, n]⟩ : Shape).rank) ∈ (rowsDims wf).rhsBatch from List.not_mem_nil),
    dif_pos (show (0 : Fin (⟨2, ![b, n]⟩ : Shape).rank) ∈ (rowsDims wf).rhsNonContracting from List.mem_singleton.mpr rfl)]
  rfl
/-- column q. -/
theorem rhs_col (i : (⟨2, ![a, b]⟩ : Shape).Idx) (q : (rowsDims wf).contr.Idx) :
    ((rowsDims wf).rhsIdx i q 1).val = (q ⟨0, Nat.one_pos⟩).val :=
  (rowsDims wf).rhsIdx_val_of_single rfl i q

/-- The contraction's sum at (p, e), re-indexed by the one contracted coordinate: the inner product of row p of x with
    row e of w. -/
theorem contraction_rows (x : (⟨2, ![a, n]⟩ : Shape).Idx → EReal) (w : (⟨2, ![b, n]⟩ : Shape).Idx → EReal) (p : Fin a) (e : Fin b) :
    ∑ q : (rowsDims wf).contr.Idx, x ((rowsDims wf).lhsIdx (ix2 p e) q) * w ((rowsDims wf).rhsIdx (ix2 p e) q)
      = ∑ k : Fin n, x (ix2 p k) * w (ix2 e k) := by
  rw [← Equiv.sum_comp (contrEquiv1 (rowsDims wf) n rfl rfl).symm]
  refine Finset.sum_congr rfl fun k _ => ?_
  have hk := contrEquiv1_symm_val (rowsDims wf) n rfl rfl k
  have el : (rowsDims wf).lhsIdx (ix2 p e) ((contrEquiv1 (rowsDims wf) n rfl rfl).symm k) = ix2 p k := funext fun ax => Fin.ext (by
    match ax with
    | ⟨0, _⟩ => exact lhs_row wf _ _
    | ⟨1, _⟩ => exact (lhs_col wf _ _).trans hk)
  have er : (rowsDims wf).rhsIdx (ix2 p e) ((contrEquiv1 (rowsDims wf) n rfl rfl).symm k) = ix2 e k := funext fun ax => Fin.ext (by
    match ax with
    | ⟨0, _⟩ => exact rhs_row wf _ _
    | ⟨1, _⟩ => exact (rhs_col wf _ _).trans hk)
  rw [el, er]

/-- The kernel's matrix-unit product into the zero accumulator, at (p, e). -/
theorem matmul_rows_apply (prec : Option ContractPrecision) (x : FVec Ideal ⟨2, ![a, n]⟩ .f32) (w : FVec Ideal ⟨2, ![b, n]⟩ .f32)
    (p : Fin a) (e : Fin b) :
    FloatOps.matmul (rowsDims wf) prec x w (constant ⟨2, ![a, b]⟩ .f32 0x00000000#32) (ix2 p e)
      = ∑ k : Fin n, x (ix2 p k) * w (ix2 e k) :=
  (Ideal.matmul_constant_zero_apply (rowsDims wf) prec x w (ix2 p e)).trans (contraction_rows wf x w p e)

/-- The host's general dot product, at (p, e). -/
theorem dotGeneral_rows_apply (prec : Option ContractPrecision) (sched : HostSchedule) (x : FVec Ideal ⟨2, ![a, n]⟩ .f32)
    (w : FVec Ideal ⟨2, ![b, n]⟩ .f32) (p : Fin a) (e : Fin b) :
    FloatOps.dotGeneral (rowsDims wf) prec sched x w (ix2 p e) = ∑ k : Fin n, x (ix2 p k) * w (ix2 e k) :=
  (Ideal.dotGeneral_apply (rowsDims wf) prec sched x w (ix2 p e)).trans (contraction_rows wf x w p e)

/-- A kernel's sum over the last axis of an [a, b] vector, at row p: the sum of the row's entries. -/
theorem laneSum_apply (src : FVec Ideal ⟨2, ![a, b]⟩ .f32) (h : Shape.Reduces ⟨2, ![a, b]⟩ [1] ⟨1, ![a]⟩)
    (hφ : FKind.Formats .f32) (hacc : (0x00000000#32 : BitVec 32) = FKind.add.neutral .f32 hφ) (p : Fin a) :
    multiReduction .add [1] ⟨1, ![a]⟩ src 0x00000000#32 h hφ hacc (ix1 p) = ∑ k : Fin b, src (ix2 p k) := by
  refine (Ideal.multiReduction_add_single src 0x00000000#32 h hφ hacc (ix1 p)).trans ?_
  refine Finset.sum_congr rfl fun k _ => congrArg src (funext fun ax => Fin.ext ?_)
  match ax with
  | ⟨0, _⟩ => rfl
  | ⟨1, _⟩ => rfl

/-- The host's sum over the last axis of an [a, b] array from the initial value `init`, at row p. -/
theorem hostRowSum_apply (src : FVec Ideal ⟨2, ![a, b]⟩ .f32) (h' : Shape.ReducesTo ⟨2, ![a, b]⟩ [1] ⟨1, ![a]⟩)
    (h : Shape.Reduces ⟨2, ![a, b]⟩ [1] ⟨1, ![a]⟩) (init : EReal) (p : Fin a) :
    Ideal.hostReduceAdd h' src init (ix1 p) = init + ∑ k : Fin b, src (ix2 p k) := by
  refine (Ideal.hostReduceAdd_single h' h src init (ix1 p)).trans ?_
  refine congrArg (init + ·) (Finset.sum_congr rfl fun k _ => congrArg src (funext fun ax => Fin.ext ?_))
  match ax with
  | ⟨0, _⟩ => rfl
  | ⟨1, _⟩ => rfl

end Cert.RowOps

end
-- ==== Proof.LibRowOpsFormats.lean ====
/-
  Rows against rows, whatever the operands' float formats.

  A matrix-unit product that contracts the last axis of an [a, n] and a [b, n] operand into a zero accumulator is, on the
  extended reals, the sum over k of x(p,k) * w(e,k) at (p, e) — also when the two operands are held in shorter float
  formats than the accumulator (a change of format is the identity there). The dimension record may be any record equal
  to "contract axis 1 of both, keep axis 0 of each, no batch axis".
-/
import proofs.«175631_j47579647705163_2_alg».proof.Proof.LibRowOps
import Idealize.ShloMosaic.PureOps.Ideal.Laws
import Idealize.ShloMosaic.Lib.ValueIdx

noncomputable section

open scoped BigOperators

namespace Cert.RowOps

open Idealize.ShloMosaic Idealize.ShloMosaic.ValueIdx

/-- A product contracting the last axis of an [a, n] and a [b, n] operand into the zero accumulator, whatever the
    operands' float formats, is at (p, e) the sum over k of x(p,k) * w(e,k). -/
theorem rows_matmul {a b n : ℕ} {φ₁ φ₂ : FTy}
    (wf : DotDims.WF ⟨2, ![a, n]⟩ ⟨2, ![b, n]⟩ ⟨2, ![a, b]⟩ [1] [1] [0] [0] [] [])
    (d : DotDims ⟨2, ![a, n]⟩ ⟨2, ![b, n]⟩ ⟨2, ![a, b]⟩) (hd : d = rowsDims wf)
    (x : FVec Ideal ⟨2, ![a, n]⟩ φ₁) (w : FVec Ideal ⟨2, ![b, n]⟩ φ₂) (p : Fin a) (e : Fin b) :
    FloatOps.matmul d none x w (constant ⟨2, ![a, b]⟩ .f32 0x00000000#32) (ix2 p e)
      = ∑ k : Fin n, x (ix2 p k) * w (ix2 e k) := by
  subst hd
  exact (Ideal.matmul_constant_zero_apply (rowsDims wf) none x w (ix2 p e)).trans (contraction_rows wf x w p e)

end Cert.RowOps

end
-- ==== Proof.LibColumnSums.lean ====
/-
  Sums down the columns of a matrix, and a vector stood up as a one-column matrix — each read at an index, on the
  extended reals.

  A sum over the FIRST axis of an [a, b] array is, at column q, the sum over k < a of the entries (k, q). A length-a
  vector cast to an [a, 1] matrix (the shape a row statistic keeps when its reduced axis is kept as a unit axis) reads,
  at (p, 0), the vector's entry p.
-/
import Idealize.ShloMosaic.PureOps.Ideal.Laws
import Idealize.ShloMosaic.Lib.ValueIdx
import Idealize.ShloMosaic.Lib.Pipeline.Value

noncomputable section

open scoped BigOperators

namespace Cert.ColumnSums

open Idealize.ShloMosaic Idealize.ShloMosaic.ValueIdx

variable {a b : ℕ}

/-- A kernel's sum over the first axis of an [a, b] vector, at column q: the sum of the column's entries. -/
theorem colSum_apply (src : FVec Ideal ⟨2, ![a, b]⟩ .f32) (h : Shape.Reduces ⟨2, ![a, b]⟩ [0] ⟨1, ![b]⟩)
    (hφ : FKind.Formats .f32) (hacc : (0x00000000#32 : BitVec 32) = FKind.add.neutral .f32 hφ) (q : Fin b) :
    multiReduction .add [0] ⟨1, ![b]⟩ src 0x00000000#32 h hφ hacc (ix1 q) = ∑ k : Fin a, src (ix2 k q) := by
  refine (Ideal.multiReduction_add_single src 0x00000000#32 h hφ hacc (ix1 q)).trans ?_
  refine Finset.sum_congr rfl fun k _ => congrArg src (funext fun ax => Fin.ext ?_)
  match ax with
  | ⟨0, _⟩ => rfl
  | ⟨1, _⟩ => rfl

/-- A length-a vector cast to an [a, 1] matrix reads, at (p, u), the vector's entry p, whatever the unit coordinate u. -/
theorem shapeCast_a_a1_apply {α : Type} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

end Cert.ColumnSums

end
-- ==== Proof.KernelLatent.lean ====
/-
  The fused program's latent sample, read at an index.

  A block is one graph: node features v0 [1,1024,256], noise v18 [1,1024,128], the two weight matrices [256,128] and the
  two bias vectors [128]. The body computes, for node n and latent coordinate d,
      mean n d = (Σ_k v0(0,n,k) · v3(k,d)) + v8(d),      lstd n d = (Σ_k v0(0,n,k) · v5(k,d)) + v13(d),
      z n d    = mean n d + exp(lstd n d) · v18(0,n,d);
  the features and weights pass through a shorter float format on the way into the matrix products, which changes no
  extended real. Each lemma reads one stage of the body at (n, d) as the corresponding function of `Cert.Vgae`.
-/
import proofs.«175631_j47579647705163_2_alg».proof.Proof.Gen.KernelIdeal.Skeleton
import proofs.«175631_j47579647705163_2_alg».proof.Proof.Spec
import proofs.«175631_j47579647705163_2_alg».proof.Proof.LibColsMatmul
import proofs.«175631_j47579647705163_2_alg».proof.Proof.LibRowLayout
import Idealize.ShloMosaic.Lib.ValueIdx
import Idealize.ShloMosaic.Lib.ValueLayout
import Idealize.ShloMosaic.Lib.Pipeline.Value
import Idealize.ShloMosaic.PureOps.Ideal.Laws

noncomputable section
open scoped BigOperators
namespace Cert.KernelIdeal.Body
open Idealize.ShloMosaic Idealize.ShloMosaic.ValueIdx Cert.KernelIdeal Cert.KernelIdeal.Gen Cert.Vgae

/-- The node features of the block's one graph, as a matrix indexed by (node, feature). -/
abbrev feats (v0 : Vec Ideal S1x1024x256 .f32) : Fin 1024 → Fin 256 → EReal := fun n k => v0 (ix3 (0 : Fin 1) n k)
/-- The noise of the block's one graph, by (node, latent coordinate). -/
abbrev noise (v18 : Vec Ideal S1x1024x128 .f32) : Fin 1024 → Fin 128 → EReal := fun n d => v18 (ix3 (0 : Fin 1) n d)
/-- The adjacency of the block's one graph, by (node, node). -/
abbrev adjm (v71 : Vec Ideal S1x1024x1024 .f32) : Fin 1024 → Fin 1024 → EReal := fun n m => v71 (ix3 (0 : Fin 1) n m)
/-- A weight matrix by (feature, latent coordinate). -/
abbrev wmat (v3 : Vec Ideal S256x128 .f32) : Fin 256 → Fin 128 → EReal := fun k d => v3 (ix2 k d)
/-- A bias vector by latent coordinate. -/
abbrev bvec (v8 : Vec Ideal S128 .f32) : Fin 128 → EReal := fun d => v8 (ix1 d)

/-- The features, recast from [1,1024,256] to [1024,256] and to the shorter format, read (0, n, k) at (n, k). -/
theorem pay2_apply (v0 : Vec Ideal S1x1024x256 .f32) (n : Fin 1024) (k : Fin 256) :
    k0_pay2 (F := Ideal) v0 (ix2 n k) = v0 (ix3 (0 : Fin 1) n k) := by
  unfold k0_pay2
  exact shapeCast_1ab_ab_apply v0 _ n k

/-- The mean head at (n, d): the row of features against the column of weights, plus the bias. -/
theorem pay3_apply (v0 : Vec Ideal S1x1024x256 .f32) (v3 : Vec Ideal S256x128 .f32) (v8 : Vec Ideal S128 .f32)
    (n : Fin 1024) (d : Fin 128) :
    k0_pay3 (F := Ideal) v0 v3 v8 (ix2 n d) = mean (feats v0) (wmat v3) (bvec v8) n d := by
  unfold k0_pay3 mean
  try dsimp only
  rw [addf_apply]
  refine congrArg₂ (· + ·) ?_ ?_
  · refine (ColsMatmul.cols_matmul _ _ rfl _ _ n d).trans ?_
    exact Finset.sum_congr rfl fun k _ => by rw [pay2_apply]; rfl
  · exact RowLayout.rowVector_apply _ _ _ n d

/-- The log-standard-deviation head at (n, d). -/
theorem pay4_apply (v0 : Vec Ideal S1x1024x256 .f32) (v5 : Vec Ideal S256x128 .f32) (v13 : Vec Ideal S128 .f32)
    (n : Fin 1024) (d : Fin 128) :
    k0_pay4 (F := Ideal) v0 v5 v13 (ix2 n d) = lstd (feats v0) (wmat v5) (bvec v13) n d := by
  unfold k0_pay4 lstd
  try dsimp only
  rw [addf_apply]
  refine congrArg₂ (· + ·) ?_ ?_
  · refine (ColsMatmul.cols_matmul _ _ rfl _ _ n d).trans ?_
    exact Finset.sum_congr rfl fun k _ => by rw [pay2_apply]; rfl
  · exact RowLayout.rowVector_apply _ _ _ n d

/-- Its exponential at (n, d). -/
theorem pay5_apply (v0 : Vec Ideal S1x1024x256 .f32) (v5 : Vec Ideal S256x128 .f32) (v13 : Vec Ideal S128 .f32)
    (n : Fin 1024) (d : Fin 128) :
    k0_pay5 (F := Ideal) v0 v5 v13 (ix2 n d) = Ideal.exp (lstd (feats v0) (wmat v5) (bvec v13) n d) := by
  unfold k0_pay5
  show Ideal.exp (k0_pay4 (F := Ideal) v0 v5 v13 (ix2 n d)) = _
  rw [pay4_apply]

/-- The latent sample at (n, d). -/
theorem pay6_apply (v0 : Vec Ideal S1x1024x256 .f32) (v3 v5 : Vec Ideal S256x128 .f32) (v8 v13 : Vec Ideal S128 .f32)
    (v18 : Vec Ideal S1x1024x128 .f32) (n : Fin 1024) (d : Fin 128) :
    k0_pay6 (F := Ideal) v0 v3 v5 v8 v13 v18 (ix2 n d)
      = z (feats v0) (noise v18) (wmat v3) (wmat v5) (bvec v8) (bvec v13) n d := by
  unfold k0_pay6 z
  try dsimp only
  rw [addf_apply, mulf_apply, pay3_apply, pay5_apply, shapeCast_1ab_ab_apply]

/-- The latent sample recast to the block's shape [1,1024,128], at (u, n, d). -/
theorem pay7_apply (v0 : Vec Ideal S1x1024x256 .f32) (v3 v5 : Vec Ideal S256x128 .f32) (v8 v13 : Vec Ideal S128 .f32)
    (v18 : Vec Ideal S1x1024x128 .f32) (u : Fin 1) (n : Fin 1024) (d : Fin 128) :
    k0_pay7 (F := Ideal) v0 v3 v5 v8 v13 v18 (ix3 u n d)
      = z (feats v0) (noise v18) (wmat v3) (wmat v5) (bvec v8) (bvec v13) n d := by
  unfold k0_pay7
  rw [shapeCast_ab_1ab_apply, pay6_apply]

end Cert.KernelIdeal.Body
end
-- ==== Proof.KernelTotals.lean ====
/-
  The fused program's three per-graph totals, read at their one index.

  Sums. A row statistic is taken in two steps: a sum along the last axis of an [1024, b] array, kept as a one-column
  matrix [1024, 1] (`rowSums`), then the sum of that column (`colTotal`); together, Σ_n Σ_k src(n,k).
  Softplus at a point. With t the entry, the body computes max(t,0) + log1p(exp(0 - |t - 0|)) and selects it unless
  t - 0 ≠ t - 0, which no extended real satisfies (`softplus_point`).
  Totals, for Z the latent sample [1024,128] and v71 the adjacency [1,1024,1024]:
      Σ_n Σ_m softplus(0 - Σ_d Z(n,d)·Z(m,d)),      Σ_d (Σ_n Z(n,d))²,      Σ_d Z(n,d) · (Σ_m v71(0,n,m)·Z(m,d))  per node n;
  the Kullback–Leibler payload is the two-step sum of its (n,d) terms, scaled.
-/
import proofs.«175631_j47579647705163_2_alg».proof.Proof.Gen.KernelIdeal.Skeleton
import proofs.«175631_j47579647705163_2_alg».proof.Proof.Spec
import proofs.«175631_j47579647705163_2_alg».proof.Proof.LibColsMatmul
import proofs.«175631_j47579647705163_2_alg».proof.Proof.LibRowLayout
import proofs.«175631_j47579647705163_2_alg».proof.Proof.LibRowOpsFormats
import proofs.«175631_j47579647705163_2_alg».proof.Proof.LibColumnSums
import proofs.«175631_j47579647705163_2_alg».proof.Proof.KernelLatent
import Idealize.ShloMosaic.Lib.ValueIdx
import Idealize.ShloMosaic.Lib.ValueLayout
import Idealize.ShloMosaic.Lib.Pipeline.Value
import Idealize.ShloMosaic.PureOps.Ideal.Laws

noncomputable section
open scoped BigOperators
namespace Cert.KernelIdeal.Body
open Idealize.ShloMosaic Idealize.ShloMosaic.ValueIdx Cert.KernelIdeal Cert.KernelIdeal.Gen Cert.Vgae

/-! ## Operations read at an index -/

theorem exp_apply {s : Shape} {φ : FTy} (v : FVec Ideal s φ) (i : s.Idx) : exp v i = Ideal.exp (v i) := rfl
theorem log1p_apply {s : Shape} {φ : FTy} (v : FVec Ideal s φ) (i : s.Idx) : log1p v i = Ideal.log1p (v i) := rfl
theorem absf_apply {s : Shape} {φ : FTy} (v : FVec Ideal s φ) (i : s.Idx) : absf v i = max (v i) (-(v i)) := rfl
theorem scalar_word (b : BitVec 32) : Scalar.ofBits (F := Ideal) .f32 b = Ideal.ofBits .f32 b := rfl

/-- No extended real differs from itself. -/
theorem cmp_one_self (x : EReal) : Ideal.cmp .one x x = 0#1 := by simp [Ideal.cmp]

/-! ## The two-step sum -/

/-- The sums along the last axis of an [1024, b] array, kept as a one-column matrix: entry (n, u) is Σ_k src(n,k). -/
theorem rowSums {b : ℕ} (src : FVec Ideal ⟨2, ![1024, b]⟩ .f32) (h : Shape.Reduces ⟨2, ![1024, b]⟩ [1] ⟨1, ![1024]⟩)
    (hφ : FKind.Formats .f32) (hacc : (0x00000000#32 : BitVec 32) = FKind.add.neutral .f32 hφ)
    (hc : (⟨1, ![1024]⟩ : Shape).ShapeCasts ⟨2, ![1024, 1]⟩) (n : Fin 1024) (u : Fin 1) :
    shapeCast ⟨2, ![1024, 1]⟩ (multiReduction .add [1] ⟨1, ![1024]⟩ src 0x00000000#32 h hφ hacc) hc (ix2 n u)
      = ∑ k : Fin b, src (ix2 n k) :=
  (ColumnSums.shapeCast_a_a1_apply _ hc n u).trans (RowOps.laneSum_apply src h hφ hacc n)

/-- The sum of a one-column matrix [1024, 1], kept as a [1, 1] matrix: its one entry is Σ_n col(n, 0). -/
theorem colTotal (col : FVec Ideal ⟨2, ![1024, 1]⟩ .f32) (h : Shape.Reduces ⟨2, ![1024, 1]⟩ [0] ⟨1, ![1]⟩)
    (hφ : FKind.Formats .f32) (hacc : (0x00000000#32 : BitVec 32) = FKind.add.neutral .f32 hφ)
    (hc : (⟨1, ![1]⟩ : Shape).ShapeCasts ⟨2, ![1, 1]⟩) (u u' : Fin 1) :
    shapeCast ⟨2, ![1, 1]⟩ (multiReduction .add [0] ⟨1, ![1]⟩ col 0x00000000#32 h hφ hacc) hc (ix2 u u')
      = ∑ n : Fin 1024, col (ix2 n (0 : Fin 1)) := by
  refine (shapeCast_a_1a_apply _ hc u u').trans ?_
  have hu : u' = 0 := Fin.ext (by omega)
  subst hu
  exact ColumnSums.colSum_apply col h hφ hacc 0

/-! ## The Kullback–Leibler payload -/

theorem pay8_apply (v0 : Vec Ideal S1x1024x256 .f32) (v3 v5 : Vec Ideal S256x128 .f32) (v8 v13 : Vec Ideal S128 .f32)
    (u u' : Fin 1) :
    k0_pay8 (F := Ideal) v0 v3 v5 v8 v13 (ix2 u u')
      = ∑ n, ∑ d, klTermK (feats v0) (wmat v3) (wmat v5) (bvec v8) (bvec v13) n d := by
  unfold k0_pay8
  try dsimp only
  refine (colTotal _ _ _ _ _ u u').trans ?_
  refine Finset.sum_congr rfl fun n _ => ?_
  refine (rowSums _ _ _ _ _ n 0).trans ?_
  refine Finset.sum_congr rfl fun d _ => ?_
  unfold klTermK
  rw [subf_apply, subf_apply, addf_apply, mulf_apply, mulf_apply, mulf_apply, broadcast_apply, broadcast_apply,
    pay3_apply, pay4_apply, pay5_apply, scalar_word, scalar_word]

/-- The graph's Kullback–Leibler loss as the body stores it. -/
theorem pay9_pay8_apply (v0 : Vec Ideal S1x1024x256 .f32) (v3 v5 : Vec Ideal S256x128 .f32) (v8 v13 : Vec Ideal S128 .f32)
    (u u' u'' : Fin 1) :
    k0_pay9 (F := Ideal) (k0_pay8 v0 v3 v5 v8 v13) (ix3 u u' u'')
      = klK (feats v0) (wmat v3) (wmat v5) (bvec v8) (bvec v13) := by
  unfold k0_pay9 klK
  try dsimp only
  rw [shapeCast_ab_1ab_apply, divf_apply, mulf_apply, broadcast_apply, broadcast_apply, pay8_apply, scalar_word, scalar_word]

/-! ## The cross-entropy payloads -/

/-- The latent sample in the shorter format is the latent sample. -/
theorem pay10_apply (Z : FVec Ideal S1024x128 .f32) (i : S1024x128.Idx) : k0_pay10 (F := Ideal) Z i = Z i := rfl

/-- Σ_n Σ_m softplus(0 - logit n m), the logit the inner product of rows n and m of Z. -/
theorem pay11_apply (Z : FVec Ideal S1024x128 .f32) (u u' : Fin 1) :
    k0_pay11 (F := Ideal) Z (ix2 u u') = ∑ n : Fin 1024, ∑ m : Fin 1024, spK (0 - ∑ d : Fin 128, Z (ix2 n d) * Z (ix2 m d)) := by
  unfold k0_pay11
  try dsimp only
  refine (colTotal _ _ _ _ _ u u').trans ?_
  refine Finset.sum_congr rfl fun n _ => ?_
  refine (rowSums _ _ _ _ _ n 0).trans ?_
  refine Finset.sum_congr rfl fun m _ => ?_
  rw [select_apply, cmpf_apply, Ideal.cmpf_def, cmp_one_self, select_zero]
  simp only [addf_apply, maximumf_apply, log1p_apply, exp_apply, subf_apply, absf_apply, broadcast_apply, scalar_word,
    Ideal.ofBits_zero_f32]
  exact (congrArg (fun M : EReal => max (0 - M) 0 + Ideal.log1p (Ideal.exp (0 - max (0 - M - 0) (-(0 - M - 0)))))
    (RowOps.rows_matmul _ _ rfl (k0_pay10 (F := Ideal) Z) (k0_pay10 (F := Ideal) Z) n m)).trans rfl

/-- Σ_d (Σ_n Z(n,d))². -/
theorem pay12_apply (Z : FVec Ideal S1024x128 .f32) (u u' : Fin 1) :
    k0_pay12 (F := Ideal) Z (ix2 u u') = ∑ d : Fin 128, (∑ n : Fin 1024, Z (ix2 n d)) * (∑ n : Fin 1024, Z (ix2 n d)) := by
  unfold k0_pay12
  try dsimp only
  refine (shapeCast_a_1a_apply _ _ u u').trans ?_
  refine (RowOps.laneSum_apply _ _ _ _ u').trans ?_
  refine Finset.sum_congr rfl fun d _ => ?_
  rw [mulf_apply, shapeCast_a_1a_apply]
  exact congrArg₂ (· * ·) (ColumnSums.colSum_apply Z _ _ _ d) (ColumnSums.colSum_apply Z _ _ _ d)

/-- For node n: Σ_d Z(n,d) · (Σ_m a(n,m) · Z(m,d)), a the block's adjacency. -/
theorem pay13_apply (Z : FVec Ideal S1024x128 .f32) (v71 : Vec Ideal S1x1024x1024 .f32) (n : Fin 1024) (u : Fin 1) :
    k0_pay13 (F := Ideal) Z v71 (ix2 n u)
      = ∑ d : Fin 128, Z (ix2 n d) * ∑ m : Fin 1024, v71 (ix3 (0 : Fin 1) n m) * Z (ix2 m d) := by
  unfold k0_pay13
  try dsimp only
  refine (rowSums _ _ _ _ _ n u).trans ?_
  refine Finset.sum_congr rfl fun d _ => ?_
  rw [mulf_apply]
  refine congrArg (Z (ix2 n d) * ·) ?_
  refine (ColsMatmul.cols_matmul _ _ rfl _ _ n d).trans ?_
  exact Finset.sum_congr rfl fun m _ => by rw [truncf_apply, shapeCast_1ab_ab_apply, pay10_apply]

/-- The three totals combined: ((P + Q) - Σ_n R(n)) / 1048576. -/
theorem pay1_apply (P Q : FVec Ideal S1x1 .f32) (R : FVec Ideal S1024x1 .f32) (u u' u'' : Fin 1) :
    k0_pay1 (F := Ideal) P Q R (ix3 u u' u'')
      = Ideal.div ((P (ix2 u' u'') + Q (ix2 u' u'')) - ∑ n : Fin 1024, R (ix2 n (0 : Fin 1))) wNN := by
  unfold k0_pay1
  try dsimp only
  rw [shapeCast_ab_1ab_apply, divf_apply, subf_apply, addf_apply, broadcast_apply, scalar_word]
  exact congrArg (fun s : EReal => Ideal.div ((P (ix2 u' u'') + Q (ix2 u' u'')) - s) wNN) (colTotal R _ _ _ _ u' u'')

/-- The graph's cross entropy as the body stores it. -/
theorem bce_apply (v0 : Vec Ideal S1x1024x256 .f32) (v3 v5 : Vec Ideal S256x128 .f32) (v8 v13 : Vec Ideal S128 .f32)
    (v18 : Vec Ideal S1x1024x128 .f32) (v71 : Vec Ideal S1x1024x1024 .f32) (u u' u'' : Fin 1) :
    k0_pay1 (F := Ideal) (k0_pay11 (k0_pay6 v0 v3 v5 v8 v13 v18)) (k0_pay12 (k0_pay6 v0 v3 v5 v8 v13 v18))
        (k0_pay13 (k0_pay6 v0 v3 v5 v8 v13 v18) v71) (ix3 u u' u'')
      = bceK (feats v0) (adjm v71) (noise v18) (wmat v3) (wmat v5) (bvec v8) (bvec v13) := by
  rw [pay1_apply, pay11_apply, pay12_apply]
  simp only [pay13_apply, pay6_apply]
  rfl

end Cert.KernelIdeal.Body
end
-- ==== Proof.KernelOut.lean ====
/-
  What the fused program's body leaves in each of its three output buffers, as a function of the input blocks.

  A block is one graph: x0 its node features [1,1024,256], x1 its noise [1,1024,128], x2 its adjacency [1,1024,1024],
  x3 / x5 the two weight matrices and x4 / x6 the two bias vectors (whole, the same for every graph). The body stores each
  output through the whole buffer once, so the buffer ends at the stored value:
    the latent buffer [1,1024,128] at (u,n,d) holds z n d,
    the first scalar buffer [1,1,1] holds the graph's Kullback–Leibler loss (fused form),
    the second scalar buffer [1,1,1] holds the graph's cross entropy (fused form).
-/
import proofs.«175631_j47579647705163_2_alg».proof.Proof.Gen.KernelIdeal.Frame
import proofs.«175631_j47579647705163_2_alg».proof.Proof.KernelTotals
import Idealize.ShloMosaic.Lib.Pipeline.Value

noncomputable section
open scoped BigOperators

namespace Cert.KernelIdeal.Body
open Idealize.ShloMosaic Idealize.ShloMosaic.ValueIdx Cert.KernelIdeal Cert.KernelIdeal.Gen Cert.Vgae

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

variable (x0 : Vec Ideal S1x1024x256 .f32) (x1 : Vec Ideal S1x1024x128 .f32) (x2 : Vec Ideal S1x1024x1024 .f32)
  (x3 : Vec Ideal S256x128 .f32) (x4 : Vec Ideal S128 .f32) (x5 : Vec Ideal S256x128 .f32) (x6 : Vec Ideal S128 .f32)

/-- The latent buffer after the body, at (u, n, d). -/
theorem out7_apply (u : Fin 1) (n : Fin 1024) (d : Fin 128) :
    out0_7 (F := Ideal) x0 x1 x2 x3 x4 x5 x6 (ix3 u n d)
      = z (feats x0) (noise x1) (wmat x3) (wmat x5) (bvec x4) (bvec x6) n d := by
  unfold out0_7
  rw [View.canon_unit_zero hz3]
  simp only [View.ld_unit_zero (S := S1x1024x256) hz3, View.ld_unit_zero (S := S1x1024x128) hz3,
    View.ld_unit_zero (S := S256x128) hz2, View.ld_unit_zero (S := S128) hz1]
  exact pay7_apply x0 x3 x5 x4 x6 x1 u n d

/-- The first scalar buffer after the body: the graph's Kullback–Leibler loss. -/
theorem out8_apply (u u' u'' : Fin 1) :
    out0_8 (F := Ideal) x0 x1 x2 x3 x4 x5 x6 (ix3 u u' u'')
      = klK (feats x0) (wmat x3) (wmat x5) (bvec x4) (bvec x6) := by
  unfold out0_8
  rw [View.canon_unit_zero hz3]
  simp only [View.ld_unit_zero (S := S1x1024x256) hz3, View.ld_unit_zero (S := S256x128) hz2,
    View.ld_unit_zero (S := S128) hz1]
  exact pay9_pay8_apply x0 x3 x5 x4 x6 u u' u''

/-- The second scalar buffer after the body: the graph's cross entropy. -/
theorem out9_apply (u u' u'' : Fin 1) :
    out0_9 (F := Ideal) x0 x1 x2 x3 x4 x5 x6 (ix3 u u' u'')
      = bceK (feats x0) (adjm x2) (noise x1) (wmat x3) (wmat x5) (bvec x4) (bvec x6) := by
  unfold out0_9
  rw [View.canon_unit_zero hz3]
  simp only [View.ld_unit_zero (S := S1x1024x256) hz3, View.ld_unit_zero (S := S1x1024x128) hz3,
    View.ld_unit_zero (S := S1x1024x1024) hz3, View.ld_unit_zero (S := S256x128) hz2, View.ld_unit_zero (S := S128) hz1]
  exact bce_apply x0 x3 x5 x4 x6 x1 x2 u u' u''

end Cert.KernelIdeal.Body
end
-- ==== Proof.SpecArrays.lean ====
/-
  The three results as whole arrays: one function each of the seven argument arrays, index by index.

  The arguments hold 32 graphs: node features X [32,1024,256], adjacency A [32,1024,1024], noise E [32,1024,128]; the
  weights Wm, Ws [256,128] and biases bm, bs [128] are shared by all graphs. Graph b's data are the slices at first
  coordinate b. The latent array [32,1024,128] holds z of graph b at (b,n,d); the per-graph losses are laid out as
  [32,1,1] arrays (one number per graph); the final loss is the mean over the 32 graphs of cross entropy +
  Kullback–Leibler, a rank-0 array. `lossK` is written with the fused per-graph forms, `lossR` with the plain ones.
-/
import proofs.«175631_j47579647705163_2_alg».proof.Proof.Spec
import Idealize.ShloMosaic.Lib.ValueIdx

noncomputable section
open scoped BigOperators

namespace Cert.Vgae

open Idealize.ShloMosaic Idealize.ShloMosaic.ValueIdx

variable (X : (⟨3, ![32, 1024, 256]⟩ : Shape).Idx → EReal) (A : (⟨3, ![32, 1024, 1024]⟩ : Shape).Idx → EReal)
  (E : (⟨3, ![32, 1024, 128]⟩ : Shape).Idx → EReal) (Wm Ws : (⟨2, ![256, 128]⟩ : Shape).Idx → EReal)
  (bm bs : (⟨1, ![128]⟩ : Shape).Idx → EReal)

/-- Graph b's node features, by (node, feature). -/
abbrev gFeats (b : Fin 32) : Fin 1024 → Fin 256 → EReal := fun n k => X (ix3 b n k)
/-- Graph b's adjacency, by (node, node). -/
abbrev gAdj (b : Fin 32) : Fin 1024 → Fin 1024 → EReal := fun n m => A (ix3 b n m)
/-- Graph b's noise, by (node, latent coordinate). -/
abbrev gNoise (b : Fin 32) : Fin 1024 → Fin 128 → EReal := fun n d => E (ix3 b n d)
/-- A weight matrix by (feature, latent coordinate). -/
abbrev mat (W : (⟨2, ![256, 128]⟩ : Shape).Idx → EReal) : Fin 256 → Fin 128 → EReal := fun k d => W (ix2 k d)
/-- A bias vector by latent coordinate. -/
abbrev vec (v : (⟨1, ![128]⟩ : Shape).Idx → EReal) : Fin 128 → EReal := fun d => v (ix1 d)

/-- The latent sample of graph b, node n, coordinate d. -/
def latentAt (b : Fin 32) (n : Fin 1024) (d : Fin 128) : EReal :=
  z (gFeats X b) (gNoise E b) (mat Wm) (mat Ws) (vec bm) (vec bs) n d

/-- The latent array. -/
def latentArr : (⟨3, ![32, 1024, 128]⟩ : Shape).Idx → EReal := fun i => latentAt X E Wm Ws bm bs (i 0) (i 1) (i 2)

/-- Graph b's Kullback–Leibler loss and cross entropy, fused form. -/
def klKAt (b : Fin 32) : EReal := klK (gFeats X b) (mat Wm) (mat Ws) (vec bm) (vec bs)
def bceKAt (b : Fin 32) : EReal := bceK (gFeats X b) (gAdj A b) (gNoise E b) (mat Wm) (mat Ws) (vec bm) (vec bs)
/-- The same, plain form. -/
def klRAt (b : Fin 32) : EReal := klR (gFeats X b) (mat Wm) (mat Ws) (vec bm) (vec bs)
def bceRAt (b : Fin 32) : EReal := bceR (gFeats X b) (gAdj A b) (gNoise E b) (mat Wm) (mat Ws) (vec bm) (vec bs)

/-- The per-graph fused losses laid out as [32,1,1] arrays. -/
def klArr : (⟨3, ![32, 1, 1]⟩ : Shape).Idx → EReal := fun i => klKAt X Wm Ws bm bs (i 0)
def bceArr : (⟨3, ![32, 1, 1]⟩ : Shape).Idx → EReal := fun i => bceKAt X A E Wm Ws bm bs (i 0)

/-- The final loss from per-graph losses: (0 + Σ_b (bce b + kl b)) / 32. -/
def meanLoss (bce kl : Fin 32 → EReal) : EReal := Ideal.div (Ideal.ofBits .f32 0x00000000#32 + ∑ b, (bce b + kl b)) wB

/-- The final loss with the fused per-graph forms, and with the plain ones. -/
def lossK : EReal := meanLoss (bceKAt X A E Wm Ws bm bs) (klKAt X Wm Ws bm bs)
def lossR : EReal := meanLoss (bceRAt X A E Wm Ws bm bs) (klRAt X Wm Ws bm bs)

theorem latentArr_ix3 (b : Fin 32) (n : Fin 1024) (d : Fin 128) :
    latentArr X E Wm Ws bm bs (ix3 b n d) = latentAt X E Wm Ws bm bs b n d := rfl
theorem klArr_ix3 (b : Fin 32) (u u' : Fin 1) : klArr X Wm Ws bm bs (ix3 b u u') = klKAt X Wm Ws bm bs b := rfl
theorem bceArr_ix3 (b : Fin 32) (u u' : Fin 1) : bceArr X A E Wm Ws bm bs (ix3 b u u') = bceKAt X A E Wm Ws bm bs b := rfl

end Cert.Vgae
end
-- ==== Proof.KernelArrays.lean ====
/-
  From blocks to arrays: what each of the fused program's three output arrays holds after the region.

  The grid has 32 points and point t works on graph t: the three per-graph windows (features, noise, adjacency) and
  the three output windows have block index (t, 0, 0), the shared weights and biases block index 0. So the block of an
  input window at point t is graph t's slice of its array, what point t writes back is graph t's slice of the result, and
  the 32 blocks tile each output array: the latent array ends at `latentArr`, the two [32,1,1] arrays at `klArr` and
  `bceArr`, of the argument arrays as the region finds them.
-/
import proofs.«175631_j47579647705163_2_alg».proof.Proof.Gen.KernelIdeal.Frame
import proofs.«175631_j47579647705163_2_alg».proof.Proof.KernelOut
import proofs.«175631_j47579647705163_2_alg».proof.Proof.SpecArrays
import Idealize.ShloMosaic.Lib.Pipeline.Value

set_option maxRecDepth 16384
noncomputable section
open scoped BigOperators

namespace Cert.KernelIdeal.Arrays
open Idealize.ShloMosaic Idealize.ShloMosaic.TcCoe Idealize.ShloMosaic.ValueIdx Idealize.SL.Sem
open Cert.KernelIdeal Cert.KernelIdeal.Gen Cert.KernelIdeal.Body Cert.Vgae
open Idealize.ShloMosaic.Pipeline (Dat)

variable (m : (ℓ : Loc nD τ sig) → Buf (Elt Ideal) ℓ)

/-- The graph a grid point works on. -/
def graph (t : Fin cfg0.N) : Fin 32 := ⟨t.val, t.isLt⟩

/-! ## The index maps, decided over the grid -/

theorem idx0 : ∀ t : Fin cfg0.N, win0_0.index t (0 : Fin 3) = t.val ∧ win0_0.index t (1 : Fin 3) = 0 ∧ win0_0.index t (2 : Fin 3) = 0 :=
  (by decide +kernel : ∀ t : Fin grid0.N, _)
theorem idx1 : ∀ t : Fin cfg0.N, win0_1.index t (0 : Fin 3) = t.val ∧ win0_1.index t (1 : Fin 3) = 0 ∧ win0_1.index t (2 : Fin 3) = 0 :=
  (by decide +kernel : ∀ t : Fin grid0.N, _)
theorem idx2 : ∀ t : Fin cfg0.N, win0_2.index t (0 : Fin 3) = t.val ∧ win0_2.index t (1 : Fin 3) = 0 ∧ win0_2.index t (2 : Fin 3) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 1) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 1) = 0 :=
  (by decide +kernel : ∀ t : Fin grid0.N, _)
theorem idx7 : ∀ t : Fin cfg0.N, win0_7.index t (0 : Fin 3) = t.val ∧ win0_7.index t (1 : Fin 3) = 0 ∧ win0_7.index t (2 : Fin 3) = 0 :=
  (by decide +kernel : ∀ t : Fin grid0.N, _)
theorem idx8 : ∀ t : Fin cfg0.N, win0_8.index t (0 : Fin 3) = t.val ∧ win0_8.index t (1 : Fin 3) = 0 ∧ win0_8.index t (2 : Fin 3) = 0 :=
  (by decide +kernel : ∀ t : Fin grid0.N, _)
theorem idx9 : ∀ t : Fin cfg0.N, win0_9.index t (0 : Fin 3) = t.val ∧ win0_9.index t (1 : Fin 3) = 0 ∧ win0_9.index t (2 : Fin 3) = 0 :=
  (by decide +kernel : ∀ t : Fin grid0.N, _)

/-! ## The input windows' blocks are the graph's slices -/

theorem read0 (c : Dev nD) (t : Fin cfg0.N) (u : Fin 1) (n : Fin 1024) (k : Fin 256) :
    iblk m c 0 t (ix3 u n k) = V m c main_arg0 (ix3 (graph t) n k) := by
  show V m c main_arg0 (((cfg0.win 0).blk t).view.emb (ix3 u n k)) = _
  refine congrArg (V m c main_arg0) (funext fun a => Fin.ext ?_)
  obtain ⟨e0, e1, e2⟩ := idx0 t
  match a with
  | ⟨0, _⟩ => show win0_0.index t (0 : Fin 3) * 1 + 1 * u.val = t.val; omega
  | ⟨1, _⟩ => show win0_0.index t (1 : Fin 3) * 1024 + 1 * n.val = n.val; omega
  | ⟨2, _⟩ => show win0_0.index t (2 : Fin 3) * 256 + 1 * k.val = k.val; omega

theorem read1 (c : Dev nD) (t : Fin cfg0.N) (u : Fin 1) (n : Fin 1024) (d : Fin 128) :
    iblk m c 1 t (ix3 u n d) = V m c main_arg2 (ix3 (graph t) n d) := by
  show V m c main_arg2 (((cfg0.win 1).blk t).view.emb (ix3 u n d)) = _
  refine congrArg (V m c main_arg2) (funext fun a => Fin.ext ?_)
  obtain ⟨e0, e1, e2⟩ := idx1 t
  match a with
  | ⟨0, _⟩ => show win0_1.index t (0 : Fin 3) * 1 + 1 * u.val = t.val; omega
  | ⟨1, _⟩ => show win0_1.index t (1 : Fin 3) * 1024 + 1 * n.val = n.val; omega
  | ⟨2, _⟩ => show win0_1.index t (2 : Fin 3) * 128 + 1 * d.val = d.val; omega

theorem read2 (c : Dev nD) (t : Fin cfg0.N) (u : Fin 1) (n n' : Fin 1024) :
    iblk m c 2 t (ix3 u n n') = V m c main_arg1 (ix3 (graph t) n n') := by
  show V m c main_arg1 (((cfg0.win 2).blk t).view.emb (ix3 u n n')) = _
  refine congrArg (V m c main_arg1) (funext fun a => Fin.ext ?_)
  obtain ⟨e0, e1, e2⟩ := idx2 t
  match a with
  | ⟨0, _⟩ => show win0_2.index t (0 : Fin 3) * 1 + 1 * u.val = t.val; omega
  | ⟨1, _⟩ => show win0_2.index t (1 : Fin 3) * 1024 + 1 * n.val = n.val; omega
  | ⟨2, _⟩ => show win0_2.index t (2 : Fin 3) * 1024 + 1 * n'.val = n'.val; omega

theorem read3 (c : Dev nD) (t : Fin cfg0.N) (k : Fin 256) (d : Fin 128) :
    iblk m c 3 t (ix2 k d) = V m c main_arg3 (ix2 k d) := by
  show V m c main_arg3 (((cfg0.win 3).blk t).view.emb (ix2 k d)) = _
  refine congrArg (V m c main_arg3) (funext fun a => Fin.ext ?_)
  obtain ⟨e0, e1⟩ := idx3 t
  match a with
  | ⟨0, _⟩ => show win0_3.index t (0 : Fin 2) * 256 + 1 * k.val = k.val; omega
  | ⟨1, _⟩ => show win0_3.index t (1 : Fin 2) * 128 + 1 * d.val = d.val; omega

theorem read4 (c : Dev nD) (t : Fin cfg0.N) (d : Fin 128) :
    iblk m c 4 t (ix1 d) = V m c main_arg4 (ix1 d) := by
  show V m c main_arg4 (((cfg0.win 4).blk t).view.emb (ix1 d)) = _
  refine congrArg (V m c main_arg4) (funext fun a => Fin.ext ?_)
  have e0 := idx4 t
  match a with
  | ⟨0, _⟩ => show win0_4.index t (0 : Fin 1) * 128 + 1 * d.val = d.val; omega

theorem read5 (c : Dev nD) (t : Fin cfg0.N) (k : Fin 256) (d : Fin 128) :
    iblk m c 5 t (ix2 k d) = V m c main_arg5 (ix2 k d) := by
  show V m c main_arg5 (((cfg0.win 5).blk t).view.emb (ix2 k d)) = _
  refine congrArg (V m c main_arg5) (funext fun a => Fin.ext ?_)
  obtain ⟨e0, e1⟩ := idx5 t
  match a with
  | ⟨0, _⟩ => show win0_5.index t (0 : Fin 2) * 256 + 1 * k.val = k.val; omega
  | ⟨1, _⟩ => show win0_5.index t (1 : Fin 2) * 128 + 1 * d.val = d.val; omega

theorem read6 (c : Dev nD) (t : Fin cfg0.N) (d : Fin 128) :
    iblk m c 6 t (ix1 d) = V m c main_arg6 (ix1 d) := by
  show V m c main_arg6 (((cfg0.win 6).blk t).view.emb (ix1 d)) = _
  refine congrArg (V m c main_arg6) (funext fun a => Fin.ext ?_)
  have e0 := idx6 t
  match a with
  | ⟨0, _⟩ => show win0_6.index t (0 : Fin 1) * 128 + 1 * d.val = d.val; omega

/-- Point t's block of each input window, as the graph's data. -/
theorem feats_blk (c : Dev nD) (t : Fin cfg0.N) : feats (iblk m c 0 t) = gFeats (V m c main_arg0) (graph t) :=
  funext fun n => funext fun k => read0 m c t 0 n k
theorem noise_blk (c : Dev nD) (t : Fin cfg0.N) : noise (iblk m c 1 t) = gNoise (V m c main_arg2) (graph t) :=
  funext fun n => funext fun d => read1 m c t 0 n d
theorem adj_blk (c : Dev nD) (t : Fin cfg0.N) : adjm (iblk m c 2 t) = gAdj (V m c main_arg1) (graph t) :=
  funext fun n => funext fun n' => read2 m c t 0 n n'
theorem wm_blk (c : Dev nD) (t : Fin cfg0.N) : wmat (iblk m c 3 t) = mat (V m c main_arg3) :=
  funext fun k => funext fun d => read3 m c t k d
theorem bm_blk (c : Dev nD) (t : Fin cfg0.N) : bvec (iblk m c 4 t) = vec (V m c main_arg4) :=
  funext fun d => read4 m c t d
theorem ws_blk (c : Dev nD) (t : Fin cfg0.N) : wmat (iblk m c 5 t) = mat (V m c main_arg5) :=
  funext fun k => funext fun d => read5 m c t k d
theorem bs_blk (c : Dev nD) (t : Fin cfg0.N) : bvec (iblk m c 6 t) = vec (V m c main_arg6) :=
  funext fun d => read6 m c t d

/-! ## What each point writes back -/

/-- Where point t's block of an output window sits in its array: graph t's slice. -/
theorem emb7 (t : Fin cfg0.N) (u : Fin 1) (n : Fin 1024) (d : Fin 128) :
    ((cfg0.win 7).blk t).view.emb (ix3 u n d) = ix3 (graph t) n d := by
  funext a; apply Fin.ext
  obtain ⟨e0, e1, e2⟩ := idx7 t
  match a with
  | ⟨0, _⟩ => show win0_7.index t (0 : Fin 3) * 1 + 1 * u.val = t.val; omega
  | ⟨1, _⟩ => show win0_7.index t (1 : Fin 3) * 1024 + 1 * n.val = n.val; omega
  | ⟨2, _⟩ => show win0_7.index t (2 : Fin 3) * 128 + 1 * d.val = d.val; omega
theorem emb8 (t : Fin cfg0.N) (u u' u'' : Fin 1) :
    ((cfg0.win 8).blk t).view.emb (ix3 u u' u'') = ix3 (graph t) u' u'' := by
  funext a; apply Fin.ext
  obtain ⟨e0, e1, e2⟩ := idx8 t
  match a with
  | ⟨0, _⟩ => show win0_8.index t (0 : Fin 3) * 1 + 1 * u.val = t.val; omega
  | ⟨1, _⟩ => show win0_8.index t (1 : Fin 3) * 1 + 1 * u'.val = u'.val; omega
  | ⟨2, _⟩ => show win0_8.index t (2 : Fin 3) * 1 + 1 * u''.val = u''.val; omega
theorem emb9 (t : Fin cfg0.N) (u u' u'' : Fin 1) :
    ((cfg0.win 9).blk t).view.emb (ix3 u u' u'') = ix3 (graph t) u' u'' := by
  funext a; apply Fin.ext
  obtain ⟨e0, e1, e2⟩ := idx9 t
  match a with
  | ⟨0, _⟩ => show win0_9.index t (0 : Fin 3) * 1 + 1 * u.val = t.val; omega
  | ⟨1, _⟩ => show win0_9.index t (1 : Fin 3) * 1 + 1 * u'.val = u'.val; omega
  | ⟨2, _⟩ => show win0_9.index t (2 : Fin 3) * 1 + 1 * u''.val = u''.val; omega

/-- The latent array the region computes from the arrays it finds. -/
abbrev Lat (c : Dev nD) : S32x1024x128.Idx → EReal :=
  latentArr (V m c main_arg0) (V m c main_arg2) (V m c main_arg3) (V m c main_arg5) (V m c main_arg4) (V m c main_arg6)
/-- The per-graph Kullback–Leibler losses it computes. -/
abbrev Kl (c : Dev nD) : S32x1x1.Idx → EReal :=
  klArr (V m c main_arg0) (V m c main_arg3) (V m c main_arg5) (V m c main_arg4) (V m c main_arg6)
/-- The per-graph cross entropies it computes. -/
abbrev Bce (c : Dev nD) : S32x1x1.Idx → EReal :=
  bceArr (V m c main_arg0) (V m c main_arg1) (V m c main_arg2) (V m c main_arg3) (V m c main_arg5) (V m c main_arg4) (V m c main_arg6)

theorem flushed7_eq (c : Dev nD) (t : Fin cfg0.N) :
    (dats m 0 c).flushed 7 t = ((cfg0.win 7).blk t).view.read (Elt Ideal) (Lat m c) := by
  show (cfg0.win 7).cut (grid0.coords t) ((dats m 0 c).after 7 t) = _
  rw [after0_7]
  funext y
  obtain ⟨u, n, d, rfl⟩ : ∃ (u : Fin 1) (n : Fin 1024) (d : Fin 128), y = ix3 u n d := ⟨y 0, y 1, y 2, eq_ix3 y⟩
  show out0_7 (iblk m c 0 t) (iblk m c 1 t) (iblk m c 2 t) (iblk m c 3 t) (iblk m c 4 t) (iblk m c 5 t) (iblk m c 6 t) (ix3 u n d)
      = Lat m c (((cfg0.win 7).blk t).view.emb (ix3 u n d))
  rw [emb7 t u n d]
  show _ = latentAt (V m c main_arg0) (V m c main_arg2) (V m c main_arg3) (V m c main_arg5) (V m c main_arg4) (V m c main_arg6) (graph t) n d
  refine (out7_apply (iblk m c 0 t) (iblk m c 1 t) (iblk m c 2 t) (iblk m c 3 t) (iblk m c 4 t) (iblk m c 5 t) (iblk m c 6 t) u n d).trans ?_
  unfold latentAt
  rw [feats_blk, noise_blk, wm_blk, ws_blk, bm_blk, bs_blk]

theorem flushed8_eq (c : Dev nD) (t : Fin cfg0.N) :
    (dats m 0 c).flushed 8 t = ((cfg0.win 8).blk t).view.read (Elt Ideal) (Kl m c) := by
  show (cfg0.win 8).cut (grid0.coords t) ((dats m 0 c).after 8 t) = _
  rw [after0_8]
  funext y
  obtain ⟨u, u', u'', rfl⟩ : ∃ (u u' u'' : Fin 1), y = ix3 u u' u'' := ⟨y 0, y 1, y 2, eq_ix3 y⟩
  show out0_8 (iblk m c 0 t) (iblk m c 1 t) (iblk m c 2 t) (iblk m c 3 t) (iblk m c 4 t) (iblk m c 5 t) (iblk m c 6 t) (ix3 u u' u'')
      = Kl m c (((cfg0.win 8).blk t).view.emb (ix3 u u' u''))
  rw [emb8 t u u' u'']
  show _ = klKAt (V m c main_arg0) (V m c main_arg3) (V m c main_arg5) (V m c main_arg4) (V m c main_arg6) (graph t)
  refine (out8_apply (iblk m c 0 t) (iblk m c 1 t) (iblk m c 2 t) (iblk m c 3 t) (iblk m c 4 t) (iblk m c 5 t) (iblk m c 6 t) u u' u'').trans ?_
  unfold klKAt
  rw [feats_blk, wm_blk, ws_blk, bm_blk, bs_blk]

theorem flushed9_eq (c : Dev nD) (t : Fin cfg0.N) :
    (dats m 0 c).flushed 9 t = ((cfg0.win 9).blk t).view.read (Elt Ideal) (Bce m c) := by
  show (cfg0.win 9).cut (grid0.coords t) ((dats m 0 c).after 9 t) = _
  rw [after0_9]
  funext y
  obtain ⟨u, u', u'', rfl⟩ : ∃ (u u' u'' : Fin 1), y = ix3 u u' u'' := ⟨y 0, y 1, y 2, eq_ix3 y⟩
  show out0_9 (iblk m c 0 t) (iblk m c 1 t) (iblk m c 2 t) (iblk m c 3 t) (iblk m c 4 t) (iblk m c 5 t) (iblk m c 6 t) (ix3 u u' u'')
      = Bce m c (((cfg0.win 9).blk t).view.emb (ix3 u u' u''))
  rw [emb9 t u u' u'']
  show _ = bceKAt (V m c main_arg0) (V m c main_arg1) (V m c main_arg2) (V m c main_arg3) (V m c main_arg5) (V m c main_arg4) (V m c main_arg6) (graph t)
  refine (out9_apply (iblk m c 0 t) (iblk m c 1 t) (iblk m c 2 t) (iblk m c 3 t) (iblk m c 4 t) (iblk m c 5 t) (iblk m c 6 t) u u' u'').trans ?_
  unfold bceKAt
  rw [feats_blk, adj_blk, noise_blk, wm_blk, ws_blk, bm_blk, bs_blk]

/-! ## The 32 blocks tile each output array -/

theorem mem_blk7 (t : Fin cfg0.N) (i : S32x1024x128.Idx) :
    i ∈ ((cfg0.win 7).blk t).view.set ↔ ∀ a : Fin 3, win0_7.index t a * S1x1024x128.size a ≤ (i a).val ∧ (i a).val < win0_7.index t a * S1x1024x128.size a + S1x1024x128.size a := by
  show i ∈ ((View.whole main_v0_0).slice (win0_7.rect t)).set ↔ _
  rw [View.set_slice_whole, Rect.mem_set_unit]
  exact Iff.rfl
theorem mem_blk8 (t : Fin cfg0.N) (i : S32x1x1.Idx) :
    i ∈ ((cfg0.win 8).blk t).view.set ↔ ∀ a : Fin 3, win0_8.index t a * S1x1x1.size a ≤ (i a).val ∧ (i a).val < win0_8.index t a * S1x1x1.size a + S1x1x1.size a := by
  show i ∈ ((View.whole main_v0_1).slice (win0_8.rect t)).set ↔ _
  rw [View.set_slice_whole, Rect.mem_set_unit]
  exact Iff.rfl
theorem mem_blk9 (t : Fin cfg0.N) (i : S32x1x1.Idx) :
    i ∈ ((cfg0.win 9).blk t).view.set ↔ ∀ a : Fin 3, win0_9.index t a * S1x1x1.size a ≤ (i a).val ∧ (i a).val < win0_9.index t a * S1x1x1.size a + S1x1x1.size a := by
  show i ∈ ((View.whole main_v0_2).slice (win0_9.rect t)).set ↔ _
  rw [View.set_slice_whole, Rect.mem_set_unit]
  exact Iff.rfl

/-- Every index of the latent array is in the block of the point numbered by its graph. -/
theorem cover7 (i : S32x1024x128.Idx) : ∃ t : Fin cfg0.N, (cfg0.win 7).flush t = true ∧ i ∈ ((cfg0.win 7).blk t).view.set := by
  have h0 : (i 0).val < 32 := (i 0).isLt
  have h1 : (i 1).val < 1024 := (i 1).isLt
  have h2 : (i 2).val < 128 := (i 2).isLt
  refine ⟨⟨(i 0).val, h0⟩, flush0_7 _, ?_⟩
  rw [mem_blk7]
  obtain ⟨e0, e1, e2⟩ := idx7 ⟨(i 0).val, h0⟩
  have e0' : win0_7.index ⟨(i 0).val, h0⟩ (0 : Fin 3) = (i 0).val := e0
  intro a
  match a with
  | ⟨0, _⟩ => show win0_7.index ⟨(i 0).val, h0⟩ (0 : Fin 3) * 1 ≤ (i 0).val ∧ (i 0).val < win0_7.index ⟨(i 0).val, h0⟩ (0 : Fin 3) * 1 + 1; omega
  | ⟨1, _⟩ => show win0_7.index ⟨(i 0).val, h0⟩ (1 : Fin 3) * 1024 ≤ (i 1).val ∧ (i 1).val < win0_7.index ⟨(i 0).val, h0⟩ (1 : Fin 3) * 1024 + 1024; omega
  | ⟨2, _⟩ => show win0_7.index ⟨(i 0).val, h0⟩ (2 : Fin 3) * 128 ≤ (i 2).val ∧ (i 2).val < win0_7.index ⟨(i 0).val, h0⟩ (2 : Fin 3) * 128 + 128; omega

theorem cover8 (i : S32x1x1.Idx) : ∃ t : Fin cfg0.N, (cfg0.win 8).flush t = true ∧ i ∈ ((cfg0.win 8).blk t).view.set := by
  have h0 : (i 0).val < 32 := (i 0).isLt
  have h1 : (i 1).val < 1 := (i 1).isLt
  have h2 : (i 2).val < 1 := (i 2).isLt
  refine ⟨⟨(i 0).val, h0⟩, flush0_8 _, ?_⟩
  rw [mem_blk8]
  obtain ⟨e0, e1, e2⟩ := idx8 ⟨(i 0).val, h0⟩
  have e0' : win0_8.index ⟨(i 0).val, h0⟩ (0 : Fin 3) = (i 0).val := e0
  intro a
  match a with
  | ⟨0, _⟩ => show win0_8.index ⟨(i 0).val, h0⟩ (0 : Fin 3) * 1 ≤ (i 0).val ∧ (i 0).val < win0_8.index ⟨(i 0).val, h0⟩ (0 : Fin 3) * 1 + 1; omega
  | ⟨1, _⟩ => show win0_8.index ⟨(i 0).val, h0⟩ (1 : Fin 3) * 1 ≤ (i 1).val ∧ (i 1).val < win0_8.index ⟨(i 0).val, h0⟩ (1 : Fin 3) * 1 + 1; omega
  | ⟨2, _⟩ => show win0_8.index ⟨(i 0).val, h0⟩ (2 : Fin 3) * 1 ≤ (i 2).val ∧ (i 2).val < win0_8.index ⟨(i 0).val, h0⟩ (2 : Fin 3) * 1 + 1; omega

theorem cover9 (i : S32x1x1.Idx) : ∃ t : Fin cfg0.N, (cfg0.win 9).flush t = true ∧ i ∈ ((cfg0.win 9).blk t).view.set := by
  have h0 : (i 0).val < 32 := (i 0).isLt
  have h1 : (i 1).val < 1 := (i 1).isLt
  have h2 : (i 2).val < 1 := (i 2).isLt
  refine ⟨⟨(i 0).val, h0⟩, flush0_9 _, ?_⟩
  rw [mem_blk9]
  obtain ⟨e0, e1, e2⟩ := idx9 ⟨(i 0).val, h0⟩
  have e0' : win0_9.index ⟨(i 0).val, h0⟩ (0 : Fin 3) = (i 0).val := e0
  intro a
  match a with
  | ⟨0, _⟩ => show win0_9.index ⟨(i 0).val, h0⟩ (0 : Fin 3) * 1 ≤ (i 0).val ∧ (i 0).val < win0_9.index ⟨(i 0).val, h0⟩ (0 : Fin 3) * 1 + 1; omega
  | ⟨1, _⟩ => show win0_9.index ⟨(i 0).val, h0⟩ (1 : Fin 3) * 1 ≤ (i 1).val ∧ (i 1).val < win0_9.index ⟨(i 0).val, h0⟩ (1 : Fin 3) * 1 + 1; omega
  | ⟨2, _⟩ => show win0_9.index ⟨(i 0).val, h0⟩ (2 : Fin 3) * 1 ≤ (i 2).val ∧ (i 2).val < win0_9.index ⟨(i 0).val, h0⟩ (2 : Fin 3) * 1 + 1; omega

/-! ## The arrays after the region -/

theorem final7 (c : Dev nD) : (dats m 0 c).arrAt 7 cfg0.N = Lat m c :=
  (dats m 0 c).arrAt_eq_of_cover 7 (Lat m c) (fun t _ => flushed7_eq m c t) cover7
theorem final8 (c : Dev nD) : (dats m 0 c).arrAt 8 cfg0.N = Kl m c :=
  (dats m 0 c).arrAt_eq_of_cover 8 (Kl m c) (fun t _ => flushed8_eq m c t) cover8
theorem final9 (c : Dev nD) : (dats m 0 c).arrAt 9 cfg0.N = Bce m c :=
  (dats m 0 c).arrAt_eq_of_cover 9 (Bce m c) (fun t _ => flushed9_eq m c t) cover9

end Cert.KernelIdeal.Arrays
end
-- ==== Proof.LibSumIdx1.lean ====
/-
  A sum over the index set of a rank-1 shape [n] is the sum over its coordinate, in any commutative monoid (the
  extended reals included: nothing is assumed of the summands). The rank-2 form is the library's `ValueIdx.sum_idx2`.
-/
import Idealize.ShloMosaic.Lib.ValueIdx
import Mathlib.Algebra.BigOperators.Fin

noncomputable section

open scoped BigOperators

namespace Cert.LibSumIdx1

open Idealize.ShloMosaic Idealize.ShloMosaic.ValueIdx

/-- A rank-1 index set is its one coordinate's range … -/
def idxEquiv1 {n : ℕ} : (⟨1, ![n]⟩ : Shape).Idx ≃ Fin n where
  toFun i := ⟨(i 0).val, (i 0).isLt⟩
  invFun p := ix1 p
  left_inv i := funext fun d => by match d with | ⟨0, _⟩ => rfl
  right_inv _ := rfl

/-- … so a sum over it is the sum over the coordinate. -/
theorem sum_idx1 {M : Type*} [AddCommMonoid M] {n : ℕ} (f : (⟨1, ![n]⟩ : Shape).Idx → M) :
    ∑ i, f i = ∑ p : Fin n, f (ix1 p) := by
  rw [← Equiv.sum_comp (idxEquiv1 (n := n)).symm f]
  rfl

end Cert.LibSumIdx1

end
-- ==== Proof.KernelRun.lean ====
/-
  The fused program's run, read as values.

  After the region the latent array holds `latentArr` and the two [32,1,1] arrays hold the per-graph Kullback–Leibler losses and
  cross entropies (fused forms). The lines after the region recast those two arrays to vectors of 32, add them entry by
  entry, sum the 32 entries from zero and divide by 32 (`tail`): the scalar result is `lossK` of the argument arrays. The
  argument arrays end unchanged.
-/
import proofs.«175631_j47579647705163_2_alg».proof.Proof.Gen.KernelIdeal.Frame
import proofs.«175631_j47579647705163_2_alg».proof.Proof.KernelArrays
import proofs.«175631_j47579647705163_2_alg».proof.Proof.LibSumIdx1
import Idealize.ShloMosaic.Lib.Pipeline.Value
import Idealize.ShloMosaic.Lib.StableHlo.Run
import Idealize.ShloMosaic.PureOps.Ideal.Laws

set_option maxRecDepth 16384
noncomputable section
open scoped BigOperators

namespace Cert.KernelIdeal.Run
open Idealize.ShloMosaic Idealize.ShloMosaic.TcCoe Idealize.ShloMosaic.ValueIdx Idealize.ShloMosaic.StableHlo Idealize.SL.Sem
open Cert.KernelIdeal Cert.KernelIdeal.Gen Cert.KernelIdeal.Body Cert.KernelIdeal.Arrays Cert.Vgae
open Idealize.ShloMosaic.Pipeline (Dat)

variable (m : (ℓ : Loc nD τ sig) → Buf (Elt Ideal) ℓ) (ρ : Dev nD → PrngReg)

/-- The lines after the region, as one function of the two per-graph arrays: recast each to a vector of 32, add them,
    sum the 32 entries from zero, divide by 32. -/
def tail (kl bce : FVec Ideal S32x1x1 .f32) : FVec Ideal S_ .f32 :=
  Host.divf (F := Ideal)
    (Host.reduceAdd (F := Ideal) (addf (shapeCast S32 bce shapeCasts_S32x1x1_S32) (shapeCast S32 kl shapeCasts_S32x1x1_S32))
      (constant (F := Ideal) S_ .f32 0x00000000#32) reducesTo_S32_S_d0 h_S_)
    (constant (F := Ideal) S_ .f32 0x42000000#32)

theorem tail_eq (c : Dev nD) :
    Pipeline.afterTail₀ cfgs (dats m) 0 (V0 m) [hostOps1] c main_v5 = tail (Kl m c) (Bce m c) := by
  unfold Pipeline.afterTail₀
  show StableHlo.after hostOps1 _ (Proc.devRef .tc main_v5) = _
  after_results
  rw [show Pipeline.withArrays (cfgs 0).spec c (V0 m c) (fun w => (dats m 0 c).arrAt w (cfgs 0).N) (Proc.devRef .tc main_v0_2)
        = Bce m c from (Pipeline.withArrays_arr spec0 launch0.win.arr_inj c _ _ 9).trans (final9 m c),
    show Pipeline.withArrays (cfgs 0).spec c (V0 m c) (fun w => (dats m 0 c).arrAt w (cfgs 0).N) (Proc.devRef .tc main_v0_1)
        = Kl m c from (Pipeline.withArrays_arr spec0 launch0.win.arr_inj c _ _ 8).trans (final8 m c)]
  rfl

/-- A [g,1,1] array recast to a vector of g reads, at p, the entry (p,0,0). -/
theorem shapeCast_g11_g {α : Type} {g : ℕ} (x : (⟨3, ![g, 1, 1]⟩ : Shape).Idx → α)
    (h : (⟨3, ![g, 1, 1]⟩ : Shape).ShapeCasts ⟨1, ![g]⟩) (p : Fin g) :
    shapeCast ⟨1, ![g]⟩ x h (ix1 p) = x (ix3 p (0 : Fin 1) (0 : Fin 1)) :=
  shapeCast_apply x h _ _ (by
    rw [Shape.rowMajor_val_three, Shape.rowMajor_val_one]
    show (p.val * 1 + 0) * 1 + 0 = p.val
    omega)

/-- The tail at its one index: the mean over the 32 graphs of cross entropy + Kullback–Leibler. -/
theorem tail_apply (kl bce : FVec Ideal S32x1x1 .f32) :
    tail kl bce = fun _ => meanLoss (fun b => bce (ix3 b (0 : Fin 1) (0 : Fin 1))) (fun b => kl (ix3 b (0 : Fin 1) (0 : Fin 1))) := by
  funext j
  unfold tail meanLoss
  show Ideal.div (Ideal.hostReduceAdd reducesTo_S32_S_d0
      (addf (shapeCast S32 bce shapeCasts_S32x1x1_S32) (shapeCast S32 kl shapeCasts_S32x1x1_S32))
      (Ideal.ofBits .f32 0x00000000#32) j) (Ideal.ofBits .f32 0x42000000#32) = _
  rw [Ideal.hostReduceAdd_total reducesTo_S32_S_d0 (fun b => b.elim0)]
  refine congrArg (fun s : EReal => Ideal.div (Ideal.ofBits .f32 0x00000000#32 + s) wB) ?_
  refine (LibSumIdx1.sum_idx1 _).trans (Finset.sum_congr rfl fun b _ => ?_)
  rw [addf_apply, shapeCast_g11_g, shapeCast_g11_g]

/-- The fused program's scalar result from the arrays the region finds. -/
theorem tail_loss (c : Dev nD) :
    tail (Kl m c) (Bce m c)
      = fun _ => lossK (V m c main_arg0) (V m c main_arg1) (V m c main_arg2) (V m c main_arg3) (V m c main_arg5)
          (V m c main_arg4) (V m c main_arg6) := by
  rw [tail_apply]
  rfl

/-- The scalar result's buffer is none of the pipeline's arrays. -/
theorem v5_rest : main_v5 ∈ Pipeline.restRefs sig cfg0.spec :=
  Pipeline.mem_restRefs_of main_v5 rfl (fun w => by fin_cases w <;> decide)

/-- THE FUSED PROGRAM'S RUN, read: every weakly fair execution terminates; the latent array ends at `latentArr` and the scalar
    at `lossK` of the argument arrays; the arguments end unchanged. -/
theorem run : θ_run (defs (F := Ideal)) (onTc (τ := τ) (main (F := Ideal))) ⟨m, fun _ => 0, ρ⟩ (fun r => ∀ c : Dev nD,
      (r.2.mem ((c.tc : Thread nD τ).loc main_v0_0) = Lat m c
        ∧ r.2.mem ((c.tc : Thread nD τ).loc main_v5)
            = fun _ => lossK (V m c main_arg0) (V m c main_arg1) (V m c main_arg2) (V m c main_arg3) (V m c main_arg5)
                (V m c main_arg4) (V m c main_arg6))
      ∧ (r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6))) :=
  (θ_run defs _ _).mono (fun r h c =>
    ⟨⟨((h c).1 7).trans (final7 m c),
      (((h c).2 main_v5 v5_rest).trans (tail_eq m c)).trans (tail_loss m c)⟩,
     ⟨((h c).1 0).trans (((dats m 0 c).arrAt_in 0 rfl _).trans ((A_eq m c 0).trans (V_main_arg0 m c))),
      ((h c).1 2).trans (((dats m 0 c).arrAt_in 2 rfl _).trans ((A_eq m c 2).trans (V_main_arg1 m c))),
      ((h c).1 1).trans (((dats m 0 c).arrAt_in 1 rfl _).trans ((A_eq m c 1).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c)))⟩⟩)
    (run_main m ρ)

end Cert.KernelIdeal.Run
end
-- ==== Proof.RefTerms.lean ====
/-
  What the plain program computes, as functions of its argument arrays.

  From the node features X [32,1024,256], the adjacency A [32,1024,1024], the noise E [32,1024,128], the two weight
  matrices [256,128] and the two bias vectors [128]:
    head X W b   = X·W + b            (a dense layer on every node of every graph; the bias laid along the last axis),
    latent       = head(mean) + exp(head(log-std)) · E,
    logits Z     = Z·Zᵀ graph by graph (the last axes contracted, the graph axis shared),
    softplus u   = max(u,0) + log1p(exp(-|u - 0|))   (under a test u - 0 ≠ u - 0 that never holds of an extended real),
    logSigmoid u = -softplus(-u),
    crossEntropy A L = -( Σ over a graph's (n,m) of  A·logSigmoid L + (1 - A)·logSigmoid(-L) ) / 1048576,
    klDiv M S    = -1/2 · ( Σ over a graph's (n,d) of  1 + 2·S - M·M - exp(2·S) ) / 131072,
    loss         = ( Σ over the 32 graphs of crossEntropy + klDiv ) / 32.
  Each function keeps the program's own operations and float words, in its order.
-/
import proofs.«175631_j47579647705163_2_alg».proof.ReferenceIdeal
import proofs.«175631_j47579647705163_2_alg».proof.Proof.Gen.ReferenceIdeal

noncomputable section

namespace Cert.ReferenceIdeal.RefTerms

open Idealize.ShloMosaic Idealize.ShloMosaic.TcCoe Idealize.ShloMosaic.StableHlo Idealize.SL.Sem
open Cert.ReferenceIdeal Cert.ReferenceIdeal.Gen

variable {F : FTy → Type} [FloatOps F]

/-- A length-128 vector laid along the last axis of a [32,1024,128] array. -/
def rowBias (b : FVec F S128 .f32) : FVec F S32x1024x128 .f32 :=
  broadcastInDim S32x1024x128 ![0, 1, 2] bcast_S1x1x128_S32x1024x128_0_1_2 (broadcastInDim S1x1x128 ![2] bcast_S128_S1x1x128_2 b)

/-- A dense layer on every node of every graph: X·W + b. -/
def head (X : FVec F S32x1024x256 .f32) (W : FVec F S256x128 .f32) (b : FVec F S128 .f32) : FVec F S32x1024x128 .f32 :=
  addf (Host.dotGeneral dot_S32x1024x256_S256x128_S32x1024x128_2_0_01_1_n_n none X W) (rowBias b)

/-- The latent sample: mean + exp(log-std) · noise. -/
def latent (X : FVec F S32x1024x256 .f32) (E : FVec F S32x1024x128 .f32) (Wm : FVec F S256x128 .f32) (bm : FVec F S128 .f32)
    (Ws : FVec F S256x128 .f32) (bs : FVec F S128 .f32) : FVec F S32x1024x128 .f32 :=
  addf (head X Wm bm) (mulf (Host.exp (head X Ws bs)) E)

/-- The reconstruction logits, graph by graph: Z·Zᵀ. -/
def logits (Z : FVec F S32x1024x128 .f32) : FVec F S32x1024x1024 .f32 :=
  Host.dotGeneral dot_S32x1024x128_S32x1024x128_S32x1024x1024_2_2_1_1_0_0 none Z Z

/-- The zero word spread over a [32,1024,1024] array. -/
def zeros : FVec F S32x1024x1024 .f32 :=
  broadcastInDim S32x1024x1024 ![] bcast_S_S32x1024x1024 (constant S_ .f32 0x00000000#32)

/-- The stable softplus, as the program spells it. -/
def softplus (u : FVec F S32x1024x1024 .f32) : FVec F S32x1024x1024 .f32 :=
  select (cmpf .une (subf u zeros) (subf u zeros)) (addf u zeros)
    (addf (maximumf u zeros) (Host.log1p (Host.exp (Host.negf (Host.absf (subf u zeros))))))

/-- log σ(u) = -softplus(-u). -/
def logSigmoid (u : FVec F S32x1024x1024 .f32) : FVec F S32x1024x1024 .f32 :=
  Host.negf (softplus (Host.negf u))

/-- The cross entropy of the logits L against the adjacency A, one number per graph. -/
def crossEntropy (A L : FVec F S32x1024x1024 .f32) : FVec F S32 .f32 :=
  Host.negf
    (Host.divf
      (Host.reduceAdd
        (addf (mulf A (logSigmoid L))
          (mulf (subf (broadcastInDim S32x1024x1024 ![] bcast_S_S32x1024x1024 (constant S_ .f32 0x3F800000#32)) A)
            (logSigmoid (Host.negf L))))
        (constant S_ .f32 0x00000000#32) reducesTo_S32x1024x1024_S32_d1_2 h_S_)
      (broadcastInDim S32 ![] bcast_S_S32 (constant S_ .f32 0x49800000#32)))

/-- The Kullback–Leibler term from the mean head M and the log-std head S, one number per graph. -/
def klDiv (M S : FVec F S32x1024x128 .f32) : FVec F S32 .f32 :=
  mulf (broadcastInDim S32 ![] bcast_S_S32 (constant S_ .f32 0xBF000000#32))
    (Host.divf
      (Host.reduceAdd
        (subf
          (subf
            (addf (broadcastInDim S32x1024x128 ![] bcast_S_S32x1024x128 (constant S_ .f32 0x3F800000#32))
              (mulf (broadcastInDim S32x1024x128 ![] bcast_S_S32x1024x128 (constant S_ .f32 0x40000000#32)) S))
            (mulf M M))
          (Host.exp (mulf (broadcastInDim S32x1024x128 ![] bcast_S_S32x1024x128 (constant S_ .f32 0x40000000#32)) S)))
        (constant S_ .f32 0x00000000#32) reducesTo_S32x1024x128_S32_d1_2 h_S_)
      (broadcastInDim S32 ![] bcast_S_S32 (constant S_ .f32 0x48000000#32)))

/-- The mean over the 32 graphs of cross entropy + Kullback–Leibler. -/
def loss (bce kl : FVec F S32 .f32) : FVec F S_ .f32 :=
  Host.divf (Host.reduceAdd (addf bce kl) (constant S_ .f32 0x00000000#32) reducesTo_S32_S_d0 h_S_)
    (constant S_ .f32 0x42000000#32)

/-- The program's scalar result from its seven argument arrays. -/
def total (X : FVec F S32x1024x256 .f32) (A : FVec F S32x1024x1024 .f32) (E : FVec F S32x1024x128 .f32)
    (Wm : FVec F S256x128 .f32) (bm : FVec F S128 .f32) (Ws : FVec F S256x128 .f32) (bs : FVec F S128 .f32) : FVec F S_ .f32 :=
  loss (crossEntropy A (logits (latent X E Wm bm Ws bs))) (klDiv (head X Wm bm) (head X Ws bs))

end Cert.ReferenceIdeal.RefTerms

end
-- ==== Proof.LibAfterStages.lean ====
/-
  A straight line of host operations, read in stretches.

  The contents of a device's buffers after a list of host operations are a fold over the list. For a list that is two
  stretches one after the other, the fold is the second stretch's fold over the first's. A buffer that no operation of
  a stretch writes comes through that stretch unchanged; the tactic below proves it for a literal stretch by comparing
  the buffer with each operation's result buffer.
-/
import Idealize.ShloMosaic.Lib.StableHlo.Run

namespace Idealize.ShloMosaic.StableHlo

variable {τ : Topo} {sig : RefSig} {Val : EltTy → Type}

/-- The fold over two stretches is the second's over the first's. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- 'kept_through [L]' closes a goal 'after L V b = V b' for a literal stretch L (given by the names that unfold it)
    none of whose operations writes the buffer b. -/
macro "kept_through" "[" ds:Lean.Parser.Tactic.simpLemma,* "]" : tactic =>
  `(tactic| (
    refine after_of_forall_not_mem _ _ (List.forall_iff_forall_mem.mp ?_)
    simp only [$ds,*, List.Forall, nullary_writes, unary_writes, binary_writes, ternary_writes, quaternary_writes,
      reshape_writes, nary_writes, Finset.mem_singleton]
    repeat' apply And.intro
    all_goals exact devRef_ne_of_ne (by decide)))

end Idealize.ShloMosaic.StableHlo
-- ==== Proof.LibTypedRefs.lean ====
/-
  Typed references: the two transports cancel.

  An operation of a called function reads and writes its buffers through typed references: contents stated at the tensor
  value's type are moved to the buffer's own type when written and back when read. Moving to the buffer's type and back
  gives the contents one started with, so a value read where it was just written is the value.
-/
import Idealize.ShloMosaic.Lib.StableHlo

namespace Idealize.ShloMosaic.StableHlo

variable {sig : RefSig} {Val : EltTy → Type}

/-- Contents moved to a typed reference's own buffer type and back are the contents. -/
theorem TRef.ofBuf_toBuf {T : BufTy} (x : TRef sig T) (v : T.Contents Val) : x.ofBuf (x.toBuf v) = v := by
  simp only [TRef.ofBuf, TRef.toBuf, cast_cast, cast_eq]

end Idealize.ShloMosaic.StableHlo
-- ==== Proof.RefRun.lean ====
/-
  The run of the plain program.

  The plain program is a straight line of eighty-three array operations once its two calls of the log-sigmoid function
  (each a negation, the fourteen operations of the stable softplus, a negation) are written out at the call sites over
  the calls' own buffers. Read in four stretches: the two dense layers, the latent sample and the logits Z·Zᵀ; the
  log-sigmoid of the logits; the log-sigmoid of the negated logits; the two per-graph sums, their scalings and the mean
  over the graphs. Each stretch's results are the functions of RefTerms of the contents it starts from, and every
  buffer a stretch does not write comes through it unchanged; composed, the two results are the latent sample and the
  loss as functions of the seven argument arrays, and the arguments are unchanged.
-/
import proofs.«175631_j47579647705163_2_alg».proof.ReferenceIdeal
import proofs.«175631_j47579647705163_2_alg».proof.Proof.Gen.ReferenceIdeal
import proofs.«175631_j47579647705163_2_alg».proof.Proof.RefTerms
import proofs.«175631_j47579647705163_2_alg».proof.Proof.LibAfterStages
import proofs.«175631_j47579647705163_2_alg».proof.Proof.LibTypedRefs
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The operations, in four stretches -/

/-- The two dense layers X·W + b, the latent sample mean + exp(log-std)·noise, and the logits Z·Zᵀ: twelve operations. -/
def opsA : List (HloOp τ sig (Elt F)) :=
  [ binary main_arg0 main_arg3 main_v0 ((fun l r => Host.dotGeneral dot_S32x1024x256_S256x128_S32x1024x128_2_0_01_1_n_n none l r) : (⟨S32x1024x256, .f32⟩ : BufTy).Contents (Elt F) → (⟨S256x128, .f32⟩ : BufTy).Contents (Elt F) → (⟨S32x1024x128, .f32⟩ : BufTy).Contents (Elt F)),
    unary main_arg4 main_v1 (broadcastInDim S1x1x128 ![2] bcast_S128_S1x1x128_2 : (⟨S128, .f32⟩ : BufTy).Contents (Elt F) → (⟨S1x1x128, .f32⟩ : BufTy).Contents (Elt F)),
    unary main_v1 main_v2 (broadcastInDim S32x1024x128 ![0, 1, 2] bcast_S1x1x128_S32x1024x128_0_1_2 : (⟨S1x1x128, .f32⟩ : BufTy).Contents (Elt F) → (⟨S32x1024x128, .f32⟩ : BufTy).Contents (Elt F)),
    binary main_v0 main_v2 main_v3 (addf : (⟨S32x1024x128, .f32⟩ : BufTy).Contents (Elt F) → (⟨S32x1024x128, .f32⟩ : BufTy).Contents (Elt F) → (⟨S32x1024x128, .f32⟩ : BufTy).Contents (Elt F)),
    binary main_arg0 main_arg5 main_v4 ((fun l r => Host.dotGeneral dot_S32x1024x256_S256x128_S32x1024x128_2_0_01_1_n_n none l r) : (⟨S32x1024x256, .f32⟩ : BufTy).Contents (Elt F) → (⟨S256x128, .f32⟩ : BufTy).Contents (Elt F) → (⟨S32x1024x128, .f32⟩ : BufTy).Contents (Elt F)),
    unary main_arg6 main_v5 (broadcastInDim S1x1x128 ![2] bcast_S128_S1x1x128_2 : (⟨S128, .f32⟩ : BufTy).Contents (Elt F) → (⟨S1x1x128, .f32⟩ : BufTy).Contents (Elt F)),
    unary main_v5 main_v6 (broadcastInDim S32x1024x128 ![0, 1, 2] bcast_S1x1x128_S32x1024x128_0_1_2 : (⟨S1x1x128, .f32⟩ : BufTy).Contents (Elt F) → (⟨S32x1024x128, .f32⟩ : BufTy).Contents (Elt F)),
    binary main_v4 main_v6 main_v7 (addf : (⟨S32x1024x128, .f32⟩ : BufTy).Contents (Elt F) → (⟨S32x1024x128, .f32⟩ : BufTy).Contents (Elt F) → (⟨S32x1024x128, .f32⟩ : BufTy).Contents (Elt F)),
    unary main_v7 main_v8 (Host.exp : (⟨S32x1024x128, .f32⟩ : BufTy).Contents (Elt F) → (⟨S32x1024x128, .f32⟩ : BufTy).Contents (Elt F)),
    binary main_v8 main_arg2 main_v9 (mulf : (⟨S32x1024x128, .f32⟩ : BufTy).Contents (Elt F) → (⟨S32x1024x128, .f32⟩ : BufTy).Contents (Elt F) → (⟨S32x1024x128, .f32⟩ : BufTy).Contents (Elt F)),
    binary main_v3 main_v9 main_v10 (addf : (⟨S32x1024x128, .f32⟩ : BufTy).Contents (Elt F) → (⟨S32x1024x128, .f32⟩ : BufTy).Contents (Elt F) → (⟨S32x1024x128, .f32⟩ : BufTy).Contents (Elt F)),
    binary main_v10 main_v10 main_v11 ((fun l r => Host.dotGeneral dot_S32x1024x128_S32x1024x128_S32x1024x1024_2_2_1_1_0_0 none l r) : (⟨S32x1024x128, .f32⟩ : BufTy).Contents (Elt F) → (⟨S32x1024x128, .f32⟩ : BufTy).Contents (Elt F) → (⟨S32x1024x1024, .f32⟩ : BufTy).Contents (Elt F)) ]

/-- The log-sigmoid of the logits: the negation, the fourteen operations of the stable softplus, the negation. -/
def opsB : List (HloOp τ sig (Elt F)) :=
  [ TRef.unary (.of main_v11) main_call0.v0 Host.negf,
    TRef.nullary main_call0.call0.cst (constant S_ .f32 0x00000000#32),
    TRef.unary main_call0.call0.cst main_call0.call0.v0 (broadcastInDim S32x1024x1024 ![] bcast_S_S32x1024x1024),
    TRef.binary main_call0.v0 main_call0.call0.v0 main_call0.call0.v1 maximumf,
    TRef.unary main_call0.call0.cst main_call0.call0.v2 (broadcastInDim S32x1024x1024 ![] bcast_S_S32x1024x1024),
    TRef.binary main_call0.v0 main_call0.call0.v2 main_call0.call0.v3 subf,
    TRef.binary main_call0.call0.v3 main_call0.call0.v3 main_call0.call0.v4 (cmpf .une),
    TRef.unary main_call0.call0.cst main_call0.call0.v5 (broadcastInDim S32x1024x1024 ![] bcast_S_S32x1024x1024),
    TRef.binary main_call0.v0 main_call0.call0.v5 main_call0.call0.v6 addf,
    TRef.unary main_call0.call0.v3 main_call0.call0.v7 Host.absf,
    TRef.unary main_call0.call0.v7 main_call0.call0.v8 Host.negf,
    TRef.unary main_call0.call0.v8 main_call0.call0.v9 Host.exp,
    TRef.unary main_call0.call0.v9 main_call0.call0.v10 Host.log1p,
    TRef.binary main_call0.call0.v1 main_call0.call0.v10 main_call0.call0.v11 addf,
    TRef.ternary main_call0.call0.v4 main_call0.call0.v6 main_call0.call0.v11 main_call0.call0.v12 select,
    TRef.unary main_call0.call0.v12 main_call0.v2 Host.negf ]

/-- The negated logits, then their log-sigmoid: seventeen operations. -/
def opsC : List (HloOp τ sig (Elt F)) :=
  [ unary main_v11 main_v13 (Host.negf : (⟨S32x1024x1024, .f32⟩ : BufTy).Contents (Elt F) → (⟨S32x1024x1024, .f32⟩ : BufTy).Contents (Elt F)),
    TRef.unary (.of main_v13) main_call1.v0 Host.negf,
    TRef.nullary main_call1.call0.cst (constant S_ .f32 0x00000000#32),
    TRef.unary main_call1.call0.cst main_call1.call0.v0 (broadcastInDim S32x1024x1024 ![] bcast_S_S32x1024x1024),
    TRef.binary main_call1.v0 main_call1.call0.v0 main_call1.call0.v1 maximumf,
    TRef.unary main_call1.call0.cst main_call1.call0.v2 (broadcastInDim S32x1024x1024 ![] bcast_S_S32x1024x1024),
    TRef.binary main_call1.v0 main_call1.call0.v2 main_call1.call0.v3 subf,
    TRef.binary main_call1.call0.v3 main_call1.call0.v3 main_call1.call0.v4 (cmpf .une),
    TRef.unary main_call1.call0.cst main_call1.call0.v5 (broadcastInDim S32x1024x1024 ![] bcast_S_S32x1024x1024),
    TRef.binary main_call1.v0 main_call1.call0.v5 main_call1.call0.v6 addf,
    TRef.unary main_call1.call0.v3 main_call1.call0.v7 Host.absf,
    TRef.unary main_call1.call0.v7 main_call1.call0.v8 Host.negf,
    TRef.unary main_call1.call0.v8 main_call1.call0.v9 Host.exp,
    TRef.unary main_call1.call0.v9 main_call1.call0.v10 Host.log1p,
    TRef.binary main_call1.call0.v1 main_call1.call0.v10 main_call1.call0.v11 addf,
    TRef.ternary main_call1.call0.v4 main_call1.call0.v6 main_call1.call0.v11 main_call1.call0.v12 select,
    TRef.unary main_call1.call0.v12 main_call1.v2 Host.negf ]

/-- The cross entropy and the Kullback–Leibler term per graph and their mean over the graphs: thirty-eight operations. -/
def opsD : List (HloOp τ sig (Elt F)) :=
  [ binary main_arg1 main_v12 main_v15 (mulf : (⟨S32x1024x1024, .f32⟩ : BufTy).Contents (Elt F) → (⟨S32x1024x1024, .f32⟩ : BufTy).Contents (Elt F) → (⟨S32x1024x1024, .f32⟩ : BufTy).Contents (Elt F)),
    nullary main_cst (constant S_ .f32 0x3F800000#32),
    unary main_cst main_v16 (broadcastInDim S32x1024x1024 ![] bcast_S_S32x1024x1024 : (⟨S_, .f32⟩ : BufTy).Contents (Elt F) → (⟨S32x1024x1024, .f32⟩ : BufTy).Contents (Elt F)),
    binary main_v16 main_arg1 main_v17 (subf : (⟨S32x1024x1024, .f32⟩ : BufTy).Contents (Elt F) → (⟨S32x1024x1024, .f32⟩ : BufTy).Contents (Elt F) → (⟨S32x1024x1024, .f32⟩ : BufTy).Contents (Elt F)),
    binary main_v17 main_v14 main_v18 (mulf : (⟨S32x1024x1024, .f32⟩ : BufTy).Contents (Elt F) → (⟨S32x1024x1024, .f32⟩ : BufTy).Contents (Elt F) → (⟨S32x1024x1024, .f32⟩ : BufTy).Contents (Elt F)),
    binary main_v15 main_v18 main_v19 (addf : (⟨S32x1024x1024, .f32⟩ : BufTy).Contents (Elt F) → (⟨S32x1024x1024, .f32⟩ : BufTy).Contents (Elt F) → (⟨S32x1024x1024, .f32⟩ : BufTy).Contents (Elt F)),
    nullary main_cst_0 (constant S_ .f32 0x00000000#32),
    binary main_v19 main_cst_0 main_v20 ((fun x v => Host.reduceAdd x v reducesTo_S32x1024x1024_S32_d1_2 h_S_) : (⟨S32x1024x1024, .f32⟩ : BufTy).Contents (Elt F) → (⟨S_, .f32⟩ : BufTy).Contents (Elt F) → (⟨S32, .f32⟩ : BufTy).Contents (Elt F)),
    nullary main_cst_1 (constant S_ .f32 0x49800000#32),
    unary main_cst_1 main_v21 (broadcastInDim S32 ![] bcast_S_S32 : (⟨S_, .f32⟩ : BufTy).Contents (Elt F) → (⟨S32, .f32⟩ : BufTy).Contents (Elt F)),
    binary main_v20 main_v21 main_v22 (Host.divf : (⟨S32, .f32⟩ : BufTy).Contents (Elt F) → (⟨S32, .f32⟩ : BufTy).Contents (Elt F) → (⟨S32, .f32⟩ : BufTy).Contents (Elt F)),
    unary main_v22 main_v23 (Host.negf : (⟨S32, .f32⟩ : BufTy).Contents (Elt F) → (⟨S32, .f32⟩ : BufTy).Contents (Elt F)),
    nullary main_cst_2 (constant S_ .f32 0x40000000#32),
    unary main_cst_2 main_v24 (broadcastInDim S32x1024x128 ![] bcast_S_S32x1024x128 : (⟨S_, .f32⟩ : BufTy).Contents (Elt F) → (⟨S32x1024x128, .f32⟩ : BufTy).Contents (Elt F)),
    binary main_v24 main_v7 main_v25 (mulf : (⟨S32x1024x128, .f32⟩ : BufTy).Contents (Elt F) → (⟨S32x1024x128, .f32⟩ : BufTy).Contents (Elt F) → (⟨S32x1024x128, .f32⟩ : BufTy).Contents (Elt F)),
    nullary main_cst_3 (constant S_ .f32 0x3F800000#32),
    unary main_cst_3 main_v26 (broadcastInDim S32x1024x128 ![] bcast_S_S32x1024x128 : (⟨S_, .f32⟩ : BufTy).Contents (Elt F) → (⟨S32x1024x128, .f32⟩ : BufTy).Contents (Elt F)),
    binary main_v26 main_v25 main_v27 (addf : (⟨S32x1024x128, .f32⟩ : BufTy).Contents (Elt F) → (⟨S32x1024x128, .f32⟩ : BufTy).Contents (Elt F) → (⟨S32x1024x128, .f32⟩ : BufTy).Contents (Elt F)),
    binary main_v3 main_v3 main_v28 (mulf : (⟨S32x1024x128, .f32⟩ : BufTy).Contents (Elt F) → (⟨S32x1024x128, .f32⟩ : BufTy).Contents (Elt F) → (⟨S32x1024x128, .f32⟩ : BufTy).Contents (Elt F)),
    binary main_v27 main_v28 main_v29 (subf : (⟨S32x1024x128, .f32⟩ : BufTy).Contents (Elt F) → (⟨S32x1024x128, .f32⟩ : BufTy).Contents (Elt F) → (⟨S32x1024x128, .f32⟩ : BufTy).Contents (Elt F)),
    nullary main_cst_4 (constant S_ .f32 0x40000000#32),
    unary main_cst_4 main_v30 (broadcastInDim S32x1024x128 ![] bcast_S_S32x1024x128 : (⟨S_, .f32⟩ : BufTy).Contents (Elt F) → (⟨S32x1024x128, .f32⟩ : BufTy).Contents (Elt F)),
    binary main_v30 main_v7 main_v31 (mulf : (⟨S32x1024x128, .f32⟩ : BufTy).Contents (Elt F) → (⟨S32x1024x128, .f32⟩ : BufTy).Contents (Elt F) → (⟨S32x1024x128, .f32⟩ : BufTy).Contents (Elt F)),
    unary main_v31 main_v32 (Host.exp : (⟨S32x1024x128, .f32⟩ : BufTy).Contents (Elt F) → (⟨S32x1024x128, .f32⟩ : BufTy).Contents (Elt F)),
    binary main_v29 main_v32 main_v33 (subf : (⟨S32x1024x128, .f32⟩ : BufTy).Contents (Elt F) → (⟨S32x1024x128, .f32⟩ : BufTy).Contents (Elt F) → (⟨S32x1024x128, .f32⟩ : BufTy).Contents (Elt F)),
    nullary main_cst_5 (constant S_ .f32 0x00000000#32),
    binary main_v33 main_cst_5 main_v34 ((fun x v => Host.reduceAdd x v reducesTo_S32x1024x128_S32_d1_2 h_S_) : (⟨S32x1024x128, .f32⟩ : BufTy).Contents (Elt F) → (⟨S_, .f32⟩ : BufTy).Contents (Elt F) → (⟨S32, .f32⟩ : BufTy).Contents (Elt F)),
    nullary main_cst_6 (constant S_ .f32 0x48000000#32),
    unary main_cst_6 main_v35 (broadcastInDim S32 ![] bcast_S_S32 : (⟨S_, .f32⟩ : BufTy).Contents (Elt F) → (⟨S32, .f32⟩ : BufTy).Contents (Elt F)),
    binary main_v34 main_v35 main_v36 (Host.divf : (⟨S32, .f32⟩ : BufTy).Contents (Elt F) → (⟨S32, .f32⟩ : BufTy).Contents (Elt F) → (⟨S32, .f32⟩ : BufTy).Contents (Elt F)),
    nullary main_cst_7 (constant S_ .f32 0xBF000000#32),
    unary main_cst_7 main_v37 (broadcastInDim S32 ![] bcast_S_S32 : (⟨S_, .f32⟩ : BufTy).Contents (Elt F) → (⟨S32, .f32⟩ : BufTy).Contents (Elt F)),
    binary main_v37 main_v36 main_v38 (mulf : (⟨S32, .f32⟩ : BufTy).Contents (Elt F) → (⟨S32, .f32⟩ : BufTy).Contents (Elt F) → (⟨S32, .f32⟩ : BufTy).Contents (Elt F)),
    binary main_v23 main_v38 main_v39 (addf : (⟨S32, .f32⟩ : BufTy).Contents (Elt F) → (⟨S32, .f32⟩ : BufTy).Contents (Elt F) → (⟨S32, .f32⟩ : BufTy).Contents (Elt F)),
    nullary main_cst_8 (constant S_ .f32 0x00000000#32),
    binary main_v39 main_cst_8 main_v40 ((fun x v => Host.reduceAdd x v reducesTo_S32_S_d0 h_S_) : (⟨S32, .f32⟩ : BufTy).Contents (Elt F) → (⟨S_, .f32⟩ : BufTy).Contents (Elt F) → (⟨S_, .f32⟩ : BufTy).Contents (Elt F)),
    nullary main_cst_9 (constant S_ .f32 0x42000000#32),
    binary main_v40 main_cst_9 main_v41 (Host.divf : (⟨S_, .f32⟩ : BufTy).Contents (Elt F) → (⟨S_, .f32⟩ : BufTy).Contents (Elt F) → (⟨S_, .f32⟩ : BufTy).Contents (Elt F)) ]

/-- All eighty-three operations, in order. -/
abbrev ops : List (HloOp τ sig (Elt F)) :=
  [ binary main_arg0 main_arg3 main_v0 ((fun l r => Host.dotGeneral dot_S32x1024x256_S256x128_S32x1024x128_2_0_01_1_n_n none l r) : (⟨S32x1024x256, .f32⟩ : BufTy).Contents (Elt F) → (⟨S256x128, .f32⟩ : BufTy).Contents (Elt F) → (⟨S32x1024x128, .f32⟩ : BufTy).Contents (Elt F)),
    unary main_arg4 main_v1 (broadcastInDim S1x1x128 ![2] bcast_S128_S1x1x128_2 : (⟨S128, .f32⟩ : BufTy).Contents (Elt F) → (⟨S1x1x128, .f32⟩ : BufTy).Contents (Elt F)),
    unary main_v1 main_v2 (broadcastInDim S32x1024x128 ![0, 1, 2] bcast_S1x1x128_S32x1024x128_0_1_2 : (⟨S1x1x128, .f32⟩ : BufTy).Contents (Elt F) → (⟨S32x1024x128, .f32⟩ : BufTy).Contents (Elt F)),
    binary main_v0 main_v2 main_v3 (addf : (⟨S32x1024x128, .f32⟩ : BufTy).Contents (Elt F) → (⟨S32x1024x128, .f32⟩ : BufTy).Contents (Elt F) → (⟨S32x1024x128, .f32⟩ : BufTy).Contents (Elt F)),
    binary main_arg0 main_arg5 main_v4 ((fun l r => Host.dotGeneral dot_S32x1024x256_S256x128_S32x1024x128_2_0_01_1_n_n none l r) : (⟨S32x1024x256, .f32⟩ : BufTy).Contents (Elt F) → (⟨S256x128, .f32⟩ : BufTy).Contents (Elt F) → (⟨S32x1024x128, .f32⟩ : BufTy).Contents (Elt F)),
    unary main_arg6 main_v5 (broadcastInDim S1x1x128 ![2] bcast_S128_S1x1x128_2 : (⟨S128, .f32⟩ : BufTy).Contents (Elt F) → (⟨S1x1x128, .f32⟩ : BufTy).Contents (Elt F)),
    unary main_v5 main_v6 (broadcastInDim S32x1024x128 ![0, 1, 2] bcast_S1x1x128_S32x1024x128_0_1_2 : (⟨S1x1x128, .f32⟩ : BufTy).Contents (Elt F) → (⟨S32x1024x128, .f32⟩ : BufTy).Contents (Elt F)),
    binary main_v4 main_v6 main_v7 (addf : (⟨S32x1024x128, .f32⟩ : BufTy).Contents (Elt F) → (⟨S32x1024x128, .f32⟩ : BufTy).Contents (Elt F) → (⟨S32x1024x128, .f32⟩ : BufTy).Contents (Elt F)),
    unary main_v7 main_v8 (Host.exp : (⟨S32x1024x128, .f32⟩ : BufTy).Contents (Elt F) → (⟨S32x1024x128, .f32⟩ : BufTy).Contents (Elt F)),
    binary main_v8 main_arg2 main_v9 (mulf : (⟨S32x1024x128, .f32⟩ : BufTy).Contents (Elt F) → (⟨S32x1024x128, .f32⟩ : BufTy).Contents (Elt F) → (⟨S32x1024x128, .f32⟩ : BufTy).Contents (Elt F)),
    binary main_v3 main_v9 main_v10 (addf : (⟨S32x1024x128, .f32⟩ : BufTy).Contents (Elt F) → (⟨S32x1024x128, .f32⟩ : BufTy).Contents (Elt F) → (⟨S32x1024x128, .f32⟩ : BufTy).Contents (Elt F)),
    binary main_v10 main_v10 main_v11 ((fun l r => Host.dotGeneral dot_S32x1024x128_S32x1024x128_S32x1024x1024_2_2_1_1_0_0 none l r) : (⟨S32x1024x128, .f32⟩ : BufTy).Contents (Elt F) → (⟨S32x1024x128, .f32⟩ : BufTy).Contents (Elt F) → (⟨S32x1024x1024, .f32⟩ : BufTy).Contents (Elt F)),
    TRef.unary (.of main_v11) main_call0.v0 Host.negf,
    TRef.nullary main_call0.call0.cst (constant S_ .f32 0x00000000#32),
    TRef.unary main_call0.call0.cst main_call0.call0.v0 (broadcastInDim S32x1024x1024 ![] bcast_S_S32x1024x1024),
    TRef.binary main_call0.v0 main_call0.call0.v0 main_call0.call0.v1 maximumf,
    TRef.unary main_call0.call0.cst main_call0.call0.v2 (broadcastInDim S32x1024x1024 ![] bcast_S_S32x1024x1024),
    TRef.binary main_call0.v0 main_call0.call0.v2 main_call0.call0.v3 subf,
    TRef.binary main_call0.call0.v3 main_call0.call0.v3 main_call0.call0.v4 (cmpf .une),
    TRef.unary main_call0.call0.cst main_call0.call0.v5 (broadcastInDim S32x1024x1024 ![] bcast_S_S32x1024x1024),
    TRef.binary main_call0.v0 main_call0.call0.v5 main_call0.call0.v6 addf,
    TRef.unary main_call0.call0.v3 main_call0.call0.v7 Host.absf,
    TRef.unary main_call0.call0.v7 main_call0.call0.v8 Host.negf,
    TRef.unary main_call0.call0.v8 main_call0.call0.v9 Host.exp,
    TRef.unary main_call0.call0.v9 main_call0.call0.v10 Host.log1p,
    TRef.binary main_call0.call0.v1 main_call0.call0.v10 main_call0.call0.v11 addf,
    TRef.ternary main_call0.call0.v4 main_call0.call0.v6 main_call0.call0.v11 main_call0.call0.v12 select,
    TRef.unary main_call0.call0.v12 main_call0.v2 Host.negf,
    unary main_v11 main_v13 (Host.negf : (⟨S32x1024x1024, .f32⟩ : BufTy).Contents (Elt F) → (⟨S32x1024x1024, .f32⟩ : BufTy).Contents (Elt F)),
    TRef.unary (.of main_v13) main_call1.v0 Host.negf,
    TRef.nullary main_call1.call0.cst (constant S_ .f32 0x00000000#32),
    TRef.unary main_call1.call0.cst main_call1.call0.v0 (broadcastInDim S32x1024x1024 ![] bcast_S_S32x1024x1024),
    TRef.binary main_call1.v0 main_call1.call0.v0 main_call1.call0.v1 maximumf,
    TRef.unary main_call1.call0.cst main_call1.call0.v2 (broadcastInDim S32x1024x1024 ![] bcast_S_S32x1024x1024),
    TRef.binary main_call1.v0 main_call1.call0.v2 main_call1.call0.v3 subf,
    TRef.binary main_call1.call0.v3 main_call1.call0.v3 main_call1.call0.v4 (cmpf .une),
    TRef.unary main_call1.call0.cst main_call1.call0.v5 (broadcastInDim S32x1024x1024 ![] bcast_S_S32x1024x1024),
    TRef.binary main_call1.v0 main_call1.call0.v5 main_call1.call0.v6 addf,
    TRef.unary main_call1.call0.v3 main_call1.call0.v7 Host.absf,
    TRef.unary main_call1.call0.v7 main_call1.call0.v8 Host.negf,
    TRef.unary main_call1.call0.v8 main_call1.call0.v9 Host.exp,
    TRef.unary main_call1.call0.v9 main_call1.call0.v10 Host.log1p,
    TRef.binary main_call1.call0.v1 main_call1.call0.v10 main_call1.call0.v11 addf,
    TRef.ternary main_call1.call0.v4 main_call1.call0.v6 main_call1.call0.v11 main_call1.call0.v12 select,
    TRef.unary main_call1.call0.v12 main_call1.v2 Host.negf,
    binary main_arg1 main_v12 main_v15 (mulf : (⟨S32x1024x1024, .f32⟩ : BufTy).Contents (Elt F) → (⟨S32x1024x1024, .f32⟩ : BufTy).Contents (Elt F) → (⟨S32x1024x1024, .f32⟩ : BufTy).Contents (Elt F)),
    nullary main_cst (constant S_ .f32 0x3F800000#32),
    unary main_cst main_v16 (broadcastInDim S32x1024x1024 ![] bcast_S_S32x1024x1024 : (⟨S_, .f32⟩ : BufTy).Contents (Elt F) → (⟨S32x1024x1024, .f32⟩ : BufTy).Contents (Elt F)),
    binary main_v16 main_arg1 main_v17 (subf : (⟨S32x1024x1024, .f32⟩ : BufTy).Contents (Elt F) → (⟨S32x1024x1024, .f32⟩ : BufTy).Contents (Elt F) → (⟨S32x1024x1024, .f32⟩ : BufTy).Contents (Elt F)),
    binary main_v17 main_v14 main_v18 (mulf : (⟨S32x1024x1024, .f32⟩ : BufTy).Contents (Elt F) → (⟨S32x1024x1024, .f32⟩ : BufTy).Contents (Elt F) → (⟨S32x1024x1024, .f32⟩ : BufTy).Contents (Elt F)),
    binary main_v15 main_v18 main_v19 (addf : (⟨S32x1024x1024, .f32⟩ : BufTy).Contents (Elt F) → (⟨S32x1024x1024, .f32⟩ : BufTy).Contents (Elt F) → (⟨S32x1024x1024, .f32⟩ : BufTy).Contents (Elt F)),
    nullary main_cst_0 (constant S_ .f32 0x00000000#32),
    binary main_v19 main_cst_0 main_v20 ((fun x v => Host.reduceAdd x v reducesTo_S32x1024x1024_S32_d1_2 h_S_) : (⟨S32x1024x1024, .f32⟩ : BufTy).Contents (Elt F) → (⟨S_, .f32⟩ : BufTy).Contents (Elt F) → (⟨S32, .f32⟩ : BufTy).Contents (Elt F)),
    nullary main_cst_1 (constant S_ .f32 0x49800000#32),
    unary main_cst_1 main_v21 (broadcastInDim S32 ![] bcast_S_S32 : (⟨S_, .f32⟩ : BufTy).Contents (Elt F) → (⟨S32, .f32⟩ : BufTy).Contents (Elt F)),
    binary main_v20 main_v21 main_v22 (Host.divf : (⟨S32, .f32⟩ : BufTy).Contents (Elt F) → (⟨S32, .f32⟩ : BufTy).Contents (Elt F) → (⟨S32, .f32⟩ : BufTy).Contents (Elt F)),
    unary main_v22 main_v23 (Host.negf : (⟨S32, .f32⟩ : BufTy).Contents (Elt F) → (⟨S32, .f32⟩ : BufTy).Contents (Elt F)),
    nullary main_cst_2 (constant S_ .f32 0x40000000#32),
    unary main_cst_2 main_v24 (broadcastInDim S32x1024x128 ![] bcast_S_S32x1024x128 : (⟨S_, .f32⟩ : BufTy).Contents (Elt F) → (⟨S32x1024x128, .f32⟩ : BufTy).Contents (Elt F)),
    binary main_v24 main_v7 main_v25 (mulf : (⟨S32x1024x128, .f32⟩ : BufTy).Contents (Elt F) → (⟨S32x1024x128, .f32⟩ : BufTy).Contents (Elt F) → (⟨S32x1024x128, .f32⟩ : BufTy).Contents (Elt F)),
    nullary main_cst_3 (constant S_ .f32 0x3F800000#32),
    unary main_cst_3 main_v26 (broadcastInDim S32x1024x128 ![] bcast_S_S32x1024x128 : (⟨S_, .f32⟩ : BufTy).Contents (Elt F) → (⟨S32x1024x128, .f32⟩ : BufTy).Contents (Elt F)),
    binary main_v26 main_v25 main_v27 (addf : (⟨S32x1024x128, .f32⟩ : BufTy).Contents (Elt F) → (⟨S32x1024x128, .f32⟩ : BufTy).Contents (Elt F) → (⟨S32x1024x128, .f32⟩ : BufTy).Contents (Elt F)),
    binary main_v3 main_v3 main_v28 (mulf : (⟨S32x1024x128, .f32⟩ : BufTy).Contents (Elt F) → (⟨S32x1024x128, .f32⟩ : BufTy).Contents (Elt F) → (⟨S32x1024x128, .f32⟩ : BufTy).Contents (Elt F)),
    binary main_v27 main_v28 main_v29 (subf : (⟨S32x1024x128, .f32⟩ : BufTy).Contents (Elt F) → (⟨S32x1024x128, .f32⟩ : BufTy).Contents (Elt F) → (⟨S32x1024x128, .f32⟩ : BufTy).Contents (Elt F)),
    nullary main_cst_4 (constant S_ .f32 0x40000000#32),
    unary main_cst_4 main_v30 (broadcastInDim S32x1024x128 ![] bcast_S_S32x1024x128 : (⟨S_, .f32⟩ : BufTy).Contents (Elt F) → (⟨S32x1024x128, .f32⟩ : BufTy).Contents (Elt F)),
    binary main_v30 main_v7 main_v31 (mulf : (⟨S32x1024x128, .f32⟩ : BufTy).Contents (Elt F) → (⟨S32x1024x128, .f32⟩ : BufTy).Contents (Elt F) → (⟨S32x1024x128, .f32⟩ : BufTy).Contents (Elt F)),
    unary main_v31 main_v32 (Host.exp : (⟨S32x1024x128, .f32⟩ : BufTy).Contents (Elt F) → (⟨S32x1024x128, .f32⟩ : BufTy).Contents (Elt F)),
    binary main_v29 main_v32 main_v33 (subf : (⟨S32x1024x128, .f32⟩ : BufTy).Contents (Elt F) → (⟨S32x1024x128, .f32⟩ : BufTy).Contents (Elt F) → (⟨S32x1024x128, .f32⟩ : BufTy).Contents (Elt F)),
    nullary main_cst_5 (constant S_ .f32 0x00000000#32),
    binary main_v33 main_cst_5 main_v34 ((fun x v => Host.reduceAdd x v reducesTo_S32x1024x128_S32_d1_2 h_S_) : (⟨S32x1024x128, .f32⟩ : BufTy).Contents (Elt F) → (⟨S_, .f32⟩ : BufTy).Contents (Elt F) → (⟨S32, .f32⟩ : BufTy).Contents (Elt F)),
    nullary main_cst_6 (constant S_ .f32 0x48000000#32),
    unary main_cst_6 main_v35 (broadcastInDim S32 ![] bcast_S_S32 : (⟨S_, .f32⟩ : BufTy).Contents (Elt F) → (⟨S32, .f32⟩ : BufTy).Contents (Elt F)),
    binary main_v34 main_v35 main_v36 (Host.divf : (⟨S32, .f32⟩ : BufTy).Contents (Elt F) → (⟨S32, .f32⟩ : BufTy).Contents (Elt F) → (⟨S32, .f32⟩ : BufTy).Contents (Elt F)),
    nullary main_cst_7 (constant S_ .f32 0xBF000000#32),
    unary main_cst_7 main_v37 (broadcastInDim S32 ![] bcast_S_S32 : (⟨S_, .f32⟩ : BufTy).Contents (Elt F) → (⟨S32, .f32⟩ : BufTy).Contents (Elt F)),
    binary main_v37 main_v36 main_v38 (mulf : (⟨S32, .f32⟩ : BufTy).Contents (Elt F) → (⟨S32, .f32⟩ : BufTy).Contents (Elt F) → (⟨S32, .f32⟩ : BufTy).Contents (Elt F)),
    binary main_v23 main_v38 main_v39 (addf : (⟨S32, .f32⟩ : BufTy).Contents (Elt F) → (⟨S32, .f32⟩ : BufTy).Contents (Elt F) → (⟨S32, .f32⟩ : BufTy).Contents (Elt F)),
    nullary main_cst_8 (constant S_ .f32 0x00000000#32),
    binary main_v39 main_cst_8 main_v40 ((fun x v => Host.reduceAdd x v reducesTo_S32_S_d0 h_S_) : (⟨S32, .f32⟩ : BufTy).Contents (Elt F) → (⟨S_, .f32⟩ : BufTy).Contents (Elt F) → (⟨S_, .f32⟩ : BufTy).Contents (Elt F)),
    nullary main_cst_9 (constant S_ .f32 0x42000000#32),
    binary main_v40 main_cst_9 main_v41 (Host.divf : (⟨S_, .f32⟩ : BufTy).Contents (Elt F) → (⟨S_, .f32⟩ : BufTy).Contents (Elt F) → (⟨S_, .f32⟩ : BufTy).Contents (Elt F)) ]

/-- The line is its four stretches one after the other. -/
theorem ops_split : (ops : List (HloOp τ sig (Elt F))) = opsA ++ (opsB ++ (opsC ++ opsD)) := rfl

/-! ## The program is that line -/

-- eighty-three sequencing steps reassociated, one rewriting pass under each
set_option maxRecDepth 8192 in
set_option maxHeartbeats 4000000 in
/-- The program is the straight line: the two functions' bodies written out at their calls, the sequencing reassociated. -/
theorem main_eq (c : Dev nD) : main (F := F) c = seq ops := by
  simp only [main, fn_log_sigmoid.body, fn_softplus.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨binary_bufs_sub .., unary_bufs_sub .., unary_bufs_sub .., binary_bufs_sub .., binary_bufs_sub .., unary_bufs_sub ..,
    unary_bufs_sub .., binary_bufs_sub .., unary_bufs_sub .., binary_bufs_sub .., binary_bufs_sub .., binary_bufs_sub ..,
    unary_bufs_sub .., nullary_bufs_sub .., unary_bufs_sub .., binary_bufs_sub .., unary_bufs_sub .., binary_bufs_sub ..,
    binary_bufs_sub .., unary_bufs_sub .., binary_bufs_sub .., unary_bufs_sub .., unary_bufs_sub .., unary_bufs_sub ..,
    unary_bufs_sub .., binary_bufs_sub .., ternary_bufs_sub .., unary_bufs_sub .., unary_bufs_sub .., unary_bufs_sub ..,
    nullary_bufs_sub .., unary_bufs_sub .., binary_bufs_sub .., unary_bufs_sub .., binary_bufs_sub .., binary_bufs_sub ..,
    unary_bufs_sub .., binary_bufs_sub .., unary_bufs_sub .., unary_bufs_sub .., unary_bufs_sub .., unary_bufs_sub ..,
    binary_bufs_sub .., ternary_bufs_sub .., unary_bufs_sub .., binary_bufs_sub .., nullary_bufs_sub .., unary_bufs_sub ..,
    binary_bufs_sub .., binary_bufs_sub .., binary_bufs_sub .., nullary_bufs_sub .., binary_bufs_sub .., nullary_bufs_sub ..,
    unary_bufs_sub .., binary_bufs_sub .., unary_bufs_sub .., nullary_bufs_sub .., unary_bufs_sub .., binary_bufs_sub ..,
    nullary_bufs_sub .., unary_bufs_sub .., binary_bufs_sub .., binary_bufs_sub .., binary_bufs_sub .., nullary_bufs_sub ..,
    unary_bufs_sub .., binary_bufs_sub .., unary_bufs_sub .., binary_bufs_sub .., nullary_bufs_sub .., binary_bufs_sub ..,
    nullary_bufs_sub .., unary_bufs_sub .., binary_bufs_sub .., nullary_bufs_sub .., unary_bufs_sub .., binary_bufs_sub ..,
    binary_bufs_sub .., nullary_bufs_sub .., binary_bufs_sub .., nullary_bufs_sub .., binary_bufs_sub ..⟩

/-- Every weakly fair execution of the program ends with each buffer at the line's fold over the launch contents. -/
theorem run_all (m : (ℓ : Loc nD τ sig) → Buf (Elt F) ℓ) (ρ : Dev nD → PrngReg) :
    θ_run (defs (F := F)) (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-! ## What each stretch computes -/

/-- The cross entropy per graph from the adjacency and the two log-sigmoid arrays: -(Σ A·p + (1 - A)·q) / 1048576. -/
def crossEntropyOf (A p q : FVec F S32x1024x1024 .f32) : FVec F S32 .f32 :=
  Host.negf
    (Host.divf
      (Host.reduceAdd
        (addf (mulf A p)
          (mulf (subf (broadcastInDim S32x1024x1024 ![] bcast_S_S32x1024x1024 (constant S_ .f32 0x3F800000#32)) A) q))
        (constant S_ .f32 0x00000000#32) reducesTo_S32x1024x1024_S32_d1_2 h_S_)
      (broadcastInDim S32 ![] bcast_S_S32 (constant S_ .f32 0x49800000#32)))

/-- The cross entropy of RefTerms is that, at the log-sigmoid of the logits and of their negation. -/
theorem crossEntropy_eq (A L : FVec F S32x1024x1024 .f32) :
    RefTerms.crossEntropy A L = crossEntropyOf A (RefTerms.logSigmoid L) (RefTerms.logSigmoid (Host.negf L)) := rfl

section Stretches

attribute [local irreducible] Host.reduceAdd Host.exp Host.log1p broadcastInDim

/-! ### The first stretch: the dense layers, the latent sample, the logits -/

/-- The mean head: X·Wm + bm. -/
theorem A_v3 (V : Valuation τ sig (Elt F)) :
    after opsA V (main_v3 : DevRef τ sig) = RefTerms.head (V (main_arg0 : DevRef τ sig)) (V (main_arg3 : DevRef τ sig)) (V (main_arg4 : DevRef τ sig)) := by
  unfold opsA
  after_results_simp
  rfl

/-- The log-std head: X·Ws + bs. -/
theorem A_v7 (V : Valuation τ sig (Elt F)) :
    after opsA V (main_v7 : DevRef τ sig) = RefTerms.head (V (main_arg0 : DevRef τ sig)) (V (main_arg5 : DevRef τ sig)) (V (main_arg6 : DevRef τ sig)) := by
  unfold opsA
  after_results_simp
  rfl

/-- The latent sample: mean + exp(log-std) · noise. -/
theorem A_v10 (V : Valuation τ sig (Elt F)) :
    after opsA V (main_v10 : DevRef τ sig) = RefTerms.latent (V (main_arg0 : DevRef τ sig)) (V (main_arg2 : DevRef τ sig)) (V (main_arg3 : DevRef τ sig)) (V (main_arg4 : DevRef τ sig)) (V (main_arg5 : DevRef τ sig)) (V (main_arg6 : DevRef τ sig)) := by
  unfold opsA
  after_results_simp
  rfl

/-- The logits: Z·Zᵀ of the latent sample, graph by graph. -/
theorem A_v11 (V : Valuation τ sig (Elt F)) :
    after opsA V (main_v11 : DevRef τ sig) = RefTerms.logits (RefTerms.latent (V (main_arg0 : DevRef τ sig)) (V (main_arg2 : DevRef τ sig)) (V (main_arg3 : DevRef τ sig)) (V (main_arg4 : DevRef τ sig)) (V (main_arg5 : DevRef τ sig)) (V (main_arg6 : DevRef τ sig))) := by
  unfold opsA
  after_results_simp
  rfl

theorem A_arg0 (W : Valuation τ sig (Elt F)) :
    after opsA W (main_arg0 : DevRef τ sig) = W (main_arg0 : DevRef τ sig) := by
  kept_through [opsA]

theorem A_arg1 (W : Valuation τ sig (Elt F)) :
    after opsA W (main_arg1 : DevRef τ sig) = W (main_arg1 : DevRef τ sig) := by
  kept_through [opsA]

theorem A_arg2 (W : Valuation τ sig (Elt F)) :
    after opsA W (main_arg2 : DevRef τ sig) = W (main_arg2 : DevRef τ sig) := by
  kept_through [opsA]

theorem A_arg3 (W : Valuation τ sig (Elt F)) :
    after opsA W (main_arg3 : DevRef τ sig) = W (main_arg3 : DevRef τ sig) := by
  kept_through [opsA]

theorem A_arg4 (W : Valuation τ sig (Elt F)) :
    after opsA W (main_arg4 : DevRef τ sig) = W (main_arg4 : DevRef τ sig) := by
  kept_through [opsA]

theorem A_arg5 (W : Valuation τ sig (Elt F)) :
    after opsA W (main_arg5 : DevRef τ sig) = W (main_arg5 : DevRef τ sig) := by
  kept_through [opsA]

theorem A_arg6 (W : Valuation τ sig (Elt F)) :
    after opsA W (main_arg6 : DevRef τ sig) = W (main_arg6 : DevRef τ sig) := by
  kept_through [opsA]

/-! ### The second stretch: the log-sigmoid of the logits -/

/-- The second stretch writes -softplus(-L), L the logits it starts from. -/
theorem B_v12 (W : Valuation τ sig (Elt F)) :
    after opsB W (main_v12 : DevRef τ sig) = RefTerms.logSigmoid (W (main_v11 : DevRef τ sig)) := by
  unfold opsB
  after_results_simp
  simp only [TRef.ofBuf_toBuf]
  rfl

theorem B_v3 (W : Valuation τ sig (Elt F)) :
    after opsB W (main_v3 : DevRef τ sig) = W (main_v3 : DevRef τ sig) := by
  kept_through [opsB]

theorem B_v7 (W : Valuation τ sig (Elt F)) :
    after opsB W (main_v7 : DevRef τ sig) = W (main_v7 : DevRef τ sig) := by
  kept_through [opsB]

theorem B_v10 (W : Valuation τ sig (Elt F)) :
    after opsB W (main_v10 : DevRef τ sig) = W (main_v10 : DevRef τ sig) := by
  kept_through [opsB]

theorem B_v11 (W : Valuation τ sig (Elt F)) :
    after opsB W (main_v11 : DevRef τ sig) = W (main_v11 : DevRef τ sig) := by
  kept_through [opsB]

theorem B_arg0 (W : Valuation τ sig (Elt F)) :
    after opsB W (main_arg0 : DevRef τ sig) = W (main_arg0 : DevRef τ sig) := by
  kept_through [opsB]

theorem B_arg1 (W : Valuation τ sig (Elt F)) :
    after opsB W (main_arg1 : DevRef τ sig) = W (main_arg1 : DevRef τ sig) := by
  kept_through [opsB]

theorem B_arg2 (W : Valuation τ sig (Elt F)) :
    after opsB W (main_arg2 : DevRef τ sig) = W (main_arg2 : DevRef τ sig) := by
  kept_through [opsB]

theorem B_arg3 (W : Valuation τ sig (Elt F)) :
    after opsB W (main_arg3 : DevRef τ sig) = W (main_arg3 : DevRef τ sig) := by
  kept_through [opsB]

theorem B_arg4 (W : Valuation τ sig (Elt F)) :
    after opsB W (main_arg4 : DevRef τ sig) = W (main_arg4 : DevRef τ sig) := by
  kept_through [opsB]

theorem B_arg5 (W : Valuation τ sig (Elt F)) :
    after opsB W (main_arg5 : DevRef τ sig) = W (main_arg5 : DevRef τ sig) := by
  kept_through [opsB]

theorem B_arg6 (W : Valuation τ sig (Elt F)) :
    after opsB W (main_arg6 : DevRef τ sig) = W (main_arg6 : DevRef τ sig) := by
  kept_through [opsB]

/-! ### The third stretch: the log-sigmoid of the negated logits -/

/-- The third stretch writes -softplus(-(-L)), L the logits it starts from. -/
theorem C_v14 (W : Valuation τ sig (Elt F)) :
    after opsC W (main_v14 : DevRef τ sig) = RefTerms.logSigmoid (Host.negf (W (main_v11 : DevRef τ sig))) := by
  unfold opsC
  after_results_simp
  simp only [TRef.ofBuf_toBuf]
  rfl

theorem C_v3 (W : Valuation τ sig (Elt F)) :
    after opsC W (main_v3 : DevRef τ sig) = W (main_v3 : DevRef τ sig) := by
  kept_through [opsC]

theorem C_v7 (W : Valuation τ sig (Elt F)) :
    after opsC W (main_v7 : DevRef τ sig) = W (main_v7 : DevRef τ sig) := by
  kept_through [opsC]

theorem C_v10 (W : Valuation τ sig (Elt F)) :
    after opsC W (main_v10 : DevRef τ sig) = W (main_v10 : DevRef τ sig) := by
  kept_through [opsC]

theorem C_v12 (W : Valuation τ sig (Elt F)) :
    after opsC W (main_v12 : DevRef τ sig) = W (main_v12 : DevRef τ sig) := by
  kept_through [opsC]

theorem C_arg0 (W : Valuation τ sig (Elt F)) :
    after opsC W (main_arg0 : DevRef τ sig) = W (main_arg0 : DevRef τ sig) := by
  kept_through [opsC]

theorem C_arg1 (W : Valuation τ sig (Elt F)) :
    after opsC W (main_arg1 : DevRef τ sig) = W (main_arg1 : DevRef τ sig) := by
  kept_through [opsC]

theorem C_arg2 (W : Valuation τ sig (Elt F)) :
    after opsC W (main_arg2 : DevRef τ sig) = W (main_arg2 : DevRef τ sig) := by
  kept_through [opsC]

theorem C_arg3 (W : Valuation τ sig (Elt F)) :
    after opsC W (main_arg3 : DevRef τ sig) = W (main_arg3 : DevRef τ sig) := by
  kept_through [opsC]

theorem C_arg4 (W : Valuation τ sig (Elt F)) :
    after opsC W (main_arg4 : DevRef τ sig) = W (main_arg4 : DevRef τ sig) := by
  kept_through [opsC]

theorem C_arg5 (W : Valuation τ sig (Elt F)) :
    after opsC W (main_arg5 : DevRef τ sig) = W (main_arg5 : DevRef τ sig) := by
  kept_through [opsC]

theorem C_arg6 (W : Valuation τ sig (Elt F)) :
    after opsC W (main_arg6 : DevRef τ sig) = W (main_arg6 : DevRef τ sig) := by
  kept_through [opsC]

/-! ### The fourth stretch: the two sums per graph and the mean over the graphs -/

/-- The fourth stretch writes the mean over the graphs of the cross entropy (from the adjacency and the two
    log-sigmoid arrays) plus the Kullback–Leibler term (from the two heads). -/
theorem D_v41 (W : Valuation τ sig (Elt F)) :
    after opsD W (main_v41 : DevRef τ sig)
      = RefTerms.loss
          (crossEntropyOf (W (main_arg1 : DevRef τ sig)) (W (main_v12 : DevRef τ sig)) (W (main_v14 : DevRef τ sig)))
          (RefTerms.klDiv (W (main_v3 : DevRef τ sig)) (W (main_v7 : DevRef τ sig))) := by
  unfold opsD
  after_results_simp
  rfl

theorem D_v10 (W : Valuation τ sig (Elt F)) :
    after opsD W (main_v10 : DevRef τ sig) = W (main_v10 : DevRef τ sig) := by
  kept_through [opsD]

theorem D_arg0 (W : Valuation τ sig (Elt F)) :
    after opsD W (main_arg0 : DevRef τ sig) = W (main_arg0 : DevRef τ sig) := by
  kept_through [opsD]

theorem D_arg1 (W : Valuation τ sig (Elt F)) :
    after opsD W (main_arg1 : DevRef τ sig) = W (main_arg1 : DevRef τ sig) := by
  kept_through [opsD]

theorem D_arg2 (W : Valuation τ sig (Elt F)) :
    after opsD W (main_arg2 : DevRef τ sig) = W (main_arg2 : DevRef τ sig) := by
  kept_through [opsD]

theorem D_arg3 (W : Valuation τ sig (Elt F)) :
    after opsD W (main_arg3 : DevRef τ sig) = W (main_arg3 : DevRef τ sig) := by
  kept_through [opsD]

theorem D_arg4 (W : Valuation τ sig (Elt F)) :
    after opsD W (main_arg4 : DevRef τ sig) = W (main_arg4 : DevRef τ sig) := by
  kept_through [opsD]

theorem D_arg5 (W : Valuation τ sig (Elt F)) :
    after opsD W (main_arg5 : DevRef τ sig) = W (main_arg5 : DevRef τ sig) := by
  kept_through [opsD]

theorem D_arg6 (W : Valuation τ sig (Elt F)) :
    after opsD W (main_arg6 : DevRef τ sig) = W (main_arg6 : DevRef τ sig) := by
  kept_through [opsD]

end Stretches

/-! ## The whole line -/

/-- The latent sample is written in the first stretch and comes through the other three. -/
theorem v10_eq (V : Valuation τ sig (Elt F)) :
    after ops V (main_v10 : DevRef τ sig) = RefTerms.latent (V (main_arg0 : DevRef τ sig)) (V (main_arg2 : DevRef τ sig)) (V (main_arg3 : DevRef τ sig)) (V (main_arg4 : DevRef τ sig)) (V (main_arg5 : DevRef τ sig)) (V (main_arg6 : DevRef τ sig)) := by
  rw [ops_split, after_append, after_append, after_append, D_v10, C_v10, B_v10, A_v10]

/-- The scalar result: the fourth stretch's mean, read at what the first three stretches leave — the adjacency as it
    was, the two log-sigmoid arrays of the logits of the latent sample, the two heads. -/
theorem v41_eq (V : Valuation τ sig (Elt F)) :
    after ops V (main_v41 : DevRef τ sig) = RefTerms.total (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) := by
  rw [ops_split, after_append, after_append, after_append, D_v41,
    C_arg1, B_arg1, A_arg1, C_v12, B_v12, A_v11, C_v14, B_v11, A_v11, C_v3, B_v3, A_v3, C_v7, B_v7, A_v7]
  rfl

theorem arg0_eq (V : Valuation τ sig (Elt F)) :
    after ops V (main_arg0 : DevRef τ sig) = V (main_arg0 : DevRef τ sig) := by
  rw [ops_split, after_append, after_append, after_append, D_arg0, C_arg0, B_arg0, A_arg0]

theorem arg1_eq (V : Valuation τ sig (Elt F)) :
    after ops V (main_arg1 : DevRef τ sig) = V (main_arg1 : DevRef τ sig) := by
  rw [ops_split, after_append, after_append, after_append, D_arg1, C_arg1, B_arg1, A_arg1]

theorem arg2_eq (V : Valuation τ sig (Elt F)) :
    after ops V (main_arg2 : DevRef τ sig) = V (main_arg2 : DevRef τ sig) := by
  rw [ops_split, after_append, after_append, after_append, D_arg2, C_arg2, B_arg2, A_arg2]

theorem arg3_eq (V : Valuation τ sig (Elt F)) :
    after ops V (main_arg3 : DevRef τ sig) = V (main_arg3 : DevRef τ sig) := by
  rw [ops_split, after_append, after_append, after_append, D_arg3, C_arg3, B_arg3, A_arg3]

theorem arg4_eq (V : Valuation τ sig (Elt F)) :
    after ops V (main_arg4 : DevRef τ sig) = V (main_arg4 : DevRef τ sig) := by
  rw [ops_split, after_append, after_append, after_append, D_arg4, C_arg4, B_arg4, A_arg4]

theorem arg5_eq (V : Valuation τ sig (Elt F)) :
    after ops V (main_arg5 : DevRef τ sig) = V (main_arg5 : DevRef τ sig) := by
  rw [ops_split, after_append, after_append, after_append, D_arg5, C_arg5, B_arg5, A_arg5]

theorem arg6_eq (V : Valuation τ sig (Elt F)) :
    after ops V (main_arg6 : DevRef τ sig) = V (main_arg6 : DevRef τ sig) := by
  rw [ops_split, after_append, after_append, after_append, D_arg6, C_arg6, B_arg6, A_arg6]

open Idealize.ShloMosaic Idealize.ShloMosaic.TcCoe Idealize.ShloMosaic.StableHlo Idealize.SL.Sem Cert.ReferenceIdeal in
/-- At the compiled mesh, for any float values, from any memory with zero counters: every weakly fair execution of the
    plain program terminates with the latent sample and the loss at their buffers, as functions of the seven argument
    arrays, and the arguments unchanged. -/
theorem run {F : FTy → Type} [FloatOps F] (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      (r.2.mem ((c.tc : Thread nD τ).loc main_v10)
          = RefTerms.latent (m ((c.tc : Thread nD τ).loc main_arg0)) (m ((c.tc : Thread nD τ).loc main_arg2))
              (m ((c.tc : Thread nD τ).loc main_arg3)) (m ((c.tc : Thread nD τ).loc main_arg4))
              (m ((c.tc : Thread nD τ).loc main_arg5)) (m ((c.tc : Thread nD τ).loc main_arg6))
        ∧ r.2.mem ((c.tc : Thread nD τ).loc main_v41)
          = RefTerms.total (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4)) (m ((c.tc : Thread nD τ).loc main_arg5))
              (m ((c.tc : Thread nD τ).loc main_arg6)))
      ∧ (r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6))) :=
  (θ_run (defs (F := F)) _ _).mono
    (fun _ h c =>
      ⟨⟨(h c main_v10).trans (v10_eq (launchContents m c)), (h c main_v41).trans (v41_eq (launchContents m c))⟩,
        (h c main_arg0).trans (arg0_eq (launchContents m c)), (h c main_arg1).trans (arg1_eq (launchContents m c)),
        (h c main_arg2).trans (arg2_eq (launchContents m c)), (h c main_arg3).trans (arg3_eq (launchContents m c)),
        (h c main_arg4).trans (arg4_eq (launchContents m c)), (h c main_arg5).trans (arg5_eq (launchContents m c)),
        (h c main_arg6).trans (arg6_eq (launchContents m c))⟩)
    (run_all m ρ)

end Cert.ReferenceIdeal.RefRun

end
-- ==== Proof.LibStackedProducts.lean ====
/-
  Two products of stacked matrices, read at an index on the extended reals.

  For a stack X of g matrices [a, n] (shape [g, a, n]):
   * against one matrix W [n, b], contracting X's last axis with W's first: the result [g, a, b] has entry
     (p, r, e) = Σ_k X(p,r,k) · W(k,e) — every matrix of the stack times W;
   * against a second stack Y [g, b, n], contracting the last axes and sharing the first (a batch axis): the result
     [g, a, b] has entry (p, r, e) = Σ_k X(p,r,k) · Y(p,e,k) — matrix p of X times the transpose of matrix p of Y.
  The host's general dot product is exactly that sum.
-/
import Idealize.ShloMosaic.PureOps.Ideal.Laws
import Idealize.ShloMosaic.Lib.ValueIdx

noncomputable section

open scoped BigOperators

namespace Cert.StackedProducts

open Idealize.ShloMosaic Idealize.ShloMosaic.ValueIdx

variable {g a b n : ℕ}

/-! ## A stack of matrices times one matrix -/

/-- "Contract axis 2 of the left operand with axis 0 of the right; keep axes 0, 1 of the left and axis 1 of the right". -/
abbrev stackDims (wf : DotDims.WF ⟨3, ![g, a, n]⟩ ⟨2, ![n, b]⟩ ⟨3, ![g, a, b]⟩ [2] [0] [0, 1] [1] [] []) :
    DotDims ⟨3, ![g, a, n]⟩ ⟨2, ![n, b]⟩ ⟨3, ![g, a, b]⟩ where
  lhsContracting := [2]
  rhsContracting := [0]
  lhsNonContracting := [0, 1]
  rhsNonContracting := [1]
  lhsBatch := []
  rhsBatch := []
  wf := wf

section stack
variable (wf : DotDims.WF ⟨3, ![g, a, n]⟩ ⟨2, ![n, b]⟩ ⟨3, ![g, a, b]⟩ [2] [0] [0, 1] [1] [] [])

theorem stack_lhs0 (i : (⟨3, ![g, a, b]⟩ : Shape).Idx) (q : (stackDims wf).contr.Idx) :
    ((stackDims wf).lhsIdx i q 0).val = (i 0).val := by
  unfold DotDims.lhsIdx
  rw [dif_neg (show ¬(0 : Fin (⟨3, ![g, a, n]⟩ : Shape).rank) ∈ (stackDims wf).lhsBatch from List.not_mem_nil),
    dif_pos (show (0 : Fin (⟨3, ![g, a, n]⟩ : Shape).rank) ∈ (stackDims wf).lhsNonContracting from List.mem_cons.mpr (Or.inl rfl))]
  rfl
theorem stack_lhs1 (i : (⟨3, ![g, a, b]⟩ : Shape).Idx) (q : (stackDims wf).contr.Idx) :
    ((stackDims wf).lhsIdx i q 1).val = (i 1).val := by
  unfold DotDims.lhsIdx
  rw [dif_neg (show ¬(1 : Fin (⟨3, ![g, a, n]⟩ : Shape).rank) ∈ (stackDims wf).lhsBatch from List.not_mem_nil),
    dif_pos (show (1 : Fin (⟨3, ![g, a, n]⟩ : Shape).rank) ∈ (stackDims wf).lhsNonContracting from
      List.mem_cons.mpr (Or.inr (List.mem_singleton.mpr rfl)))]
  rfl
theorem stack_lhs2 (i : (⟨3, ![g, a, b]⟩ : Shape).Idx) (q : (stackDims wf).contr.Idx) :
    ((stackDims wf).lhsIdx i q 2).val = (q ⟨0, Nat.one_pos⟩).val :=
  (stackDims wf).lhsIdx_val_of_single rfl i q
theorem stack_rhs0 (i : (⟨3, ![g, a, b]⟩ : Shape).Idx) (q : (stackDims wf).contr.Idx) :
    ((stackDims wf).rhsIdx i q 0).val = (q ⟨0, Nat.one_pos⟩).val :=
  (stackDims wf).rhsIdx_val_of_single rfl i q
theorem stack_rhs1 (i : (⟨3, ![g, a, b]⟩ : Shape).Idx) (q : (stackDims wf).contr.Idx) :
    ((stackDims wf).rhsIdx i q 1).val = (i 2).val := by
  unfold DotDims.rhsIdx
  rw [dif_neg (show ¬(1 : Fin (⟨2, ![n, b]⟩ : Shape).rank) ∈ (stackDims wf).rhsBatch from List.not_mem_nil),
    dif_pos (show (1 : Fin (⟨2, ![n, b]⟩ : Shape).rank) ∈ (stackDims wf).rhsNonContracting from List.mem_singleton.mpr rfl)]
  rfl

/-- The contraction's sum at (p, r, e), re-indexed by the one contracted coordinate. -/
theorem contraction_stack (X : (⟨3, ![g, a, n]⟩ : Shape).Idx → EReal) (W : (⟨2, ![n, b]⟩ : Shape).Idx → EReal)
    (p : Fin g) (r : Fin a) (e : Fin b) :
    ∑ q : (stackDims wf).contr.Idx, X ((stackDims wf).lhsIdx (ix3 p r e) q) * W ((stackDims wf).rhsIdx (ix3 p r e) q)
      = ∑ k : Fin n, X (ix3 p r k) * W (ix2 k e) := by
  rw [← Equiv.sum_comp (contrEquiv1 (stackDims wf) n rfl rfl).symm]
  refine Finset.sum_congr rfl fun k _ => ?_
  have hk := contrEquiv1_symm_val (stackDims wf) n rfl rfl k
  have el : (stackDims wf).lhsIdx (ix3 p r e) ((contrEquiv1 (stackDims wf) n rfl rfl).symm k) = ix3 p r k :=
    funext fun ax => Fin.ext (by
      match ax with
      | ⟨0, _⟩ => exact stack_lhs0 wf _ _
      | ⟨1, _⟩ => exact stack_lhs1 wf _ _
      | ⟨2, _⟩ => exact (stack_lhs2 wf _ _).trans hk)
  have er : (stackDims wf).rhsIdx (ix3 p r e) ((contrEquiv1 (stackDims wf) n rfl rfl).symm k) = ix2 k e :=
    funext fun ax => Fin.ext (by
      match ax with
      | ⟨0, _⟩ => exact (stack_rhs0 wf _ _).trans hk
      | ⟨1, _⟩ => exact stack_rhs1 wf _ _)
  rw [el, er]

/-- The host's general dot product of a stack with one matrix, at (p, r, e). -/
theorem hostStack_apply {φ₁ φ₂ : FTy} (d : DotDims ⟨3, ![g, a, n]⟩ ⟨2, ![n, b]⟩ ⟨3, ![g, a, b]⟩) (hd : d = stackDims wf)
    (prec : Option ContractPrecision) (sched : HostSchedule) (X : FVec Ideal ⟨3, ![g, a, n]⟩ φ₁) (W : FVec Ideal ⟨2, ![n, b]⟩ φ₂)
    (p : Fin g) (r : Fin a) (e : Fin b) :
    FloatOps.dotGeneral d prec sched X W (ix3 p r e) = ∑ k : Fin n, X (ix3 p r k) * W (ix2 k e) := by
  subst hd
  exact (Ideal.dotGeneral_apply (stackDims wf) prec sched X W (ix3 p r e)).trans (contraction_stack wf X W p r e)

end stack

/-! ## Two stacks, matrix by matrix -/

/-- "Contract axis 2 of both operands, keep axis 1 of each, share axis 0 as the batch axis". -/
abbrev gramDims (wf : DotDims.WF ⟨3, ![g, a, n]⟩ ⟨3, ![g, b, n]⟩ ⟨3, ![g, a, b]⟩ [2] [2] [1] [1] [0] [0]) :
    DotDims ⟨3, ![g, a, n]⟩ ⟨3, ![g, b, n]⟩ ⟨3, ![g, a, b]⟩ where
  lhsContracting := [2]
  rhsContracting := [2]
  lhsNonContracting := [1]
  rhsNonContracting := [1]
  lhsBatch := [0]
  rhsBatch := [0]
  wf := wf

section gram
variable (wf : DotDims.WF ⟨3, ![g, a, n]⟩ ⟨3, ![g, b, n]⟩ ⟨3, ![g, a, b]⟩ [2] [2] [1] [1] [0] [0])

theorem gram_lhs0 (i : (⟨3, ![g, a, b]⟩ : Shape).Idx) (q : (gramDims wf).contr.Idx) :
    ((gramDims wf).lhsIdx i q 0).val = (i 0).val := by
  unfold DotDims.lhsIdx
  rw [dif_pos (show (0 : Fin (⟨3, ![g, a, n]⟩ : Shape).rank) ∈ (gramDims wf).lhsBatch from List.mem_singleton.mpr rfl)]
  rfl
theorem gram_lhs1 (i : (⟨3, ![g, a, b]⟩ : Shape).Idx) (q : (gramDims wf).contr.Idx) :
    ((gramDims wf).lhsIdx i q 1).val = (i 1).val := by
  unfold DotDims.lhsIdx
  rw [dif_neg (show ¬(1 : Fin (⟨3, ![g, a, n]⟩ : Shape).rank) ∈ (gramDims wf).lhsBatch from
      fun h => (by decide : ¬((1 : Fin 3) = 0)) (List.mem_singleton.mp h)),
    dif_pos (show (1 : Fin (⟨3, ![g, a, n]⟩ : Shape).rank) ∈ (gramDims wf).lhsNonContracting from List.mem_singleton.mpr rfl)]
  rfl
theorem gram_lhs2 (i : (⟨3, ![g, a, b]⟩ : Shape).Idx) (q : (gramDims wf).contr.Idx) :
    ((gramDims wf).lhsIdx i q 2).val = (q ⟨0, Nat.one_pos⟩).val :=
  (gramDims wf).lhsIdx_val_of_single rfl i q
theorem gram_rhs0 (i : (⟨3, ![g, a, b]⟩ : Shape).Idx) (q : (gramDims wf).contr.Idx) :
    ((gramDims wf).rhsIdx i q 0).val = (i 0).val := by
  unfold DotDims.rhsIdx
  rw [dif_pos (show (0 : Fin (⟨3, ![g, b, n]⟩ : Shape).rank) ∈ (gramDims wf).rhsBatch from List.mem_singleton.mpr rfl)]
  rfl
theorem gram_rhs1 (i : (⟨3, ![g, a, b]⟩ : Shape).Idx) (q : (gramDims wf).contr.Idx) :
    ((gramDims wf).rhsIdx i q 1).val = (i 2).val := by
  unfold DotDims.rhsIdx
  rw [dif_neg (show ¬(1 : Fin (⟨3, ![g, b, n]⟩ : Shape).rank) ∈ (gramDims wf).rhsBatch from
      fun h => (by decide : ¬((1 : Fin 3) = 0)) (List.mem_singleton.mp h)),
    dif_pos (show (1 : Fin (⟨3, ![g, b, n]⟩ : Shape).rank) ∈ (gramDims wf).rhsNonContracting from List.mem_singleton.mpr rfl)]
  rfl
theorem gram_rhs2 (i : (⟨3, ![g, a, b]⟩ : Shape).Idx) (q : (gramDims wf).contr.Idx) :
    ((gramDims wf).rhsIdx i q 2).val = (q ⟨0, Nat.one_pos⟩).val :=
  (gramDims wf).rhsIdx_val_of_single rfl i q

/-- The contraction's sum at (p, r, e): row r of matrix p of X against row e of matrix p of Y. -/
theorem contraction_gram (X : (⟨3, ![g, a, n]⟩ : Shape).Idx → EReal) (Y : (⟨3, ![g, b, n]⟩ : Shape).Idx → EReal)
    (p : Fin g) (r : Fin a) (e : Fin b) :
    ∑ q : (gramDims wf).contr.Idx, X ((gramDims wf).lhsIdx (ix3 p r e) q) * Y ((gramDims wf).rhsIdx (ix3 p r e) q)
      = ∑ k : Fin n, X (ix3 p r k) * Y (ix3 p e k) := by
  rw [← Equiv.sum_comp (contrEquiv1 (gramDims wf) n rfl rfl).symm]
  refine Finset.sum_congr rfl fun k _ => ?_
  have hk := contrEquiv1_symm_val (gramDims wf) n rfl rfl k
  have el : (gramDims wf).lhsIdx (ix3 p r e) ((contrEquiv1 (gramDims wf) n rfl rfl).symm k) = ix3 p r k :=
    funext fun ax => Fin.ext (by
      match ax with
      | ⟨0, _⟩ => exact gram_lhs0 wf _ _
      | ⟨1, _⟩ => exact gram_lhs1 wf _ _
      | ⟨2, _⟩ => exact (gram_lhs2 wf _ _).trans hk)
  have er : (gramDims wf).rhsIdx (ix3 p r e) ((contrEquiv1 (gramDims wf) n rfl rfl).symm k) = ix3 p e k :=
    funext fun ax => Fin.ext (by
      match ax with
      | ⟨0, _⟩ => exact gram_rhs0 wf _ _
      | ⟨1, _⟩ => exact gram_rhs1 wf _ _
      | ⟨2, _⟩ => exact (gram_rhs2 wf _ _).trans hk)
  rw [el, er]

/-- The host's general dot product of two stacks, matrix by matrix, at (p, r, e). -/
theorem hostGram_apply {φ₁ φ₂ : FTy} (d : DotDims ⟨3, ![g, a, n]⟩ ⟨3, ![g, b, n]⟩ ⟨3, ![g, a, b]⟩) (hd : d = gramDims wf)
    (prec : Option ContractPrecision) (sched : HostSchedule) (X : FVec Ideal ⟨3, ![g, a, n]⟩ φ₁) (Y : FVec Ideal ⟨3, ![g, b, n]⟩ φ₂)
    (p : Fin g) (r : Fin a) (e : Fin b) :
    FloatOps.dotGeneral d prec sched X Y (ix3 p r e) = ∑ k : Fin n, X (ix3 p r k) * Y (ix3 p e k) := by
  subst hd
  exact (Ideal.dotGeneral_apply (gramDims wf) prec sched X Y (ix3 p r e)).trans (contraction_gram wf X Y p r e)

end gram

end Cert.StackedProducts

end
-- ==== Proof.LibSumIdx3.lean ====
/-
  A sum over the index set of a rank-3 shape [n0, n1, n2] is the triple sum over its coordinates, in any commutative
  monoid (the extended reals included: nothing is assumed of the summands). The rank-2 form is the library's
  `ValueIdx.sum_idx2`; this is the same statement one rank up, for arrays a reduction over all three axes sums.
-/
import Idealize.ShloMosaic.Lib.ValueIdx
import Mathlib.Algebra.BigOperators.Fin

noncomputable section

open scoped BigOperators

namespace Cert.LibSumIdx3

open Idealize.ShloMosaic Idealize.ShloMosaic.ValueIdx

variable {M : Type*} [AddCommMonoid M]

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

end Cert.LibSumIdx3

end
-- ==== Proof.LibStackSums.lean ====
/-
  The sum of each matrix of a stack, on the extended reals.

  For a stack T of g matrices [a, b] (shape [g, a, b]), the host's sum over the last two axes from an initial value
  has, at p, the value  init + Σ_n Σ_m T(p,n,m): the entries that reduce to p are exactly those of matrix p.
-/
import proofs.«175631_j47579647705163_2_alg».proof.Proof.LibSumIdx3
import Idealize.ShloMosaic.PureOps.Ideal.Laws
import Idealize.ShloMosaic.Lib.ValueIdx

noncomputable section

open scoped BigOperators

namespace Cert.StackSums

open Idealize.ShloMosaic Idealize.ShloMosaic.ValueIdx

variable {g a b : ℕ}

/-- Dropping the last two coordinates of (q, n, m) leaves (q). -/
theorem drop12_ix3 (h' : (⟨3, ![g, a, b]⟩ : Shape).ReducesTo [1, 2] ⟨1, ![g]⟩) (q : Fin g) (n : Fin a) (m : Fin b) :
    h'.drop (ix3 q n m) = ix1 q :=
  funext fun d => Fin.ext (by
    match d with
    | ⟨0, _⟩ => rfl)

/-- The host's sum over the last two axes of a [g, a, b] array from `init`, at p. -/
theorem hostSum12_apply (h' : (⟨3, ![g, a, b]⟩ : Shape).ReducesTo [1, 2] ⟨1, ![g]⟩)
    (T : (⟨3, ![g, a, b]⟩ : Shape).Idx → EReal) (init : EReal) (p : Fin g) :
    Ideal.hostReduceAdd h' T init (ix1 p) = init + ∑ n : Fin a, ∑ m : Fin b, T (ix3 p n m) := by
  unfold Ideal.hostReduceAdd
  refine congrArg (init + ·) ?_
  rw [Finset.sum_filter, LibSumIdx3.sum_idx3]
  have hd : ∀ (q : Fin g) (n : Fin a) (m : Fin b), (h'.drop (ix3 q n m) = ix1 p) ↔ q = p := fun q n m => by
    rw [drop12_ix3]
    constructor
    · intro e
      have := congrFun e 0
      exact this
    · rintro rfl; rfl
  simp only [hd]
  rw [Finset.sum_eq_single_of_mem p (Finset.mem_univ p) (fun q _ hq => by simp only [if_neg hq, Finset.sum_const_zero])]
  simp only [if_true]

end Cert.StackSums

end
-- ==== Proof.RefRead.lean ====
/-
  The plain program's two results, read at an index.

  Stage by stage, at graph p, nodes n, m and latent coordinate d:
    head X W b at (p,n,d)      = (Σ_k X(p,n,k)·W(k,d)) + b(d)            (the bias laid along the last axis),
    latent at (p,n,d)          = z of graph p at (n,d),
    logits Z at (p,n,m)        = Σ_d Z(p,n,d)·Z(p,m,d),
    softplus u at i            = max(u,0) + log1p(exp(-|u - 0|))          (the test u - 0 ≠ u - 0 never holds),
    crossEntropy A L at p      = -((0 + Σ_n Σ_m A·(-P(-L)) + (1 - A)·(-P(-(-L)))) / 1048576),
    klDiv M S at p             = -1/2 · ((0 + Σ_n Σ_d (1 + 2·S - M·M - exp(2·S))) / 131072),
    loss                       = (0 + Σ_p (crossEntropy p + klDiv p)) / 32.
  So the latent result is `latentArr` and the scalar result is `lossR` of the seven argument arrays.
-/
import proofs.«175631_j47579647705163_2_alg».proof.Proof.RefTerms
import proofs.«175631_j47579647705163_2_alg».proof.Proof.SpecArrays
import proofs.«175631_j47579647705163_2_alg».proof.Proof.LibStackedProducts
import proofs.«175631_j47579647705163_2_alg».proof.Proof.LibStackSums
import proofs.«175631_j47579647705163_2_alg».proof.Proof.LibSumIdx1
import Idealize.ShloMosaic.Lib.ValueIdx
import Idealize.ShloMosaic.Lib.Pipeline.Value
import Idealize.ShloMosaic.PureOps.Ideal.Laws

noncomputable section
open scoped BigOperators

namespace Cert.ReferenceIdeal.RefRead
open Idealize.ShloMosaic Idealize.ShloMosaic.ValueIdx
open Cert.ReferenceIdeal Cert.ReferenceIdeal.Gen Cert.ReferenceIdeal.RefTerms Cert.Vgae

/-! ## Operations read at an index -/

theorem hostExp_apply {s : Shape} {φ : FTy} (v : FVec Ideal s φ) (i : s.Idx) : Host.exp v i = Ideal.exp (v i) := rfl
theorem hostLog1p_apply {s : Shape} {φ : FTy} (v : FVec Ideal s φ) (i : s.Idx) : Host.log1p v i = Ideal.log1p (v i) := rfl
theorem hostNegf_apply {s : Shape} {φ : FTy} (v : FVec Ideal s φ) (i : s.Idx) : Host.negf v i = -(v i) := rfl
theorem hostAbsf_apply {s : Shape} {φ : FTy} (v : FVec Ideal s φ) (i : s.Idx) : Host.absf v i = max (v i) (-(v i)) := rfl
theorem hostDivf_apply {s : Shape} {φ : FTy} (u v : FVec Ideal s φ) (i : s.Idx) : Host.divf u v i = Ideal.div (u i) (v i) := rfl

/-- No extended real differs from itself. -/
theorem cmp_une_self (x : EReal) : Ideal.cmp .une x x = 0#1 := by simp [Ideal.cmp]

/-- A scalar word spread over any shape reads the word everywhere. -/
theorem splat_apply {t : Shape} (hb : S_.BroadcastsInDim t (![] : Fin 0 → Fin t.rank)) (w : BitVec 32) (i : t.Idx) :
    broadcastInDim t ![] hb (constant (F := Ideal) S_ .f32 w) i = Ideal.ofBits .f32 w :=
  (broadcastInDim_apply ![] hb _ i ix0 fun ax => ax.elim0).trans (constant_apply _ _)

variable (X : FVec Ideal S32x1024x256 .f32) (A : FVec Ideal S32x1024x1024 .f32) (E : FVec Ideal S32x1024x128 .f32)
  (Wm Ws : FVec Ideal S256x128 .f32) (bm bs : FVec Ideal S128 .f32)

/-! ## The latent array -/

theorem rowBias_apply (b : FVec Ideal S128 .f32) (p : Fin 32) (n : Fin 1024) (d : Fin 128) :
    rowBias (F := Ideal) b (ix3 p n d) = b (ix1 d) := by
  unfold rowBias
  refine (broadcastInDim_apply ![0, 1, 2] bcast_S1x1x128_S32x1024x128_0_1_2 _ (ix3 p n d) (ix3 (0 : Fin 1) (0 : Fin 1) d) fun ax => ?_).trans ?_
  · match ax with
    | ⟨0, _⟩ => rfl
    | ⟨1, _⟩ => rfl
    | ⟨2, _⟩ => rfl
  · refine broadcastInDim_apply ![2] bcast_S128_S1x1x128_2 b (ix3 (0 : Fin 1) (0 : Fin 1) d) (ix1 d) fun ax => ?_
    match ax with
    | ⟨0, _⟩ => rfl

theorem head_apply (W : FVec Ideal S256x128 .f32) (b : FVec Ideal S128 .f32) (p : Fin 32) (n : Fin 1024) (d : Fin 128) :
    head (F := Ideal) X W b (ix3 p n d) = mean (gFeats X p) (mat W) (vec b) n d := by
  unfold head mean
  rw [addf_apply]
  exact congrArg₂ (· + ·) (StackedProducts.hostStack_apply _ _ rfl none .single X W p n d) (rowBias_apply b p n d)

theorem latent_eq : latent (F := Ideal) X E Wm bm Ws bs = latentArr X E Wm Ws bm bs := by
  funext i
  obtain ⟨p, n, d, rfl⟩ : ∃ (p : Fin 32) (n : Fin 1024) (d : Fin 128), i = ix3 p n d := ⟨i 0, i 1, i 2, eq_ix3 i⟩
  rw [latentArr_ix3]
  unfold latent latentAt z lstd
  rw [addf_apply, mulf_apply, hostExp_apply, head_apply, head_apply]
  rfl

/-! ## The logits and the softplus -/

theorem logits_apply (Z : FVec Ideal S32x1024x128 .f32) (p : Fin 32) (n m : Fin 1024) :
    logits (F := Ideal) Z (ix3 p n m) = ∑ d : Fin 128, Z (ix3 p n d) * Z (ix3 p m d) := by
  unfold logits
  exact StackedProducts.hostGram_apply _ _ rfl none .single Z Z p n m

theorem zeros_apply (i : S32x1024x1024.Idx) : zeros (F := Ideal) i = 0 := by
  unfold zeros
  rw [splat_apply, Ideal.ofBits_zero_f32]

theorem softplus_apply (u : FVec Ideal S32x1024x1024 .f32) (i : S32x1024x1024.Idx) :
    softplus (F := Ideal) u i = spR (u i) := by
  unfold softplus spR
  rw [select_apply, cmpf_apply, Ideal.cmpf_def, cmp_une_self, select_zero]
  simp only [addf_apply, maximumf_apply, hostLog1p_apply, hostExp_apply, hostNegf_apply, hostAbsf_apply, subf_apply, zeros_apply]

theorem logSigmoid_apply (u : FVec Ideal S32x1024x1024 .f32) (i : S32x1024x1024.Idx) :
    logSigmoid (F := Ideal) u i = -(spR (-(u i))) := by
  unfold logSigmoid
  rw [hostNegf_apply, softplus_apply, hostNegf_apply]

/-! ## The two per-graph losses -/

theorem crossEntropy_apply (L : FVec Ideal S32x1024x1024 .f32) (p : Fin 32) :
    crossEntropy (F := Ideal) A L (ix1 p)
      = -(Ideal.div (0 + ∑ n : Fin 1024, ∑ m : Fin 1024,
            (A (ix3 p n m) * (-(spR (-(L (ix3 p n m))))) + (wOne - A (ix3 p n m)) * (-(spR (-(-(L (ix3 p n m)))))))) wNN) := by
  unfold crossEntropy
  rw [hostNegf_apply, hostDivf_apply, splat_apply]
  show -(Ideal.div (Ideal.hostReduceAdd reducesTo_S32x1024x1024_S32_d1_2 _ (Ideal.ofBits .f32 0x00000000#32) (ix1 p)) wNN) = _
  rw [StackSums.hostSum12_apply, Ideal.ofBits_zero_f32]
  refine congrArg (fun s : EReal => -(Ideal.div (0 + s) wNN)) ?_
  refine Finset.sum_congr rfl fun n _ => Finset.sum_congr rfl fun m _ => ?_
  rw [addf_apply, mulf_apply, mulf_apply, subf_apply, splat_apply, logSigmoid_apply, logSigmoid_apply, hostNegf_apply]

theorem klDiv_apply (M S : FVec Ideal S32x1024x128 .f32) (p : Fin 32) :
    klDiv (F := Ideal) M S (ix1 p)
      = wNegHalf * Ideal.div (0 + ∑ n : Fin 1024, ∑ d : Fin 128,
          (((wOne + wTwo * S (ix3 p n d)) - M (ix3 p n d) * M (ix3 p n d)) - Ideal.exp (wTwo * S (ix3 p n d)))) wND := by
  unfold klDiv
  rw [mulf_apply, splat_apply, hostDivf_apply, splat_apply]
  show wNegHalf * Ideal.div (Ideal.hostReduceAdd reducesTo_S32x1024x128_S32_d1_2 _ (Ideal.ofBits .f32 0x00000000#32) (ix1 p)) wND = _
  rw [StackSums.hostSum12_apply, Ideal.ofBits_zero_f32]
  refine congrArg (fun s : EReal => wNegHalf * Ideal.div (0 + s) wND) ?_
  refine Finset.sum_congr rfl fun n _ => Finset.sum_congr rfl fun d _ => ?_
  rw [subf_apply, subf_apply, addf_apply, mulf_apply, mulf_apply, hostExp_apply, mulf_apply, splat_apply, splat_apply]

/-- Graph p's cross entropy, as the plain program computes it from the arguments. -/
theorem bce_at (p : Fin 32) :
    crossEntropy (F := Ideal) A (logits (latent X E Wm bm Ws bs)) (ix1 p) = bceRAt X A E Wm Ws bm bs p := by
  rw [crossEntropy_apply]
  unfold bceRAt bceR bceTermR
  simp only [logits_apply, latent_eq, latentArr_ix3]
  rfl

/-- Graph p's Kullback–Leibler loss, as the plain program computes it from the arguments. -/
theorem kl_at (p : Fin 32) :
    klDiv (F := Ideal) (head X Wm bm) (head X Ws bs) (ix1 p) = klRAt X Wm Ws bm bs p := by
  rw [klDiv_apply]
  unfold klRAt klR klTermR
  simp only [head_apply]
  rfl

/-! ## The scalar result -/

theorem total_eq : total (F := Ideal) X A E Wm bm Ws bs = fun _ => lossR X A E Wm Ws bm bs := by
  funext j
  unfold total loss lossR meanLoss
  show Ideal.div (Ideal.hostReduceAdd reducesTo_S32_S_d0
      (addf (crossEntropy A (logits (latent X E Wm bm Ws bs))) (klDiv (head X Wm bm) (head X Ws bs)))
      (Ideal.ofBits .f32 0x00000000#32) j) (Ideal.ofBits .f32 0x42000000#32) = _
  rw [Ideal.hostReduceAdd_total reducesTo_S32_S_d0 (fun b => b.elim0)]
  refine congrArg (fun s : EReal => Ideal.div (Ideal.ofBits .f32 0x00000000#32 + s) wB) ?_
  refine (LibSumIdx1.sum_idx1 _).trans (Finset.sum_congr rfl fun p _ => ?_)
  rw [addf_apply, bce_at, kl_at]

end Cert.ReferenceIdeal.RefRead
end
-- ==== Proof.LibERealSums.lean ====
/-
  General facts about finite sums of extended reals.

  An extended real is FINITE when it is neither `⊥` nor `⊤`, that is, when it is a real number. The finite extended
  reals are closed under `+`, `-`, `*` and finite sums, and on them `x - x = 0` (which fails at the infinities:
  `⊤ - ⊤ = ⊥`). The hyperbolic tangent of the extended reals (`tanh ⊥ = -1`, `tanh ⊤ = 1`) is finite everywhere.

  A product of two matrices computed as  a·b + a·(b - b) + (a - a)·b  is therefore  a·b  on finite entries
  (`three_pass`); a running total that starts from its first term and adds one term per step is the sum of the
  terms (`acc_eq_sum`); a sum over `Fin (a * b)` is the sum over `a` blocks of `b` consecutive indices
  (`sum_blocks…`); and a sum over `Fin 128` is the sum over its lower and upper halves (`sum_halves`).
-/
import Idealize.ShloMosaic.PureOps.Ideal
import Mathlib.Algebra.BigOperators.Fin
import Mathlib.Logic.Equiv.Fin.Basic

noncomputable section

open scoped BigOperators

namespace Cert.LibERealSums

open Idealize.ShloMosaic

/-! ## Finite extended reals -/

/-- An extended real is finite when it is neither infinity. -/
def IsFin (x : EReal) : Prop := x ≠ ⊥ ∧ x ≠ ⊤

/-- A real number, seen as an extended real, is finite. -/
theorem isFin_coe (r : ℝ) : IsFin (r : EReal) := ⟨EReal.coe_ne_bot r, EReal.coe_ne_top r⟩

/-- A finite extended real is a real number. -/
theorem IsFin.exists_coe {x : EReal} (h : IsFin x) : ∃ r : ℝ, x = (r : EReal) := by
  lift x to ℝ using ⟨h.2, h.1⟩
  exact ⟨x, rfl⟩

/-- Zero is finite. -/
theorem isFin_zero : IsFin 0 := by
  rw [← EReal.coe_zero]; exact isFin_coe 0

/-- One is finite. -/
theorem isFin_one : IsFin 1 := by
  rw [← EReal.coe_one]; exact isFin_coe 1

/-- The sum of two finite extended reals is finite. -/
theorem IsFin.add {x y : EReal} (hx : IsFin x) (hy : IsFin y) : IsFin (x + y) := by
  obtain ⟨r, rfl⟩ := hx.exists_coe
  obtain ⟨s, rfl⟩ := hy.exists_coe
  rw [← EReal.coe_add]; exact isFin_coe _

/-- The product of two finite extended reals is finite. -/
theorem IsFin.mul {x y : EReal} (hx : IsFin x) (hy : IsFin y) : IsFin (x * y) := by
  obtain ⟨r, rfl⟩ := hx.exists_coe
  obtain ⟨s, rfl⟩ := hy.exists_coe
  rw [← EReal.coe_mul]; exact isFin_coe _

/-- The negation of a finite extended real is finite. -/
theorem IsFin.neg {x : EReal} (hx : IsFin x) : IsFin (-x) := by
  obtain ⟨r, rfl⟩ := hx.exists_coe
  rw [← EReal.coe_neg]; exact isFin_coe _

/-- The difference of two finite extended reals is finite. -/
theorem IsFin.sub {x y : EReal} (hx : IsFin x) (hy : IsFin y) : IsFin (x - y) := by
  obtain ⟨r, rfl⟩ := hx.exists_coe
  obtain ⟨s, rfl⟩ := hy.exists_coe
  rw [← EReal.coe_sub]; exact isFin_coe _

/-- A finite extended real minus itself is zero. (At an infinity it is not: `⊤ - ⊤ = ⊥`.) -/
theorem sub_self_of_isFin {x : EReal} (hx : IsFin x) : x - x = 0 := by
  obtain ⟨r, rfl⟩ := hx.exists_coe
  rw [← EReal.coe_sub, sub_self, EReal.coe_zero]

/-- A sum of finite extended reals over a finite set is finite. -/
theorem isFin_sum {ι : Type*} (s : Finset ι) (f : ι → EReal) (h : ∀ i ∈ s, IsFin (f i)) : IsFin (∑ i ∈ s, f i) :=
  Finset.sum_induction f IsFin (fun _ _ => IsFin.add) isFin_zero h

/-- A sum of finite extended reals over a finite type is finite. -/
theorem isFin_sum_univ {ι : Type*} [Fintype ι] (f : ι → EReal) (h : ∀ i, IsFin (f i)) : IsFin (∑ i, f i) :=
  isFin_sum Finset.univ f fun i _ => h i

/-- A finite sum of products of finite extended reals is finite. -/
theorem isFin_sum_mul {ι : Type*} [Fintype ι] (a b : ι → EReal) (ha : ∀ i, IsFin (a i)) (hb : ∀ i, IsFin (b i)) :
    IsFin (∑ i, a i * b i) :=
  isFin_sum_univ _ fun i => (ha i).mul (hb i)

/-- The hyperbolic tangent of an extended real is finite, at the infinities too (`tanh ⊥ = -1`, `tanh ⊤ = 1`). -/
theorem isFin_tanh (x : EReal) : IsFin (Ideal.tanh x) := by
  induction x using EReal.rec with
  | bot => rw [Ideal.tanh_bot]; exact isFin_one.neg
  | top => rw [Ideal.tanh_top]; exact isFin_one
  | coe r => rw [Ideal.tanh_coe]; exact isFin_coe _

/-! ## A product in three passes -/

/-- A sum of products whose second factors are all zero is zero. -/
theorem sum_mul_zero {ι : Type*} (s : Finset ι) (a : ι → EReal) : ∑ l ∈ s, a l * 0 = 0 :=
  Finset.sum_eq_zero fun _ _ => mul_zero _

/-- A sum of products whose first factors are all zero is zero. -/
theorem sum_zero_mul {ι : Type*} (s : Finset ι) (b : ι → EReal) : ∑ l ∈ s, 0 * b l = 0 :=
  Finset.sum_eq_zero fun _ _ => zero_mul _

/-- With finite second factors, `∑ a · (b - b) = 0` (whatever the first factors are: `a · 0 = 0`). -/
theorem sum_mul_sub_self {ι : Type*} (s : Finset ι) (a b : ι → EReal) (hb : ∀ l, IsFin (b l)) :
    ∑ l ∈ s, a l * (b l - b l) = 0 :=
  Finset.sum_eq_zero fun l _ => by rw [sub_self_of_isFin (hb l), mul_zero]

/-- With finite first factors, `∑ (a - a) · b = 0` (whatever the second factors are: `0 · b = 0`). -/
theorem sum_sub_self_mul {ι : Type*} (s : Finset ι) (a b : ι → EReal) (ha : ∀ l, IsFin (a l)) :
    ∑ l ∈ s, (a l - a l) * b l = 0 :=
  Finset.sum_eq_zero fun l _ => by rw [sub_self_of_isFin (ha l), zero_mul]

/-- THE THREE-PASS PRODUCT: for finite factors,  `∑ a·b + ∑ a·(b - b) + ∑ (a - a)·b = ∑ a·b`. -/
theorem three_pass {ι : Type*} [Fintype ι] (a b : ι → EReal) (ha : ∀ l, IsFin (a l)) (hb : ∀ l, IsFin (b l)) :
    ((∑ l, a l * b l) + (∑ l, a l * (b l - b l))) + (∑ l, (a l - a l) * b l) = ∑ l, a l * b l := by
  rw [sum_mul_sub_self _ a b hb, sum_sub_self_mul _ a b ha, add_zero, add_zero]

/-- The three-pass product with the two correction sums already written over zero factors. -/
theorem three_pass_zero {ι : Type*} [Fintype ι] (a b : ι → EReal) :
    ((∑ l, a l * b l) + (∑ l, a l * 0)) + (∑ l, 0 * b l) = ∑ l, a l * b l := by
  rw [sum_mul_zero, sum_zero_mul, add_zero, add_zero]

/-- The three-pass product with each pass added to a leading zero (a product accumulated into a zero total). -/
theorem three_pass_zero_add {ι : Type*} [Fintype ι] (a b : ι → EReal) (ha : ∀ l, IsFin (a l)) (hb : ∀ l, IsFin (b l)) :
    ((0 + ∑ l, a l * b l) + (0 + ∑ l, a l * (b l - b l))) + (0 + ∑ l, (a l - a l) * b l) = ∑ l, a l * b l := by
  rw [zero_add, zero_add, zero_add, three_pass a b ha hb]

/-- TWO THREE-PASS PRODUCTS ADDED IN ONE CHAIN: for finite factors,
    `((((∑ a·b + ∑ a·(b - b)) + ∑ (a - a)·b) + ∑ c·d) + ∑ c·(d - d)) + ∑ (c - c)·d = ∑ a·b + ∑ c·d`. -/
theorem six_pass {ι κ : Type*} [Fintype ι] [Fintype κ] (a b : ι → EReal) (c d : κ → EReal)
    (ha : ∀ l, IsFin (a l)) (hb : ∀ l, IsFin (b l)) (hc : ∀ l, IsFin (c l)) (hd : ∀ l, IsFin (d l)) :
    (((((∑ l, a l * b l) + (∑ l, a l * (b l - b l))) + (∑ l, (a l - a l) * b l)) + (∑ l, c l * d l))
        + (∑ l, c l * (d l - d l))) + (∑ l, (c l - c l) * d l)
      = (∑ l, a l * b l) + (∑ l, c l * d l) := by
  rw [sum_mul_sub_self _ a b hb, sum_sub_self_mul _ a b ha, sum_mul_sub_self _ c d hd, sum_sub_self_mul _ c d hc,
    add_zero, add_zero, add_zero, add_zero]

/-! ## A running total is the sum of its terms -/

/-- A total that starts at `0 + t 0` and adds `t (k+1)` at step `k + 1` is, after step `n`, the sum of
    `t 0, …, t n`. -/
theorem acc_eq_sum (t acc : ℕ → EReal) (h0 : acc 0 = 0 + t 0) (hs : ∀ k, acc (k + 1) = acc k + t (k + 1)) (n : ℕ) :
    acc n = ∑ s ∈ Finset.range (n + 1), t s := by
  induction n with
  | zero => rw [h0, zero_add, Finset.sum_range_one]
  | succ k ih => rw [hs k, ih, Finset.sum_range_succ _ (k + 1)]

/-- The same for a total that starts at `t 0`. -/
theorem acc_eq_sum' (t acc : ℕ → EReal) (h0 : acc 0 = t 0) (hs : ∀ k, acc (k + 1) = acc k + t (k + 1)) (n : ℕ) :
    acc n = ∑ s ∈ Finset.range (n + 1), t s :=
  acc_eq_sum t acc (by rw [h0, zero_add]) hs n

/-- The same when the step rule is known only up to a last step `N`: the total after step `n ≤ N`. -/
theorem acc_eq_sum_le (t acc : ℕ → EReal) (N : ℕ) (h0 : acc 0 = 0 + t 0)
    (hs : ∀ k, k + 1 ≤ N → acc (k + 1) = acc k + t (k + 1)) (n : ℕ) (hn : n ≤ N) :
    acc n = ∑ s ∈ Finset.range (n + 1), t s := by
  induction n with
  | zero => rw [h0, zero_add, Finset.sum_range_one]
  | succ k ih => rw [hs k hn, ih (by omega), Finset.sum_range_succ _ (k + 1)]

/-- … and for a total that starts at `t 0`. -/
theorem acc_eq_sum_le' (t acc : ℕ → EReal) (N : ℕ) (h0 : acc 0 = t 0)
    (hs : ∀ k, k + 1 ≤ N → acc (k + 1) = acc k + t (k + 1)) (n : ℕ) (hn : n ≤ N) :
    acc n = ∑ s ∈ Finset.range (n + 1), t s :=
  acc_eq_sum_le t acc N (by rw [h0, zero_add]) hs n hn

/-- A running total of finite terms is finite. -/
theorem isFin_acc (t acc : ℕ → EReal) (h0 : acc 0 = 0 + t 0) (hs : ∀ k, acc (k + 1) = acc k + t (k + 1))
    (ht : ∀ s, IsFin (t s)) (n : ℕ) : IsFin (acc n) := by
  rw [acc_eq_sum t acc h0 hs n]; exact isFin_sum _ _ fun s _ => ht s

/-! ## A sum in blocks -/

/-- The index `s * b + l` of entry `l` of block `s` is below `a * b`. -/
theorem block_lt {a b : ℕ} (s : Fin a) (l : Fin b) : s.val * b + l.val < a * b := by
  have hs := s.isLt
  have hl := l.isLt
  calc s.val * b + l.val < s.val * b + b := Nat.add_lt_add_left hl _
    _ = (s.val + 1) * b := (Nat.succ_mul _ _).symm
    _ ≤ a * b := Nat.mul_le_mul_right _ hs

/-- A sum over `Fin (a * b)` is the sum over `a` blocks of `b` consecutive indices: block `s`, entry `l` is
    index `s * b + l`. -/
theorem sum_blocks_fin {M : Type*} [AddCommMonoid M] {a b : ℕ} (f : Fin (a * b) → M) :
    ∑ s : Fin a, ∑ l : Fin b, f ⟨s.val * b + l.val, block_lt s l⟩ = ∑ n, f n := by
  rw [← Equiv.sum_comp (finProdFinEquiv (m := a) (n := b)) f, Fintype.sum_prod_type]
  refine Finset.sum_congr rfl fun s _ => Finset.sum_congr rfl fun l _ => congrArg f (Fin.ext ?_)
  show s.val * b + l.val = l.val + b * s.val
  rw [Nat.mul_comm, Nat.add_comm]

/-- The same with the blocks counted by a natural number below `a`, for block terms `F s l` known to be `f` at
    index `s * b + l` whenever `s < a`. -/
theorem sum_blocks_range {M : Type*} [AddCommMonoid M] {a b : ℕ} (f : Fin (a * b) → M) (F : ℕ → Fin b → M)
    (hF : ∀ (s : ℕ) (hs : s < a) (l : Fin b), F s l = f ⟨s * b + l.val, block_lt ⟨s, hs⟩ l⟩) :
    ∑ s ∈ Finset.range a, ∑ l : Fin b, F s l = ∑ n, f n := by
  rw [← sum_blocks_fin f, ← Fin.sum_univ_eq_sum_range (fun s => ∑ l : Fin b, F s l) a]
  exact Finset.sum_congr rfl fun s _ => Finset.sum_congr rfl fun l _ => hF s.val s.isLt l

/-- 16 blocks of 1024: a sum over `Fin 16384` from its blocks, counted by `Fin 16`. -/
theorem sum_blocks_16_1024_fin {M : Type*} [AddCommMonoid M] (f : Fin 16384 → M) :
    ∑ s : Fin 16, ∑ l : Fin 1024, f ⟨s.val * 1024 + l.val, by have := s.isLt; have := l.isLt; omega⟩ = ∑ n, f n :=
  sum_blocks_fin (a := 16) (b := 1024) f

/-- 16 blocks of 1024: a sum over `Fin 16384` from block terms `F s l` known to be `f` at index `s * 1024 + l`
    whenever `s < 16`, the blocks counted by a natural number. -/
theorem sum_blocks_16_1024 {M : Type*} [AddCommMonoid M] (f : Fin 16384 → M) (F : ℕ → Fin 1024 → M)
    (hF : ∀ (s : ℕ) (hs : s < 16) (l : Fin 1024),
      F s l = f ⟨s * 1024 + l.val, by have := l.isLt; omega⟩) :
    ∑ s ∈ Finset.range 16, ∑ l : Fin 1024, F s l = ∑ n, f n :=
  sum_blocks_range (a := 16) (b := 1024) f F hF

/-- 16 blocks of 1024 with the index guarded by its bound: the form with no proof argument. -/
theorem sum_blocks_16_1024_dite {M : Type*} [AddCommMonoid M] (f : Fin 16384 → M) :
    ∑ s ∈ Finset.range 16, ∑ l : Fin 1024,
        (if h : s * 1024 + l.val < 16384 then f ⟨s * 1024 + l.val, h⟩ else 0) = ∑ n, f n :=
  sum_blocks_16_1024 f _ fun s hs l => dif_pos (by have := l.isLt; omega)

/-! ## A sum in halves -/

/-- A sum over `Fin 128` is the sum over indices `k < 64` plus the sum over indices `64 + k`, `k < 64`. -/
theorem sum_halves {M : Type*} [AddCommMonoid M] (f : Fin 128 → M) :
    ∑ k : Fin 128, f k
      = (∑ k : Fin 64, f ⟨k.val, by have := k.isLt; omega⟩) + (∑ k : Fin 64, f ⟨64 + k.val, by have := k.isLt; omega⟩) :=
  Fin.sum_univ_add (a := 64) (b := 64) f

/-! ## A finite sum times a constant -/

/-- For finite terms and a finite factor, `(∑ t) · w = ∑ t · w`. -/
theorem sum_mul_of_isFin {ι : Type*} (s : Finset ι) (t : ι → EReal) (w : EReal) (ht : ∀ l, IsFin (t l)) (hw : IsFin w) :
    (∑ l ∈ s, t l) * w = ∑ l ∈ s, t l * w := by
  obtain ⟨r, rfl⟩ := hw.exists_coe
  choose u hu using fun l => (ht l).exists_coe
  have hcoe : ∀ (g : ι → ℝ), (∑ l ∈ s, ((g l : ℝ) : EReal)) = ((∑ l ∈ s, g l : ℝ) : EReal) := by
    intro g
    classical
    induction s using Finset.induction_on with
    | empty => simp
    | insert i s hi ih => rw [Finset.sum_insert hi, Finset.sum_insert hi, EReal.coe_add, ih]
  simp only [hu, ← EReal.coe_mul]
  rw [hcoe, hcoe, ← EReal.coe_mul, Finset.sum_mul]

end Cert.LibERealSums

end
-- ==== Proof.LibFiniteTest.lean ====
/-
  The finiteness test "|v| < +infinity", read on the extended reals.

  A precondition of the form "every entry of the array v satisfies |v| < +inf" compares, entry by entry, the absolute
  value max v (-v) with the float word 0x7F800000 spread over v's shape. That word is +infinity, and max v (-v) is
  +infinity at both infinities, so the test passes at an index exactly when the entry there is a real number.
  (`isFin_of_test` is the form to apply to one conjunct of such a precondition once the "all entries" reduction has been
  opened at an index.)
-/
import proofs.«175631_j47579647705163_2_alg».proof.Proof.LibERealSums
import Idealize.ShloMosaic.PureOps.Ideal
import Idealize.ShloMosaic.Lib.Pipeline.Value
import Idealize.ShloMosaic.Lib.ValueIdx

noncomputable section

namespace Cert.LibFiniteTest

open Idealize.ShloMosaic Idealize.ShloMosaic.ValueIdx Cert.LibERealSums

/-- The float word 0x7F800000 is +infinity. -/
theorem top_word : Ideal.ofBits .f32 0x7F800000#32 = ⊤ := by
  simp [Ideal.ofBits, Ideal.ieee]

/-- An extended real whose absolute value is below +infinity is a real number. -/
theorem isFin_of_abs_lt_top (v : EReal) (h : Ideal.cmp .olt (max v (-v)) ⊤ = 1#1) : IsFin v := by
  induction v using EReal.rec with
  | bot => exact absurd h (by simp [Ideal.cmp])
  | top => exact absurd h (by simp [Ideal.cmp])
  | coe r => exact isFin_coe r

/-- The rank-0 shape has one index. -/
instance subsingleton_scalar_idx : Subsingleton (⟨0, ![]⟩ : Shape).Idx := ⟨fun a b => funext fun d => d.elim0⟩

/-- Where the test "|v| < +inf" (the +infinity word spread over the array's shape) passes at an index, the entry there
    is a real number. -/
theorem isFin_of_test {S : Shape} (v : FVec Ideal S .f32)
    (hb : (⟨0, ![]⟩ : Shape).BroadcastsInDim S (![] : Fin 0 → Fin S.rank)) (i : S.Idx)
    (h : cmpf .olt (Host.absf v) (broadcastInDim S ![] hb (constant (F := Ideal) ⟨0, ![]⟩ .f32 0x7F800000#32)) i = 1#1) :
    IsFin (v i) := by
  rw [cmpf_apply, broadcastInDim_apply ![] hb _ i ix0 (fun a => a.elim0), constant_apply, top_word] at h
  exact isFin_of_abs_lt_top (v i) h

end Cert.LibFiniteTest

end
-- ==== Proof.Finite.lean ====
/-
  Every entry of every argument array is a real number.

  The precondition is the conjunction of seven tests, one per argument array: "every entry v has |v| < +infinity", the
  absolute value compared entry by entry with the float word of +infinity and the comparisons folded by "and" from 1. Where
  the whole conjunction is 1, each fold is 1, so each comparison is 1 at every index, and an extended real whose absolute
  value is below +infinity is neither infinity.
-/
import proofs.«175631_j47579647705163_2_alg».proof.Pre_finite_inputs
import proofs.«175631_j47579647705163_2_alg».proof.Proof.Gen.Pre_finite_inputs
import proofs.«175631_j47579647705163_2_alg».proof.Proof.LibFiniteTest
import Idealize.ShloMosaic.Lib.ReduceAll
import Idealize.ShloMosaic.Lib.Affine
import Idealize.ShloMosaic.Lib.ValueIdx

noncomputable section

namespace Cert.Pre_finite_inputs.Finite
open Idealize.ShloMosaic Idealize.ShloMosaic.ValueIdx
open Cert.Pre_finite_inputs Cert.Pre_finite_inputs.Gen Cert.LibERealSums Cert.LibFiniteTest

theorem all_finite (a0 : FVec Ideal S32x1024x256 .f32) (a1 : FVec Ideal S32x1024x1024 .f32) (a2 : FVec Ideal S32x1024x128 .f32)
    (a3 : FVec Ideal S256x128 .f32) (a4 : FVec Ideal S128 .f32) (a5 : FVec Ideal S256x128 .f32) (a6 : FVec Ideal S128 .f32)
    (h : fn (F := Ideal) a0 a1 a2 a3 a4 a5 a6 = fun _ => 1#1) :
    (∀ i, IsFin (a0 i)) ∧ (∀ i, IsFin (a1 i)) ∧ (∀ i, IsFin (a2 i)) ∧ (∀ i, IsFin (a3 i)) ∧ (∀ i, IsFin (a4 i))
      ∧ (∀ i, IsFin (a5 i)) ∧ (∀ i, IsFin (a6 i)) := by
  have h0 : fn (F := Ideal) a0 a1 a2 a3 a4 a5 a6 ix0 = 1#1 := congrFun h ix0
  dsimp only [fn, fn_part1] at h0
  obtain ⟨h5, e6⟩ := IntOp.andi_eq_one.mp h0
  obtain ⟨h4, e5⟩ := IntOp.andi_eq_one.mp h5
  obtain ⟨h3, e4⟩ := IntOp.andi_eq_one.mp h4
  obtain ⟨h2, e3⟩ := IntOp.andi_eq_one.mp h3
  obtain ⟨h1, e2⟩ := IntOp.andi_eq_one.mp h2
  obtain ⟨e0, e1⟩ := IntOp.andi_eq_one.mp h1
  exact ⟨fun i => isFin_of_test a0 _ i (Host.reduce_andi_all _ _ _ _ ix0 e0 i),
    fun i => isFin_of_test a1 _ i (Host.reduce_andi_all _ _ _ _ ix0 e1 i),
    fun i => isFin_of_test a2 _ i (Host.reduce_andi_all _ _ _ _ ix0 e2 i),
    fun i => isFin_of_test a3 _ i (Host.reduce_andi_all _ _ _ _ ix0 e3 i),
    fun i => isFin_of_test a4 _ i (Host.reduce_andi_all _ _ _ _ ix0 e4 i),
    fun i => isFin_of_test a5 _ i (Host.reduce_andi_all _ _ _ _ ix0 e5 i),
    fun i => isFin_of_test a6 _ i (Host.reduce_andi_all _ _ _ _ ix0 e6 i)⟩

end Cert.Pre_finite_inputs.Finite
end
-- ==== Proof.AlgebraBase.lean ====
/-
  Real numbers inside the extended reals: the tools that carry an identity of real numbers over to the finite
  extended reals.

  The coercion ℝ → EReal commutes with +, -, ·, negation, max and finite sums; on a coerced real the exponential is the
  real exponential and the logarithm of a positive number is the real logarithm; dividing by a nonzero real is
  multiplying by its reciprocal. The float words used by the loss are the reals 1, 2, -1/2, 131072 and 1048576.
  The stable softplus  P(t) = max(t,0) + log(1 + exp(-max(t,-t)))  satisfies  P(t) = t + P(-t).
-/
import proofs.«175631_j47579647705163_2_alg».proof.Proof.Spec
import proofs.«175631_j47579647705163_2_alg».proof.Proof.LibERealSums
import Mathlib

noncomputable section

open scoped BigOperators

namespace Cert.Vgae

open Idealize.ShloMosaic
open Cert.LibERealSums

/-! ## The float words -/

/-- The word of one. -/
theorem wOne_eq : wOne = ((1 : ℝ) : EReal) := by
  simp [Ideal.ofBits, Ideal.ieee, -EReal.coe_mul]; norm_num
/-- The word of two. -/
theorem wTwo_eq : wTwo = ((2 : ℝ) : EReal) := by
  simp [Ideal.ofBits, Ideal.ieee, -EReal.coe_mul]; norm_num
/-- The word of minus one half. -/
theorem wNegHalf_eq : wNegHalf = ((-(1 / 2) : ℝ) : EReal) := by
  simp [Ideal.ofBits, Ideal.ieee, -EReal.coe_mul]; norm_num
/-- The word of 131072. -/
theorem wND_eq : wND = ((131072 : ℝ) : EReal) := by
  simp [Ideal.ofBits, Ideal.ieee, -EReal.coe_mul]; norm_num
/-- The word of 1048576. -/
theorem wNN_eq : wNN = ((1048576 : ℝ) : EReal) := by
  simp [Ideal.ofBits, Ideal.ieee, -EReal.coe_mul]; norm_num

/-! ## The coercion and the operations -/

/-- The coercion commutes with a finite sum. -/
theorem coe_sum {α : Type} (s : Finset α) (g : α → ℝ) : (∑ l ∈ s, ((g l : ℝ) : EReal)) = ((∑ l ∈ s, g l : ℝ) : EReal) := by
  classical
  induction s using Finset.induction_on with
  | empty => simp
  | insert i s hi ih => rw [Finset.sum_insert hi, Finset.sum_insert hi, EReal.coe_add, ih]

/-- The coercion commutes with max. -/
theorem coe_max (a b : ℝ) : max (a : EReal) (b : EReal) = ((max a b : ℝ) : EReal) :=
  (EReal.coe_strictMono.monotone.map_max).symm

/-- Zero is the real zero. -/
theorem zero_eq_coe : (0 : EReal) = ((0 : ℝ) : EReal) := EReal.coe_zero.symm
/-- One is the real one. -/
theorem one_eq_coe : (1 : EReal) = ((1 : ℝ) : EReal) := EReal.coe_one.symm

/-- A dense layer on real data is the real dense layer. -/
theorem dense_coe {κ : Type} [Fintype κ] (u w : κ → ℝ) (b : ℝ) :
    (∑ k, (u k : EReal) * (w k : EReal)) + (b : EReal) = (((∑ k, u k * w k) + b : ℝ) : EReal) := by
  simp only [← EReal.coe_mul]
  rw [coe_sum, ← EReal.coe_add]

/-! ## The softplus -/

/-- The stable softplus on the reals. -/
def P (t : ℝ) : ℝ := max t 0 + Real.log (1 + Real.exp (-(max t (-t))))

/-- The fused spelling of the softplus, on a real. -/
theorem spK_coe (t : ℝ) : spK (t : EReal) = ((P t : ℝ) : EReal) := by
  unfold spK Ideal.log1p P
  rw [zero_eq_coe, one_eq_coe, ← EReal.coe_sub, ← EReal.coe_neg, coe_max, coe_max, ← EReal.coe_sub, Ideal.exp_coe,
    ← EReal.coe_add, Ideal.log_coe, if_neg (not_le.mpr (by positivity)), ← EReal.coe_add]
  simp only [sub_zero, zero_sub]

/-- The plain spelling of the softplus, on a real. -/
theorem spR_coe (t : ℝ) : spR (t : EReal) = ((P t : ℝ) : EReal) := by
  unfold spR Ideal.log1p P
  rw [zero_eq_coe, one_eq_coe, ← EReal.coe_sub, ← EReal.coe_neg, coe_max, coe_max, ← EReal.coe_neg, Ideal.exp_coe,
    ← EReal.coe_add, Ideal.log_coe, if_neg (not_le.mpr (by positivity)), ← EReal.coe_add]
  simp only [sub_zero]

/-- P(t) = t + P(-t):  max(t,0) = t + max(-t,0)  and  max(-t,t) = max(t,-t). -/
theorem P_eq (t : ℝ) : P t = t + P (-t) := by
  unfold P
  rw [neg_neg, max_comm (-t) t]
  have h : max t 0 = t + max (-t) 0 := by
    rcases le_total t 0 with ht | ht
    · rw [max_eq_right ht, max_eq_left (by linarith)]; ring
    · rw [max_eq_left ht, max_eq_right (by linarith)]; ring
  rw [h]; ring

end Cert.Vgae

end
-- ==== Proof.AlgebraKl.lean ====
/-
  The Kullback–Leibler term of the loss: the fused form and the plain form agree on finite data.

  On real data every intermediate of either form is a real number, so each form is the coercion of a real expression:
  the dense layers  mean = Σ x·wm + bm,  lstd = Σ x·ws + bs,  the latent  z = mean + exp(lstd)·e  and the logits
  Σ_d z n d · z m d  are the real ones. The two Kullback–Leibler terms differ only in  exp(l)·exp(l)  against
  exp(2·l), equal because  exp(l)·exp(l) = exp(l + l);  and  (-1/2 · S) · (1/131072) = -1/2 · ((0 + S) · (1/131072)).
-/
import proofs.«175631_j47579647705163_2_alg».proof.Proof.AlgebraBase

noncomputable section

open scoped BigOperators

namespace Cert.Vgae

open Idealize.ShloMosaic
open Cert.LibERealSums

variable {ι κ δ : Type} [Fintype ι] [Fintype κ] [Fintype δ]

/-! ## The real twins of the layers -/

section twins

variable (x : ι → κ → ℝ) (e : ι → δ → ℝ) (wm ws : κ → δ → ℝ) (bm bs : δ → ℝ)

/-- A real dense layer  Σ_k x n k · w k d + b d  (the mean head with wm, bm; the log-deviation head with ws, bs). -/
def denseT (w : κ → δ → ℝ) (b : δ → ℝ) (n : ι) (d : δ) : ℝ := (∑ k, x n k * w k d) + b d
/-- The real latent sample. -/
def zT (n : ι) (d : δ) : ℝ := denseT x wm bm n d + Real.exp (denseT x ws bs n d) * e n d
/-- The real logit. -/
def logitT (n m : ι) : ℝ := ∑ d, zT x e wm ws bm bs n d * zT x e wm ws bm bs m d

/-- The mean head on real data. -/
theorem mean_coe (n : ι) (d : δ) :
    mean (fun n k => (x n k : EReal)) (fun k d => (wm k d : EReal)) (fun d => (bm d : EReal)) n d
      = ((denseT x wm bm n d : ℝ) : EReal) :=
  dense_coe (fun k => x n k) (fun k => wm k d) (bm d)

/-- The log-deviation head on real data. -/
theorem lstd_coe (n : ι) (d : δ) :
    lstd (fun n k => (x n k : EReal)) (fun k d => (ws k d : EReal)) (fun d => (bs d : EReal)) n d
      = ((denseT x ws bs n d : ℝ) : EReal) :=
  dense_coe (fun k => x n k) (fun k => ws k d) (bs d)

/-- The latent sample on real data. -/
theorem z_coe (n : ι) (d : δ) :
    z (fun n k => (x n k : EReal)) (fun n d => (e n d : EReal)) (fun k d => (wm k d : EReal))
        (fun k d => (ws k d : EReal)) (fun d => (bm d : EReal)) (fun d => (bs d : EReal)) n d
      = ((zT x e wm ws bm bs n d : ℝ) : EReal) := by
  simp only [z, mean_coe, lstd_coe, Ideal.exp_coe, ← EReal.coe_mul, ← EReal.coe_add, zT]

/-- The logit on real data. -/
theorem logit_coe (n m : ι) :
    logit (fun n k => (x n k : EReal)) (fun n d => (e n d : EReal)) (fun k d => (wm k d : EReal))
        (fun k d => (ws k d : EReal)) (fun d => (bm d : EReal)) (fun d => (bs d : EReal)) n m
      = ((logitT x e wm ws bm bs n m : ℝ) : EReal) := by
  simp only [logit, z_coe, ← EReal.coe_mul, coe_sum, logitT]

end twins

/-! ## The Kullback–Leibler term -/

section kl

variable (x : ι → κ → ℝ) (wm ws : κ → δ → ℝ) (bm bs : δ → ℝ)

/-- The real fused term  1 + 2·l - m² - exp(l)·exp(l). -/
def klTermKT (n : ι) (d : δ) : ℝ :=
  ((1 + 2 * denseT x ws bs n d) - denseT x wm bm n d * denseT x wm bm n d)
    - Real.exp (denseT x ws bs n d) * Real.exp (denseT x ws bs n d)

/-- The real plain term  1 + 2·l - m² - exp(2·l). -/
def klTermRT (n : ι) (d : δ) : ℝ :=
  ((1 + 2 * denseT x ws bs n d) - denseT x wm bm n d * denseT x wm bm n d) - Real.exp (2 * denseT x ws bs n d)

/-- exp(l)·exp(l) = exp(2·l): the two real terms are the same. -/
theorem klTermKT_eq (n : ι) (d : δ) : klTermKT x wm ws bm bs n d = klTermRT x wm ws bm bs n d := by
  unfold klTermKT klTermRT
  rw [← Real.exp_add, two_mul]

/-- The fused term on real data. -/
theorem klTermK_coe (n : ι) (d : δ) :
    klTermK (fun n k => (x n k : EReal)) (fun k d => (wm k d : EReal)) (fun k d => (ws k d : EReal))
        (fun d => (bm d : EReal)) (fun d => (bs d : EReal)) n d
      = ((klTermKT x wm ws bm bs n d : ℝ) : EReal) := by
  simp only [klTermK, wOne_eq, wTwo_eq, mean_coe, lstd_coe, Ideal.exp_coe, ← EReal.coe_mul, ← EReal.coe_add,
    ← EReal.coe_sub, klTermKT]

/-- The plain term on real data. -/
theorem klTermR_coe (n : ι) (d : δ) :
    klTermR (fun n k => (x n k : EReal)) (fun k d => (wm k d : EReal)) (fun k d => (ws k d : EReal))
        (fun d => (bm d : EReal)) (fun d => (bs d : EReal)) n d
      = ((klTermRT x wm ws bm bs n d : ℝ) : EReal) := by
  simp only [klTermR, wOne_eq, wTwo_eq, mean_coe, lstd_coe, ← EReal.coe_mul, Ideal.exp_coe, ← EReal.coe_add,
    ← EReal.coe_sub, klTermRT]

/-- The fused Kullback–Leibler loss on real data. -/
theorem klK_coe :
    klK (fun n k => (x n k : EReal)) (fun k d => (wm k d : EReal)) (fun k d => (ws k d : EReal))
        (fun d => (bm d : EReal)) (fun d => (bs d : EReal))
      = (((-(1 / 2) * ∑ n, ∑ d, klTermKT x wm ws bm bs n d) * (1 / 131072) : ℝ) : EReal) := by
  unfold klK
  rw [wND_eq, Ideal.div_coe (by norm_num), wNegHalf_eq]
  simp only [klTermK_coe, coe_sum, ← EReal.coe_mul]

/-- The plain Kullback–Leibler loss on real data. -/
theorem klR_coe :
    klR (fun n k => (x n k : EReal)) (fun k d => (wm k d : EReal)) (fun k d => (ws k d : EReal))
        (fun d => (bm d : EReal)) (fun d => (bs d : EReal))
      = ((-(1 / 2) * ((∑ n, ∑ d, klTermRT x wm ws bm bs n d) * (1 / 131072)) : ℝ) : EReal) := by
  unfold klR
  rw [wND_eq, Ideal.div_coe (by norm_num), wNegHalf_eq, zero_add]
  simp only [klTermR_coe, coe_sum, ← EReal.coe_mul]

/-- The two forms of the Kullback–Leibler loss agree on real data. -/
theorem kl_eq_coe :
    klK (fun n k => (x n k : EReal)) (fun k d => (wm k d : EReal)) (fun k d => (ws k d : EReal))
        (fun d => (bm d : EReal)) (fun d => (bs d : EReal))
      = klR (fun n k => (x n k : EReal)) (fun k d => (wm k d : EReal)) (fun k d => (ws k d : EReal))
        (fun d => (bm d : EReal)) (fun d => (bs d : EReal)) := by
  rw [klK_coe, klR_coe]
  simp only [klTermKT_eq]
  congr 1
  ring

end kl

/-- THE KULLBACK–LEIBLER TERM: on finite data the fused form and the plain form are equal. -/
theorem kl_eq (x : ι → κ → EReal) (wm ws : κ → δ → EReal) (bm bs : δ → EReal)
    (hx : ∀ n k, IsFin (x n k)) (hwm : ∀ k d, IsFin (wm k d)) (hws : ∀ k d, IsFin (ws k d))
    (hbm : ∀ d, IsFin (bm d)) (hbs : ∀ d, IsFin (bs d)) :
    klK x wm ws bm bs = klR x wm ws bm bs := by
  choose x' hx' using fun n k => (hx n k).exists_coe
  choose wm' hwm' using fun k d => (hwm k d).exists_coe
  choose ws' hws' using fun k d => (hws k d).exists_coe
  choose bm' hbm' using fun d => (hbm d).exists_coe
  choose bs' hbs' using fun d => (hbs d).exists_coe
  rw [show x = fun n k => (x' n k : EReal) from funext fun n => funext fun k => hx' n k,
    show wm = fun k d => (wm' k d : EReal) from funext fun k => funext fun d => hwm' k d,
    show ws = fun k d => (ws' k d : EReal) from funext fun k => funext fun d => hws' k d,
    show bm = fun d => (bm' d : EReal) from funext hbm',
    show bs = fun d => (bs' d : EReal) from funext hbs']
  exact kl_eq_coe x' wm' ws' bm' bs'

end Cert.Vgae

end
-- ==== Proof.AlgebraBce.lean ====
/-
  The cross-entropy term of the loss: the fused form and the plain form agree on finite data.

  With the stable softplus P and a logit L, the plain form's term for an adjacency entry a is
      a·(-P(-L)) + (1 - a)·(-P(L)) = -P(-L) - L + a·L,
  because P(L) = L + P(-L). Summed over all pairs (n,m) and negated, this is  Σ P(-L) + Σ L - Σ a·L,  and
      Σ_{n,m} L n m = Σ_{n,m} Σ_d z n d · z m d = Σ_d (Σ_n z n d)·(Σ_n z n d),
      Σ_{n,m} a n m · L n m = Σ_n Σ_d z n d · (Σ_m a n m · z m d),
  which is the fused form.
-/
import proofs.«175631_j47579647705163_2_alg».proof.Proof.AlgebraKl

noncomputable section

open scoped BigOperators

namespace Cert.Vgae

open Idealize.ShloMosaic
open Cert.LibERealSums

variable {ι κ δ : Type} [Fintype ι] [Fintype κ] [Fintype δ]

/-! ## Sums of inner products -/

/-- Σ_d (Σ_n z n d)·(Σ_n z n d) = Σ_{n,m} Σ_d z n d · z m d. -/
theorem sum_logit (zz : ι → δ → ℝ) :
    ∑ d, (∑ n, zz n d) * (∑ n, zz n d) = ∑ n, ∑ m, ∑ d, zz n d * zz m d := by
  calc ∑ d, (∑ n, zz n d) * (∑ n, zz n d)
      = ∑ d, ∑ n, ∑ m, zz n d * zz m d :=
        Finset.sum_congr rfl fun d _ => by
          rw [Finset.sum_mul]
          exact Finset.sum_congr rfl fun n _ => by rw [Finset.mul_sum]
    _ = ∑ n, ∑ d, ∑ m, zz n d * zz m d := Finset.sum_comm
    _ = ∑ n, ∑ m, ∑ d, zz n d * zz m d := Finset.sum_congr rfl fun n _ => Finset.sum_comm

/-- Σ_n Σ_d z n d · (Σ_m a n m · z m d) = Σ_{n,m} a n m · Σ_d z n d · z m d. -/
theorem sum_adj_logit (a : ι → ι → ℝ) (zz : ι → δ → ℝ) :
    ∑ n, ∑ d, zz n d * ∑ m, a n m * zz m d = ∑ n, ∑ m, a n m * ∑ d, zz n d * zz m d := by
  refine Finset.sum_congr rfl fun n _ => ?_
  calc ∑ d, zz n d * ∑ m, a n m * zz m d
      = ∑ d, ∑ m, a n m * (zz n d * zz m d) :=
        Finset.sum_congr rfl fun d _ => by
          rw [Finset.mul_sum]
          exact Finset.sum_congr rfl fun m _ => by ring
    _ = ∑ m, ∑ d, a n m * (zz n d * zz m d) := Finset.sum_comm
    _ = ∑ m, a n m * ∑ d, zz n d * zz m d := Finset.sum_congr rfl fun m _ => by rw [Finset.mul_sum]

/-- One pair's term:  a·(-P(-L)) + (1 - a)·(-P(-(-L))) = -P(0 - L) - L + a·L,  from  P(L) = L + P(-L). -/
theorem term_eq (a L : ℝ) : a * (-(P (-L))) + (1 - a) * (-(P (-(-L)))) = -(P (0 - L)) - L + a * L := by
  rw [neg_neg, zero_sub, P_eq L]
  ring

/-! ## The cross entropy -/

section bce

variable (x : ι → κ → ℝ) (a : ι → ι → ℝ) (e : ι → δ → ℝ) (wm ws : κ → δ → ℝ) (bm bs : δ → ℝ)

/-- The real plain term of the pair (n,m). -/
def bceTermRT (n m : ι) : ℝ :=
  a n m * (-(P (-(logitT x e wm ws bm bs n m)))) + (1 - a n m) * (-(P (-(-(logitT x e wm ws bm bs n m)))))

/-- The real fused numerator:  Σ P(0 - L) + Σ_d (Σ_n z)² - Σ_n Σ_d z·(Σ_m a·z). -/
def bceNumKT : ℝ :=
  ((∑ n, ∑ m, P (0 - logitT x e wm ws bm bs n m))
      + ∑ d, (∑ n, zT x e wm ws bm bs n d) * (∑ n, zT x e wm ws bm bs n d))
    - ∑ n, ∑ d, zT x e wm ws bm bs n d * ∑ m, a n m * zT x e wm ws bm bs m d

/-- The plain term on real data. -/
theorem bceTermR_coe (n m : ι) :
    bceTermR (fun n k => (x n k : EReal)) (fun n m => (a n m : EReal)) (fun n d => (e n d : EReal))
        (fun k d => (wm k d : EReal)) (fun k d => (ws k d : EReal)) (fun d => (bm d : EReal))
        (fun d => (bs d : EReal)) n m
      = ((bceTermRT x a e wm ws bm bs n m : ℝ) : EReal) := by
  simp only [bceTermR, logit_coe, wOne_eq, ← EReal.coe_neg, spR_coe, ← EReal.coe_sub, ← EReal.coe_mul,
    ← EReal.coe_add, bceTermRT]

/-- The plain cross entropy on real data. -/
theorem bceR_coe :
    bceR (fun n k => (x n k : EReal)) (fun n m => (a n m : EReal)) (fun n d => (e n d : EReal))
        (fun k d => (wm k d : EReal)) (fun k d => (ws k d : EReal)) (fun d => (bm d : EReal))
        (fun d => (bs d : EReal))
      = ((-((∑ n, ∑ m, bceTermRT x a e wm ws bm bs n m) * (1 / 1048576)) : ℝ) : EReal) := by
  unfold bceR
  rw [wNN_eq, Ideal.div_coe (by norm_num), zero_add]
  simp only [bceTermR_coe, coe_sum, ← EReal.coe_mul, ← EReal.coe_neg]

/-- The fused cross entropy on real data. -/
theorem bceK_coe :
    bceK (fun n k => (x n k : EReal)) (fun n m => (a n m : EReal)) (fun n d => (e n d : EReal))
        (fun k d => (wm k d : EReal)) (fun k d => (ws k d : EReal)) (fun d => (bm d : EReal))
        (fun d => (bs d : EReal))
      = ((bceNumKT x a e wm ws bm bs * (1 / 1048576) : ℝ) : EReal) := by
  unfold bceK
  rw [wNN_eq, Ideal.div_coe (by norm_num)]
  simp only [logit_coe, z_coe, zero_eq_coe, ← EReal.coe_sub, spK_coe, ← EReal.coe_mul, coe_sum, ← EReal.coe_add,
    bceNumKT]

/-- The sum of the plain terms:  -Σ P(0 - L) - Σ L + Σ a·L. -/
theorem sum_bceTermRT :
    ∑ n, ∑ m, bceTermRT x a e wm ws bm bs n m
      = -(∑ n, ∑ m, P (0 - logitT x e wm ws bm bs n m)) - (∑ n, ∑ m, logitT x e wm ws bm bs n m)
        + ∑ n, ∑ m, a n m * logitT x e wm ws bm bs n m := by
  simp only [bceTermRT, term_eq, Finset.sum_add_distrib, Finset.sum_sub_distrib, Finset.sum_neg_distrib]

/-- The real identity between the two forms. -/
theorem bce_real_eq :
    bceNumKT x a e wm ws bm bs * (1 / 1048576)
      = -((∑ n, ∑ m, bceTermRT x a e wm ws bm bs n m) * (1 / 1048576)) := by
  rw [sum_bceTermRT, bceNumKT, sum_logit (zT x e wm ws bm bs), sum_adj_logit a (zT x e wm ws bm bs)]
  simp only [logitT]
  ring

/-- The two forms of the cross entropy agree on real data. -/
theorem bce_eq_coe :
    bceK (fun n k => (x n k : EReal)) (fun n m => (a n m : EReal)) (fun n d => (e n d : EReal))
        (fun k d => (wm k d : EReal)) (fun k d => (ws k d : EReal)) (fun d => (bm d : EReal))
        (fun d => (bs d : EReal))
      = bceR (fun n k => (x n k : EReal)) (fun n m => (a n m : EReal)) (fun n d => (e n d : EReal))
        (fun k d => (wm k d : EReal)) (fun k d => (ws k d : EReal)) (fun d => (bm d : EReal))
        (fun d => (bs d : EReal)) := by
  rw [bceK_coe, bceR_coe, bce_real_eq]

end bce

/-- THE CROSS ENTROPY: on finite data the fused form and the plain form are equal. -/
theorem bce_eq (x : ι → κ → EReal) (a : ι → ι → EReal) (e : ι → δ → EReal) (wm ws : κ → δ → EReal)
    (bm bs : δ → EReal)
    (hx : ∀ n k, IsFin (x n k)) (ha : ∀ n m, IsFin (a n m)) (he : ∀ n d, IsFin (e n d))
    (hwm : ∀ k d, IsFin (wm k d)) (hws : ∀ k d, IsFin (ws k d)) (hbm : ∀ d, IsFin (bm d))
    (hbs : ∀ d, IsFin (bs d)) :
    bceK x a e wm ws bm bs = bceR x a e wm ws bm bs := by
  choose x' hx' using fun n k => (hx n k).exists_coe
  choose a' ha' using fun n m => (ha n m).exists_coe
  choose e' he' using fun n d => (he n d).exists_coe
  choose wm' hwm' using fun k d => (hwm k d).exists_coe
  choose ws' hws' using fun k d => (hws k d).exists_coe
  choose bm' hbm' using fun d => (hbm d).exists_coe
  choose bs' hbs' using fun d => (hbs d).exists_coe
  rw [show x = fun n k => (x' n k : EReal) from funext fun n => funext fun k => hx' n k,
    show a = fun n m => (a' n m : EReal) from funext fun n => funext fun m => ha' n m,
    show e = fun n d => (e' n d : EReal) from funext fun n => funext fun d => he' n d,
    show wm = fun k d => (wm' k d : EReal) from funext fun k => funext fun d => hwm' k d,
    show ws = fun k d => (ws' k d : EReal) from funext fun k => funext fun d => hws' k d,
    show bm = fun d => (bm' d : EReal) from funext hbm',
    show bs = fun d => (bs' d : EReal) from funext hbs']
  exact bce_eq_coe x' a' e' wm' ws' bm' bs'

end Cert.Vgae

end
-- ==== Proof.LossEq.lean ====
/-
  The two spellings of the final loss agree on finite data.

  Graph by graph the fused and the plain forms of the cross entropy and of the Kullback–Leibler term are equal when every
  entry of the graph's data is a real number; the final loss is the same function of the 32 pairs of per-graph numbers on
  both sides, so it is equal too.
-/
import proofs.«175631_j47579647705163_2_alg».proof.Proof.SpecArrays
import proofs.«175631_j47579647705163_2_alg».proof.Proof.AlgebraBce

noncomputable section

namespace Cert.Vgae

open Idealize.ShloMosaic Idealize.ShloMosaic.ValueIdx Cert.LibERealSums

theorem loss_eq (X : (⟨3, ![32, 1024, 256]⟩ : Shape).Idx → EReal) (A : (⟨3, ![32, 1024, 1024]⟩ : Shape).Idx → EReal)
    (E : (⟨3, ![32, 1024, 128]⟩ : Shape).Idx → EReal) (Wm Ws : (⟨2, ![256, 128]⟩ : Shape).Idx → EReal)
    (bm bs : (⟨1, ![128]⟩ : Shape).Idx → EReal)
    (hX : ∀ i, IsFin (X i)) (hA : ∀ i, IsFin (A i)) (hE : ∀ i, IsFin (E i)) (hWm : ∀ i, IsFin (Wm i)) (hWs : ∀ i, IsFin (Ws i))
    (hbm : ∀ i, IsFin (bm i)) (hbs : ∀ i, IsFin (bs i)) :
    lossK X A E Wm Ws bm bs = lossR X A E Wm Ws bm bs := by
  unfold lossK lossR
  have hb : bceKAt X A E Wm Ws bm bs = bceRAt X A E Wm Ws bm bs := funext fun b =>
    bce_eq _ _ _ _ _ _ _ (fun _ _ => hX _) (fun _ _ => hA _) (fun _ _ => hE _) (fun _ _ => hWm _) (fun _ _ => hWs _)
      (fun _ => hbm _) (fun _ => hbs _)
  have hk : klKAt X Wm Ws bm bs = klRAt X Wm Ws bm bs := funext fun b =>
    kl_eq _ _ _ _ _ (fun _ _ => hX _) (fun _ _ => hWm _) (fun _ _ => hWs _) (fun _ => hbm _) (fun _ => hbs _)
  rw [hb, hk]

end Cert.Vgae
end
-- ==== Proof.lean ====
/-
  The certificate of the fused variational graph auto-encoder kernel against its plain reference, on the extended reals.

  Both programs take 32 graphs (node features, adjacency, noise) and shared weights and biases, and return the node
  features unchanged, the latent samples z = mean + exp(log-std) · noise, and one number: the mean over the graphs of the
  cross entropy of the logits z·zᵀ against the adjacency plus the Kullback–Leibler term of the two heads.
  The fused program computes one graph per grid point. For the cross entropy it takes a single softplus per node pair and
  recovers the sums Σ logit and Σ adjacency·logit from column sums of z and from the product adjacency·z; for the
  Kullback–Leibler term it squares exp(log-std) where the reference takes exp(2·log-std). On finite inputs these are the
  same real numbers (`Cert.Vgae.loss_eq`: softplus(t) = t + softplus(-t), exp(2l) = exp(l)², and two exchanges of finite
  sums), which is where the precondition is used; the latent samples agree with no condition at all.
  The three frames are the fused program's generated frame at both instances and the reference's run with its result
  dropped; no operation was rewritten between the fused program and its idealization.
-/
import proofs.«175631_j47579647705163_2_alg».proof.Defs
import proofs.«175631_j47579647705163_2_alg».proof.Proof.Gen.Kernel
import proofs.«175631_j47579647705163_2_alg».proof.Proof.Gen.Kernel.Skeleton
import proofs.«175631_j47579647705163_2_alg».proof.Proof.Gen.Kernel.Launch
import proofs.«175631_j47579647705163_2_alg».proof.Proof.Gen.Kernel.Points
import proofs.«175631_j47579647705163_2_alg».proof.Proof.Gen.Kernel.Frame
import proofs.«175631_j47579647705163_2_alg».proof.Proof.Gen.KernelIdeal
import proofs.«175631_j47579647705163_2_alg».proof.Proof.Gen.KernelIdeal.Skeleton
import proofs.«175631_j47579647705163_2_alg».proof.Proof.Gen.KernelIdeal.Launch
import proofs.«175631_j47579647705163_2_alg».proof.Proof.Gen.KernelIdeal.Points
import proofs.«175631_j47579647705163_2_alg».proof.Proof.Gen.KernelIdeal.Frame
import proofs.«175631_j47579647705163_2_alg».proof.Proof.Gen.ReferenceIdeal
import proofs.«175631_j47579647705163_2_alg».proof.Proof.Gen.Pre_finite_inputs
import proofs.«175631_j47579647705163_2_alg».proof.Proof.KernelRun
import proofs.«175631_j47579647705163_2_alg».proof.Proof.RefRun
import proofs.«175631_j47579647705163_2_alg».proof.Proof.RefRead
import proofs.«175631_j47579647705163_2_alg».proof.Proof.Finite
import proofs.«175631_j47579647705163_2_alg».proof.Proof.LossEq
import Idealize.ShloMosaic.Adequacy
import Idealize.ShloMosaic.Init

noncomputable section

namespace Cert.Proof

open Idealize.ShloMosaic Idealize.ShloMosaic.TcCoe Idealize.SL.Sem

/-- The fused program runs and keeps its arguments: its generated frame. -/
theorem frame_k : Cert.frame_Kernel := fun m ρ _ => Cert.Kernel.Gen.frame m ρ

/-- The same at the extended reals. -/
theorem frame_ki : Cert.frame_KernelIdeal := fun m ρ _ => Cert.KernelIdeal.Gen.frame m ρ

/-- The reference runs and keeps its arguments: its run, the results dropped. -/
theorem frame_ri : Cert.frame_ReferenceIdeal := fun m ρ _ =>
  (θ_run Cert.ReferenceIdeal.defs _ _).mono (fun _ h c => (h c).2) (Cert.ReferenceIdeal.RefRun.run (F := Ideal) m ρ)

/-- No operation was rewritten on the way to the extended reals. -/
theorem preserves : Cert.preserves_Kernel_KernelIdeal := trivial

/-- From memories that agree on the arguments both programs end with the node features, the latent samples `latentArr`
    and the loss `lossK` of the arguments: the fused program by its run read block by block, the reference by its run read
    index by index (`lossR`), and the two losses agree because the arguments are finite. -/
theorem algebraic : Cert.algebraic_KernelIdeal_ReferenceIdeal := by
  intro m ρ m' ρ' hpre hagree
  refine ⟨fun c => m ((c.tc : Thread Cert.KernelIdeal.nD Cert.KernelIdeal.τ).loc Cert.KernelIdeal.main_arg0),
    fun c => Cert.KernelIdeal.Arrays.Lat m c,
    fun c => fun _ => Cert.Vgae.lossK (Cert.KernelIdeal.Gen.V m c Cert.KernelIdeal.main_arg0)
      (Cert.KernelIdeal.Gen.V m c Cert.KernelIdeal.main_arg1) (Cert.KernelIdeal.Gen.V m c Cert.KernelIdeal.main_arg2)
      (Cert.KernelIdeal.Gen.V m c Cert.KernelIdeal.main_arg3) (Cert.KernelIdeal.Gen.V m c Cert.KernelIdeal.main_arg5)
      (Cert.KernelIdeal.Gen.V m c Cert.KernelIdeal.main_arg4) (Cert.KernelIdeal.Gen.V m c Cert.KernelIdeal.main_arg6), ?_, ?_⟩
  · exact (θ_run Cert.KernelIdeal.defs _ _).mono (fun r h c => ⟨(h c).2.1, (h c).1.1, (h c).1.2, (h c).2⟩)
      (Cert.KernelIdeal.Run.run m ρ)
  · refine (θ_run Cert.ReferenceIdeal.defs _ _).mono (fun r h c => ?_) (Cert.ReferenceIdeal.RefRun.run (F := Ideal) m' ρ')
    obtain ⟨a0, a1, a2, a3, a4, a5, a6⟩ := hagree c
    obtain ⟨f0, f1, f2, f3, f4, f5, f6⟩ := Cert.Pre_finite_inputs.Finite.all_finite _ _ _ _ _ _ _ (hpre c)
    refine ⟨(h c).2.1.trans a0, ?_, ?_, (h c).2⟩
    · rw [(h c).1.1, a0, a2, a3, a4, a5, a6]
      exact Cert.ReferenceIdeal.RefRead.latent_eq _ _ _ _ _ _
    · rw [(h c).1.2, a0, a1, a2, a3, a4, a5, a6, Cert.ReferenceIdeal.RefRead.total_eq]
      exact funext fun _ => (Cert.Vgae.loss_eq _ _ _ _ _ _ _ f0 f1 f2 f3 f5 f4 f6).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
